-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x16 : Shape := ⟨2, ![1000000, 16]⟩
abbrev S2x4000000 : Shape := ⟨2, ![2, 4000000]⟩
abbrev S16x16 : Shape := ⟨2, ![16, 16]⟩
abbrev S16 : Shape := ⟨1, ![16]⟩
abbrev S_ : Shape := ⟨0, ![]⟩

class Facts : Prop where
  bcast_S_S1000000x16 : S_.BroadcastsInDim S1000000x16 (![] : Fin 0 → Fin S1000000x16.rank)
  reducesTo_S1000000x16_S_d0_1 : S1000000x16.ReducesTo [0, 1] S_
  h_S_ : 0 < S_.numel
  bcast_S_S16x16 : S_.BroadcastsInDim S16x16 (![] : Fin 0 → Fin S16x16.rank)
  reducesTo_S16x16_S_d0_1 : S16x16.ReducesTo [0, 1] S_
  bcast_S_S16 : S_.BroadcastsInDim S16 (![] : Fin 0 → Fin S16.rank)
  reducesTo_S16_S_d0 : S16.ReducesTo [0] S_

variable [Facts]

def fn {F : FTy → Type} [FloatOps F] (main_arg0 : FVec F S1000000x16 .f32) (main_arg1 : IVec S2x4000000 32) (main_arg2 : FVec F S16x16 .f32) (main_arg3 : FVec F S16 .f32) : IVec S_ 1 :=
  let main_v0 : FVec F S1000000x16 .f32 := Host.absf main_arg0
  let main_cst : FVec F S_ .f32 := constant S_ .f32 0x7F800000#32
  let main_v1 : FVec F S1000000x16 .f32 := broadcastInDim S1000000x16 ![] bcast_S_S1000000x16 main_cst
  let main_v2 : IVec S1000000x16 1 := cmpf .olt main_v0 main_v1
  let main_c : IVec S_ 1 := constantI S_ 1 1#1
  let main_v3 : IVec S_ 1 := (fun x v => Host.reduce IntOp.andi x v reducesTo_S1000000x16_S_d0_1 h_S_) main_v2 main_c
  let main_v4 : FVec F S16x16 .f32 := Host.absf main_arg2
  let main_cst_0 : FVec F S_ .f32 := constant S_ .f32 0x7F800000#32
  let main_v5 : FVec F S16x16 .f32 := broadcastInDim S16x16 ![] bcast_S_S16x16 main_cst_0
  let main_v6 : IVec S16x16 1 := cmpf .olt main_v4 main_v5
  let main_c_1 : IVec S_ 1 := constantI S_ 1 1#1
  let main_v7 : IVec S_ 1 := (fun x v => Host.reduce IntOp.andi x v reducesTo_S16x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  main_v13
-- ==== Kernel.lean ====
abbrev S1000000x16 : Shape := ⟨2, ![1000000, 16]⟩
abbrev S2x4000000 : Shape := ⟨2, ![2, 4000000]⟩
abbrev S16x16 : Shape := ⟨2, ![16, 16]⟩
abbrev S16 : Shape := ⟨1, ![16]⟩
abbrev S1x4000000 : Shape := ⟨2, ![1, 4000000]⟩
abbrev S4000000 : Shape := ⟨1, ![4000000]⟩
abbrev S_ : Shape := ⟨0, ![]⟩
abbrev S1000000 : Shape := ⟨1, ![1000000]⟩
abbrev S4000000x1 : Shape := ⟨2, ![4000000, 1]⟩
abbrev S125000x128 : Shape := ⟨2, ![125000, 128]⟩
abbrev S125000x8 : Shape := ⟨2, ![125000, 8]⟩
abbrev S8x8 : Shape := ⟨2, ![8, 8]⟩
abbrev S8x1x8x1 : Shape := ⟨4, ![8, 1, 8, 1]⟩
abbrev S1x16x1x16 : Shape := ⟨4, ![1, 16, 1, 16]⟩
abbrev S8x16x8x16 : Shape := ⟨4, ![8, 16, 8, 16]⟩
abbrev S128x128 : Shape := ⟨2, ![128, 128]⟩
abbrev S1x16 : Shape := ⟨2, ![1, 16]⟩
abbrev S8x16 : Shape := ⟨2, ![8, 16]⟩
abbrev S128 : Shape := ⟨1, ![128]⟩
abbrev S1x128 : Shape := ⟨2, ![1, 128]⟩
abbrev S5000x128 : Shape := ⟨2, ![5000, 128]⟩
abbrev S5000x8 : Shape := ⟨2, ![5000, 8]⟩
abbrev S5000x8x1 : Shape := ⟨3, ![5000, 8, 1]⟩
abbrev S5000x8x16 : Shape := ⟨3, ![5000, 8, 16]⟩
abbrev S4000000x16 : Shape := ⟨2, ![4000000, 16]⟩

abbrev nBuf : Space → Nat
  | .hbm => 55
  | .vmem => 16
  | .smem => 0
  | _ => 0

abbrev bufTy : (tb : Table) → Fin (tcTables nBuf tb) → BufTy
  | .hbm, ⟨0, _⟩ => ⟨S1000000x16, .f32⟩
  | .hbm, ⟨1, _⟩ => ⟨S2x4000000, .i32⟩
  | .hbm, ⟨2, _⟩ => ⟨S16x16, .f32⟩
  | .hbm, ⟨3, _⟩ => ⟨S16, .f32⟩
  | .hbm, ⟨4, _⟩ => ⟨S1x4000000, .i32⟩
  | .hbm, ⟨5, _⟩ => ⟨S4000000, .i32⟩
  | .hbm, ⟨6, _⟩ => ⟨S1x4000000, .i32⟩
  | .hbm, ⟨7, _⟩ => ⟨S4000000, .i32⟩
  | .hbm, ⟨8, _⟩ => ⟨S_, .f32⟩
  | .hbm, ⟨9, _⟩ => ⟨S4000000, .f32⟩
  | .hbm, ⟨10, _⟩ => ⟨S_, .f32⟩
  | .hbm, ⟨11, _⟩ => ⟨S1000000, .f32⟩
  | .hbm, ⟨12, _⟩ => ⟨S4000000x1, .i32⟩
  | .hbm, ⟨13, _⟩ => ⟨S1000000, .f32⟩
  | .hbm, ⟨14, _⟩ => ⟨S_, .f32⟩
  | .hbm, ⟨15, _⟩ => ⟨S1000000, .f32⟩
  | .hbm, ⟨16, _⟩ => ⟨S1000000, .f32⟩
  | .hbm, ⟨17, _⟩ => ⟨S1000000, .f32⟩
  | .hbm, ⟨18, _⟩ => ⟨S125000x128, .f32⟩
  | .hbm, ⟨19, _⟩ => ⟨S125000x8, .f32⟩
  | .hbm, ⟨20, _⟩ => ⟨S8x8, .i32⟩
  | .hbm, ⟨21, _⟩ => ⟨S8x8, .i32⟩
  | .hbm, ⟨22, _⟩ => ⟨S_, .i32⟩
  | .hbm, ⟨23, _⟩ => ⟨S8x8, .i32⟩
  | .hbm, ⟨24, _⟩ => ⟨S8x8, .i32⟩
  | .hbm, ⟨25, _⟩ => ⟨S8x8, .i1⟩
  | .hbm, ⟨26, _⟩ => ⟨S8x8, .f32⟩
  | .hbm, ⟨27, _⟩ => ⟨S8x1x8x1, .f32⟩
  | .hbm, ⟨28, _⟩ => ⟨S1x16x1x16, .f32⟩
  | .hbm, ⟨29, _⟩ => ⟨S8x16x8x16, .f32⟩
  | .hbm, ⟨30, _⟩ => ⟨S8x16x8x16, .f32⟩
  | .hbm, ⟨31, _⟩ => ⟨S8x16x8x16, .f32⟩
  | .hbm, ⟨32, _⟩ => ⟨S128x128, .f32⟩
  | .hbm, ⟨33, _⟩ => ⟨S1x16, .f32⟩
  | .hbm, ⟨34, _⟩ => ⟨S8x16, .f32⟩
  | .hbm, ⟨35, _⟩ => ⟨S128, .f32⟩
  | .hbm, ⟨36, _⟩ => ⟨S1x128, .f32⟩
  | .hbm, ⟨37, _⟩ => ⟨S125000x128, .f32⟩
  | .hbm, ⟨38, _⟩ => ⟨S1000000x16, .f32⟩
  | .hbm, ⟨39, _⟩ => ⟨S_, .i32⟩
  | .hbm, ⟨40, _⟩ => ⟨S4000000, .i32⟩
  | .hbm, ⟨41, _⟩ => ⟨S4000000, .i1⟩
  | .hbm, ⟨42, _⟩ => ⟨S_, .i32⟩
  | .hbm, ⟨43, _⟩ => ⟨S4000000, .i32⟩
  | .hbm, ⟨44, _⟩ => ⟨S4000000, .i32⟩
  | .hbm, ⟨45, _⟩ => ⟨S4000000, .i32⟩
  | .hbm, ⟨46, _⟩ => ⟨S4000000x1, .i32⟩
  | .hbm, ⟨47, _⟩ => ⟨S4000000x16, .f32⟩
  | .hbm, ⟨48, _⟩ => ⟨S_, .f32⟩
  | .hbm, ⟨49, _⟩ => ⟨S1000000x16, .f32⟩
  | .hbm, ⟨50, _⟩ => ⟨S4000000x1, .i32⟩
  | .hbm, ⟨51, _⟩ => ⟨S1000000x16, .f32⟩
  | .hbm, ⟨52, _⟩ => ⟨S125000x128, .f32⟩
  | .hbm, ⟨53, _⟩ => ⟨S125000x128, .f32⟩
  | .hbm, ⟨54, _⟩ => ⟨S1000000x16, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x8, .f32⟩
  | .local _ .vmem, ⟨4, _⟩ => ⟨S5000x8, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x8, .f32⟩
  | .local _ .vmem, ⟨12, _⟩ => ⟨S5000x8, .f32⟩
  | .local _ .vmem, ⟨13, _⟩ => ⟨S1x128, .f32⟩
  | .local _ .vmem, ⟨14, _⟩ => ⟨S5000x128, .f32⟩
  | .local _ .vmem, ⟨15, _⟩ => ⟨S5000x128, .f32⟩
  | _, _ => ⟨S1000000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_c : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_c_2 : Ref sig .tc := ⟨.hbm, 39, rfl⟩
abbrev main_v26 : Ref sig .tc := ⟨.hbm, 40, rfl⟩
abbrev main_v27 : Ref sig .tc := ⟨.hbm, 41, rfl⟩
abbrev main_c_3 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_4 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x8 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x8 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S2x4000000_S1x4000000_0_0 : S2x4000000.Slices ![0, 0] S1x4000000
  shapeCasts_S1x4000000_S4000000 : S1x4000000.ShapeCasts S4000000
  slices_S2x4000000_S1x4000000_1_0 : S2x4000000.Slices ![1, 0] S1x4000000
  bcast_S_S4000000 : S_.BroadcastsInDim S4000000 (![] : Fin 0 → Fin S4000000.rank)
  bcast_S_S1000000 : S_.BroadcastsInDim S1000000 (![] : Fin 0 → Fin S1000000.rank)
  bcast_S4000000_S4000000x1_0 : S4000000.BroadcastsInDim S4000000x1 (![0] : Fin 1 → Fin S4000000x1.rank)
  shapeCasts_S1000000x16_S125000x128 : S1000000x16.ShapeCasts S125000x128
  shapeCasts_S1000000_S125000x8 : S1000000.ShapeCasts S125000x8
  bcast_S_S8x8 : S_.BroadcastsInDim S8x8 (![] : Fin 0 → Fin S8x8.rank)
  bcast_S8x8_S8x1x8x1_0_2 : S8x8.BroadcastsInDim S8x1x8x1 (![0, 2] : Fin 2 → Fin S8x1x8x1.rank)
  bcast_S16x16_S1x16x1x16_1_3 : S16x16.BroadcastsInDim S1x16x1x16 (![1, 3] : Fin 2 → Fin S1x16x1x16.rank)
  bcast_S8x1x8x1_S8x16x8x16_0_1_2_3 : S8x1x8x1.BroadcastsInDim S8x16x8x16 (![0, 1, 2, 3] : Fin 4 → Fin S8x16x8x16.rank)
  bcast_S1x16x1x16_S8x16x8x16_0_1_2_3 : S1x16x1x16.BroadcastsInDim S8x16x8x16 (![0, 1, 2, 3] : Fin 4 → Fin S8x16x8x16.rank)
  shapeCasts_S8x16x8x16_S128x128 : S8x16x8x16.ShapeCasts S128x128
  shapeCasts_S16_S1x16 : S16.ShapeCasts S1x16
  bcast_S1x16_S8x16_0_1 : S1x16.BroadcastsInDim S8x16 (![0, 1] : Fin 2 → Fin S8x16.rank)
  shapeCasts_S8x16_S128 : S8x16.ShapeCasts S128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S5000x8_S5000x8_0_0 : ∀ a, (![0, 0] : Fin 2 → Nat) a + S5000x8.size a ≤ S5000x8.size a
  h_S5000x8 : 0 < S5000x8.numel
  shapeCasts_S5000x8_S5000x8 : S5000x8.ShapeCasts S5000x8
  shapeCasts_S5000x8_S5000x8x1 : S5000x8.ShapeCasts S5000x8x1
  broadcasts_S5000x8x1_S5000x8x16 : S5000x8x1.Broadcasts S5000x8x16
  shapeCasts_S5000x8x16_S5000x128 : S5000x8x16.ShapeCasts S5000x128
  shapeCasts_S125000x128_S1000000x16 : S125000x128.ShapeCasts S1000000x16
  bcast_S_S1000000x16 : S_.BroadcastsInDim S1000000x16 (![] : Fin 0 → Fin S1000000x16.rank)
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S1000000_S4000000x1_S4000000_n_0_0_1_wf : ScatterDims.WF S1000000 S4000000x1 S4000000 [] [0] [0] 1
  dot_S5000x128_S128x128_S5000x128_1_0_0_1_n_n_wf : DotDims.WF S5000x128 S128x128 S5000x128 [1] [0] [0] [1] [] []
  gather_S1000000x16_S4000000x1_S4000000x16_1_0_n_n_0_1_116_wf : GatherDims.WF S1000000x16 S4000000x1 S4000000x16 [1] [0] [] [0] [] 1 ![1, 16]
  scatter_S1000000x16_S4000000x1_S4000000x16_1_0_0_1_wf : ScatterDims.WF S1000000x16 S4000000x1 S4000000x16 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S125000x128.size a
  hwx0_0 : ∀ i : grid0.Coords, EltTy.bits .f32 = 32 ∨ (Rect.block (s := S125000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x8.size a ≤ S125000x8.size a
  hwx0_2 : ∀ i : grid0.Coords, EltTy.bits .f32 = 32 ∨ (Rect.block (s := S125000x8) S5000x8.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S125000x128.size a
  hwx0_3 : ∀ i : grid0.Coords, EltTy.bits .f32 = 32 ∨ (Rect.block (s := S125000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S125000x128.size a
  hwx1_0 : ∀ i : grid1.Coords, EltTy.bits .f32 = 32 ∨ (Rect.block (s := S125000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S125000x128.size a
  hwx1_1 : ∀ i : grid1.Coords, EltTy.bits .f32 = 32 ∨ (Rect.block (s := S125000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x8.size a ≤ S125000x8.size a
  hwx1_2 : ∀ i : grid1.Coords, EltTy.bits .f32 = 32 ∨ (Rect.block (s := S125000x8) S5000x8.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S125000x128.size a
  hwx1_4 : ∀ i : grid1.Coords, EltTy.bits .f32 = 32 ∨ (Rect.block (s := S125000x128) S5000x128.size (cc1_transform_4 i) (hinb1_4 i)).WholeWords (EltTy.packing .f32)

variable [Facts₀]

def scatter_S1000000_S4000000x1_S4000000_n_0_0_1 : ScatterDims S1000000 S4000000x1 S4000000 where
  updateWindowDims := []
  insertedWindowDims := [0]
  scatterDimsToOperandDims := [0]
  indexVectorDim := 1
  wf := scatter_S1000000_S4000000x1_S4000000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S1000000x16_S4000000x1_S4000000x16_1_0_n_n_0_1_116 : GatherDims S1000000x16 S4000000x1 S4000000x16 where
  offsetDims := [1]
  collapsedSliceDims := [0]
  operandBatchingDims := []
  startIndicesBatchingDims := []
  startIndexMap := [0]
  indexVectorDim := 1
  sliceSizes := ![1, 16]
  wf := gather_S1000000x16_S4000000x1_S4000000x16_1_0_n_n_0_1_116_wf
def scatter_S1000000x16_S4000000x1_S4000000x16_1_0_0_1 : ScatterDims S1000000x16 S4000000x1 S4000000x16 where
  updateWindowDims := [1]
  insertedWindowDims := [0]
  scatterDimsToOperandDims := [0]
  indexVectorDim := 1
  wf := scatter_S1000000x16_S4000000x1_S4000000x16_1_0_0_1_wf

abbrev win0_0 : Pipeline.Window sig grid0 :=
  Pipeline.Window.ofSpec (Memref.whole main_v11) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S5000x8.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v24) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v36) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S5000x8.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v23) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v37) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S1000000x16 : Shape := ⟨2, ![1000000, 16]⟩
abbrev S2x4000000 : Shape := ⟨2, ![2, 4000000]⟩
abbrev S16x16 : Shape := ⟨2, ![16, 16]⟩
abbrev S16 : Shape := ⟨1, ![16]⟩
abbrev S1x4000000 : Shape := ⟨2, ![1, 4000000]⟩
abbrev S4000000 : Shape := ⟨1, ![4000000]⟩
abbrev S_ : Shape := ⟨0, ![]⟩
abbrev S1000000 : Shape := ⟨1, ![1000000]⟩
abbrev S4000000x1 : Shape := ⟨2, ![4000000, 1]⟩
abbrev S4000000x16 : Shape := ⟨2, ![4000000, 16]⟩
abbrev S1000000x1 : Shape := ⟨2, ![1000000, 1]⟩
abbrev S1x16 : Shape := ⟨2, ![1, 16]⟩

abbrev nBuf : Space → Nat
  | .hbm => 62
  | .vmem => 0
  | .smem => 0
  | _ => 0

abbrev bufTy : (tb : Table) → Fin (tcTables nBuf tb) → BufTy
  | .hbm, ⟨0, _⟩ => ⟨S1000000x16, .f32⟩
  | .hbm, ⟨1, _⟩ => ⟨S2x4000000, .i32⟩
  | .hbm, ⟨2, _⟩ => ⟨S16x16, .f32⟩
  | .hbm, ⟨3, _⟩ => ⟨S16, .f32⟩
  | .hbm, ⟨4, _⟩ => ⟨S1x4000000, .i32⟩
  | .hbm, ⟨5, _⟩ => ⟨S4000000, .i32⟩
  | .hbm, ⟨6, _⟩ => ⟨S1x4000000, .i32⟩
  | .hbm, ⟨7, _⟩ => ⟨S4000000, .i32⟩
  | .hbm, ⟨8, _⟩ => ⟨S1000000x16, .f32⟩
  | .hbm, ⟨9, _⟩ => ⟨S_, .f32⟩
  | .hbm, ⟨10, _⟩ => ⟨S4000000, .f32⟩
  | .hbm, ⟨11, _⟩ => ⟨S_, .f32⟩
  | .hbm, ⟨12, _⟩ => ⟨S1000000, .f32⟩
  | .hbm, ⟨13, _⟩ => ⟨S4000000x1, .i32⟩
  | .hbm, ⟨14, _⟩ => ⟨S1000000, .f32⟩
  | .hbm, ⟨15, _⟩ => ⟨S_, .f32⟩
  | .hbm, ⟨16, _⟩ => ⟨S1000000, .f32⟩
  | .hbm, ⟨17, _⟩ => ⟨S1000000, .f32⟩
  | .hbm, ⟨18, _⟩ => ⟨S1000000, .f32⟩
  | .hbm, ⟨19, _⟩ => ⟨S_, .i32⟩
  | .hbm, ⟨20, _⟩ => ⟨S4000000, .i32⟩
  | .hbm, ⟨21, _⟩ => ⟨S4000000, .i1⟩
  | .hbm, ⟨22, _⟩ => ⟨S_, .i32⟩
  | .hbm, ⟨23, _⟩ => ⟨S4000000, .i32⟩
  | .hbm, ⟨24, _⟩ => ⟨S4000000, .i32⟩
  | .hbm, ⟨25, _⟩ => ⟨S4000000, .i32⟩
  | .hbm, ⟨26, _⟩ => ⟨S4000000x1, .i32⟩
  | .hbm, ⟨27, _⟩ => ⟨S4000000, .f32⟩
  | .hbm, ⟨28, _⟩ => ⟨S_, .i32⟩
  | .hbm, ⟨29, _⟩ => ⟨S4000000, .i32⟩
  | .hbm, ⟨30, _⟩ => ⟨S4000000, .i1⟩
  | .hbm, ⟨31, _⟩ => ⟨S_, .i32⟩
  | .hbm, ⟨32, _⟩ => ⟨S4000000, .i32⟩
  | .hbm, ⟨33, _⟩ => ⟨S4000000, .i32⟩
  | .hbm, ⟨34, _⟩ => ⟨S4000000, .i32⟩
  | .hbm, ⟨35, _⟩ => ⟨S4000000x1, .i32⟩
  | .hbm, ⟨36, _⟩ => ⟨S4000000, .f32⟩
  | .hbm, ⟨37, _⟩ => ⟨S4000000, .f32⟩
  | .hbm, ⟨38, _⟩ => ⟨S_, .i32⟩
  | .hbm, ⟨39, _⟩ => ⟨S4000000, .i32⟩
  | .hbm, ⟨40, _⟩ => ⟨S4000000, .i1⟩
  | .hbm, ⟨41, _⟩ => ⟨S_, .i32⟩
  | .hbm, ⟨42, _⟩ => ⟨S4000000, .i32⟩
  | .hbm, ⟨43, _⟩ => ⟨S4000000, .i32⟩
  | .hbm, ⟨44, _⟩ => ⟨S4000000, .i32⟩
  | .hbm, ⟨45, _⟩ => ⟨S4000000x1, .i32⟩
  | .hbm, ⟨46, _⟩ => ⟨S4000000x16, .f32⟩
  | .hbm, ⟨47, _⟩ => ⟨S4000000x1, .f32⟩
  | .hbm, ⟨48, _⟩ => ⟨S4000000x16, .f32⟩
  | .hbm, ⟨49, _⟩ => ⟨S4000000x16, .f32⟩
  | .hbm, ⟨50, _⟩ => ⟨S_, .f32⟩
  | .hbm, ⟨51, _⟩ => ⟨S1000000x16, .f32⟩
  | .hbm, ⟨52, _⟩ => ⟨S4000000x1, .i32⟩
  | .hbm, ⟨53, _⟩ => ⟨S1000000x16, .f32⟩
  | .hbm, ⟨54, _⟩ => ⟨S1000000, .f32⟩
  | .hbm, ⟨55, _⟩ => ⟨S1000000x1, .f32⟩
  | .hbm, ⟨56, _⟩ => ⟨S1000000x16, .f32⟩
  | .hbm, ⟨57, _⟩ => ⟨S1000000x16, .f32⟩
  | .hbm, ⟨58, _⟩ => ⟨S1000000x16, .f32⟩
  | .hbm, ⟨59, _⟩ => ⟨S1x16, .f32⟩
  | .hbm, ⟨60, _⟩ => ⟨S1000000x16, .f32⟩
  | .hbm, ⟨61, _⟩ => ⟨S1000000x16, .f32⟩
  | _, _ => ⟨S1000000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c : Ref sig .tc := ⟨.hbm, 19, rfl⟩
abbrev main_v12 : Ref sig .tc := ⟨.hbm, 20, rfl⟩
abbrev main_v13 : Ref sig .tc := ⟨.hbm, 21, rfl⟩
abbrev main_c_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_c_3 : Ref sig .tc := ⟨.hbm, 28, rfl⟩
abbrev main_v19 : Ref sig .tc := ⟨.hbm, 29, rfl⟩
abbrev main_v20 : Ref sig .tc := ⟨.hbm, 30, rfl⟩
abbrev main_c_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_c_5 : Ref sig .tc := ⟨.hbm, 38, rfl⟩
abbrev main_v27 : Ref sig .tc := ⟨.hbm, 39, rfl⟩
abbrev main_v28 : Ref sig .tc := ⟨.hbm, 40, rfl⟩
abbrev main_c_6 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_7 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩

abbrev nD : Nat := 1
abbrev τ : Topo := Topo.v7x

variable {F : FTy → Type} [FloatOps F]

class Facts₀ : Prop where
  slices_S2x4000000_S1x4000000_0_0 : S2x4000000.Slices ![0, 0] S1x4000000
  shapeCasts_S1x4000000_S4000000 : S1x4000000.ShapeCasts S4000000
  slices_S2x4000000_S1x4000000_1_0 : S2x4000000.Slices ![1, 0] S1x4000000
  bcast_S_S4000000 : S_.BroadcastsInDim S4000000 (![] : Fin 0 → Fin S4000000.rank)
  bcast_S_S1000000 : S_.BroadcastsInDim S1000000 (![] : Fin 0 → Fin S1000000.rank)
  bcast_S4000000_S4000000x1_0 : S4000000.BroadcastsInDim S4000000x1 (![0] : Fin 1 → Fin S4000000x1.rank)
  bcast_S4000000x1_S4000000x16_0_1 : S4000000x1.BroadcastsInDim S4000000x16 (![0, 1] : Fin 2 → Fin S4000000x16.rank)
  bcast_S_S1000000x16 : S_.BroadcastsInDim S1000000x16 (![] : Fin 0 → Fin S1000000x16.rank)
  bcast_S1000000_S1000000x1_0 : S1000000.BroadcastsInDim S1000000x1 (![0] : Fin 1 → Fin S1000000x1.rank)
  bcast_S1000000x1_S1000000x16_0_1 : S1000000x1.BroadcastsInDim S1000000x16 (![0, 1] : Fin 2 → Fin S1000000x16.rank)
  bcast_S16_S1x16_1 : S16.BroadcastsInDim S1x16 (![1] : Fin 1 → Fin S1x16.rank)
  bcast_S1x16_S1000000x16_0_1 : S1x16.BroadcastsInDim S1000000x16 (![0, 1] : Fin 2 → Fin S1000000x16.rank)
  dot_S1000000x16_S16x16_S1000000x16_1_0_0_1_n_n_wf : DotDims.WF S1000000x16 S16x16 S1000000x16 [1] [0] [0] [1] [] []
  scatter_S1000000_S4000000x1_S4000000_n_0_0_1_wf : ScatterDims.WF S1000000 S4000000x1 S4000000 [] [0] [0] 1
  gather_S1000000_S4000000x1_S4000000_n_0_n_n_0_1_1_wf : GatherDims.WF S1000000 S4000000x1 S4000000 [] [0] [] [0] [] 1 ![1]
  gather_S1000000x16_S4000000x1_S4000000x16_1_0_n_n_0_1_116_wf : GatherDims.WF S1000000x16 S4000000x1 S4000000x16 [1] [0] [] [0] [] 1 ![1, 16]
  scatter_S1000000x16_S4000000x1_S4000000x16_1_0_0_1_wf : ScatterDims.WF S1000000x16 S4000000x1 S4000000x16 [1] [0] [0] 1

variable [Facts₀]

def dot_S1000000x16_S16x16_S1000000x16_1_0_0_1_n_n : DotDims S1000000x16 S16x16 S1000000x16 where
  lhsContracting := [1]
  rhsContracting := [0]
  lhsNonContracting := [0]
  rhsNonContracting := [1]
  lhsBatch := []
  rhsBatch := []
  wf := dot_S1000000x16_S16x16_S1000000x16_1_0_0_1_n_n_wf
def scatter_S1000000_S4000000x1_S4000000_n_0_0_1 : ScatterDims S1000000 S4000000x1 S4000000 where
  updateWindowDims := []
  insertedWindowDims := [0]
  scatterDimsToOperandDims := [0]
  indexVectorDim := 1
  wf := scatter_S1000000_S4000000x1_S4000000_n_0_0_1_wf
def gather_S1000000_S4000000x1_S4000000_n_0_n_n_0_1_1 : GatherDims S1000000 S4000000x1 S4000000 where
  offsetDims := []
  collapsedSliceDims := [0]
  operandBatchingDims := []
  startIndicesBatchingDims := []
  startIndexMap := [0]
  indexVectorDim := 1
  sliceSizes := ![1]
  wf := gather_S1000000_S4000000x1_S4000000_n_0_n_n_0_1_1_wf
def gather_S1000000x16_S4000000x1_S4000000x16_1_0_n_n_0_1_116 : GatherDims S1000000x16 S4000000x1 S4000000x16 where
  offsetDims := [1]
  collapsedSliceDims := [0]
  operandBatchingDims := []
  startIndicesBatchingDims := []
  startIndexMap := [0]
  indexVectorDim := 1
  sliceSizes := ![1, 16]
  wf := gather_S1000000x16_S4000000x1_S4000000x16_1_0_n_n_0_1_116_wf
def scatter_S1000000x16_S4000000x1_S4000000x16_1_0_0_1 : ScatterDims S1000000x16 S4000000x1 S4000000x16 where
  updateWindowDims := [1]
  insertedWindowDims := [0]
  scatterDimsToOperandDims := [0]
  indexVectorDim := 1
  wf := scatter_S1000000x16_S4000000x1_S4000000x16_1_0_0_1_wf

class Facts : Prop extends Facts₀ where

variable [Facts]
-- ==== Proof.KernelRun.lean ====
/-
  The idealized kernel program's run with its result named.

  @main is seven segments: three stretches of host operations, the first launch, a stretch of host operations, the
  second launch, a last reshape. Every weakly fair execution ends with each unscoped buffer at the contents the
  fold through the segments gives it; the returned buffer is read off that last boundary beside the four arguments,
  which end as launched.
-/
import proofs.«167297_j79860621902688_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the returned buffer then holds the last
    boundary's contents and the four arguments are as launched. -/
theorem run_result : θ_run defs (onTc (τ := τ) (main (F := F))) ⟨m, fun _ => 0, ρ⟩ (fun r => ∀ c : Dev nD,
      r.2.mem ((c.tc : Thread nD τ).loc main_v38) = W7 m ρ c (Proc.devRef .tc main_v38)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v38 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c)⟩)

end Cert.KernelIdeal.RunValue

end
-- ==== Proof.LibPlainDot.lean ====
/-
  A product of two matrices read at an entry, on the extended reals.

  For dimension numbers that contract the left operand's second axis with the right operand's first (an M×K matrix
  times a K×N matrix, no batch axis), the contraction index has a single coordinate, and entry (r, c) of the product
  is the sum over k : Fin K of left (r, k) · right (k, c). The two forms in which a printed program spells such a
  product — the host's `dot_general`, and a `tpu.matmul` into the zero accumulator — are both that sum: the host's has no
  accumulator, and the zero word added on the left changes nothing.

  The statements take any dimension record `D` together with a proof that it is the plain record; for a printed record
  that proof is `rfl`.
-/
import Idealize.ShloMosaic.PureOps.Ideal.Laws
import Idealize.ShloMosaic.Lib.ValueIdx

noncomputable section

namespace Idealize.ShloMosaic.PlainDot

open Idealize.ShloMosaic Idealize.ShloMosaic.ValueIdx

variable {M K N : Nat}

/-- The left operand is read on its row axis at the entry's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The right operand is read on its column axis at the entry's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The contraction of a plain product, re-indexed by the one contracted coordinate. -/
theorem sum_eq (D : DotDims ⟨2, ![M, K]⟩ ⟨2, ![K, N]⟩ ⟨2, ![M, N]⟩) (hD : D = DotDims.plain M K N)
    (l : (⟨2, ![M, K]⟩ : Shape).Idx → EReal) (r : (⟨2, ![K, N]⟩ : Shape).Idx → EReal) (j : (⟨2, ![M, N]⟩ : Shape).Idx) :
    ∑ q : D.contr.Idx, l (D.lhsIdx j q) * r (D.rhsIdx j q) = ∑ k : Fin K, l (ix2 (j 0) k) * r (ix2 k (j 1)) := by
  subst hD
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhs_row _ _
      | ⟨1, _⟩ => exact ((DotDims.plain M K N).lhsIdx_val_of_single rfl _ _).trans hk)
  have er : (DotDims.plain M K N).rhsIdx j ((contrEquiv1 (DotDims.plain M K N) K rfl rfl).symm k) = ix2 k (j 1) :=
    funext fun a => Fin.ext (by
      match a with
      | ⟨0, _⟩ => exact ((DotDims.plain M K N).rhsIdx_val_of_single rfl _ _).trans hk
      | ⟨1, _⟩ => exact rhs_col _ _)
  exact congrArg₂ (fun x y => l x * r y) el er

/-- The host's `dot_general` of a plain product at an entry. -/
theorem hostDot_apply {φ₁ φ₂ : FTy} (D : DotDims ⟨2, ![M, K]⟩ ⟨2, ![K, N]⟩ ⟨2, ![M, N]⟩) (hD : D = DotDims.plain M K N)
    (prec : Option ContractPrecision) (l : FVec Ideal ⟨2, ![M, K]⟩ φ₁) (r : FVec Ideal ⟨2, ![K, N]⟩ φ₂)
    (j : (⟨2, ![M, N]⟩ : Shape).Idx) :
    Host.dotGeneral D prec l r j = ∑ k : Fin K, l (ix2 (j 0) k) * r (ix2 k (j 1)) := by
  simp only [Host.dotGeneral]
  rw [Ideal.dotGeneral_apply]
  exact sum_eq D hD l r j

/-- A `tpu.matmul` of a plain product into the zero accumulator at an entry. -/
theorem matmul_zero_apply {φ₁ φ₂ : FTy} (D : DotDims ⟨2, ![M, K]⟩ ⟨2, ![K, N]⟩ ⟨2, ![M, N]⟩) (hD : D = DotDims.plain M K N)
    (prec : Option ContractPrecision) (l : FVec Ideal ⟨2, ![M, K]⟩ φ₁) (r : FVec Ideal ⟨2, ![K, N]⟩ φ₂)
    (j : (⟨2, ![M, N]⟩ : Shape).Idx) :
    matmul D prec l r (constant (F := Ideal) ⟨2, ![M, N]⟩ .f32 0x00000000#32) j
      = ∑ k : Fin K, l (ix2 (j 0) k) * r (ix2 k (j 1)) := by
  simp only [matmul]
  rw [Ideal.matmul_constant_zero_apply]
  exact sum_eq D hD l r j

end Idealize.ShloMosaic.PlainDot

end
-- ==== Proof.LibRank3.lean ====
/-
  Rank-3 arrays read by coordinates, at the exact-real instance: the keepdims forms of a rank-3 array
  ([a,b] → [a,b,1] cast, [a,b,1] → [a,b,c] broadcast), the sum and the maximum of a rank-3 array along its last
  or its middle axis read at `ix2`, the [a] → [a,1] column of maxima, and the batched product
  `out[g, p, q] = Σ_k l[g, p, k] · r[g, q, k]` (both operands contracted on their last axis, the first axis a
  batch axis) read at `ix3 g p q` as a sum over `k`.
-/
import Idealize.ShloMosaic.PureOps.Ideal.Laws
import Idealize.ShloMosaic.Lib.ValueIdx
import Idealize.ShloMosaic.Lib.Pipeline.Value

noncomputable section

open scoped BigOperators

namespace Idealize.ShloMosaic.ValueIdx

open Idealize.ShloMosaic

variable {α : Type}

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b, 1]` array broadcast to `[a, b, c]` reads, at `(p, q, r)`, the operand at `(p, q, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (q : Fin b) (r : Fin c) :
    broadcastTo ⟨3, ![a, b, c]⟩ v h (ix3 p q r) = v (ix3 p q (0 : Fin 1)) := by
  refine broadcastTo_apply v h (ix3 p q r) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- The sum of an `[a, b, c]` array along its last axis, accumulated from the zero word: at `(i, j)` the sum over `k`. -/
theorem multiReduction_add_axis2_of3_apply {a b c : ℕ} (src : FVec Ideal ⟨3, ![a, b, c]⟩ .f32)
    (h : (⟨3, ![a, b, c]⟩ : Shape).Reduces [2] ⟨2, ![a, b]⟩) (hφ : FKind.Formats .f32)
    (hacc : (0x00000000#32 : BitVec 32) = FKind.add.neutral .f32 hφ) (i : Fin a) (j : Fin b) :
    multiReduction .add [2] ⟨2, ![a, b]⟩ src 0x00000000#32 h hφ hacc (ix2 i j) = ∑ k : Fin c, src (ix3 i j k) := by
  refine (Ideal.multiReduction_add_single src 0x00000000#32 h hφ hacc (ix2 i j)).trans ?_
  refine Finset.sum_congr rfl fun k _ => congrArg src ?_
  funext d
  match d with
  | ⟨0, _⟩ => exact Fin.ext rfl
  | ⟨1, _⟩ => exact Fin.ext rfl
  | ⟨2, _⟩ => exact Fin.ext rfl

/-- The sum of an `[a, b, c]` array along its middle axis: at `(i, k)` the sum over `j`. -/
theorem multiReduction_add_axis1_of3_apply {a b c : ℕ} (src : FVec Ideal ⟨3, ![a, b, c]⟩ .f32)
    (h : (⟨3, ![a, b, c]⟩ : Shape).Reduces [1] ⟨2, ![a, c]⟩) (hφ : FKind.Formats .f32)
    (hacc : (0x00000000#32 : BitVec 32) = FKind.add.neutral .f32 hφ) (i : Fin a) (k : Fin c) :
    multiReduction .add [1] ⟨2, ![a, c]⟩ src 0x00000000#32 h hφ hacc (ix2 i k) = ∑ j : Fin b, src (ix3 i j k) := by
  refine (Ideal.multiReduction_add_single src 0x00000000#32 h hφ hacc (ix2 i k)).trans ?_
  refine Finset.sum_congr rfl fun j _ => congrArg src ?_
  funext d
  match d with
  | ⟨0, _⟩ => exact Fin.ext rfl
  | ⟨1, _⟩ => exact Fin.ext rfl
  | ⟨2, _⟩ => exact Fin.ext rfl

/-- The maximum of an `[a, b, c]` array along its last axis: at `(i, j)` the fold of `max` over `k` from the accumulator's value. -/
theorem multiReduction_maximumf_axis2_of3_apply {a b c : ℕ} (src : FVec Ideal ⟨3, ![a, b, c]⟩ .f32) (acc : BitVec 32)
    (h : (⟨3, ![a, b, c]⟩ : Shape).Reduces [2] ⟨2, ![a, b]⟩) (hφ : FKind.Formats .f32)
    (hacc : acc = FKind.maximumf.neutral .f32 hφ) (i : Fin a) (j : Fin b) :
    multiReduction .maximumf [2] ⟨2, ![a, b]⟩ src acc h hφ hacc (ix2 i j)
      = (Finset.univ : Finset (Fin c)).fold max (Ideal.ofBits .f32 acc) (fun k => src (ix3 i j k)) := by
  refine (Ideal.multiReduction_maximumf_single src acc h hφ hacc (ix2 i j)).trans ?_
  refine congrArg (fun f => Finset.fold max (Ideal.ofBits .f32 acc) f (Finset.univ : Finset (Fin c))) (funext fun k => congrArg src ?_)
  funext d
  match d with
  | ⟨0, _⟩ => exact Fin.ext rfl
  | ⟨1, _⟩ => exact Fin.ext rfl
  | ⟨2, _⟩ => exact Fin.ext rfl

/-! ### The same reductions with the accumulator word's equation typed as a printed program carries it (`w = w`), so
    that they rewrite a printed term directly. -/

theorem sum_axis2_of3 {a b c : ℕ} (src : FVec Ideal ⟨3, ![a, b, c]⟩ .f32)
    (h : (⟨3, ![a, b, c]⟩ : Shape).Reduces [2] ⟨2, ![a, b]⟩) (hφ : FKind.Formats .f32)
    (hacc : (0x00000000#32 : BitVec 32) = 0x00000000#32) (i : Fin a) (j : Fin b) :
    multiReduction .add [2] ⟨2, ![a, b]⟩ src 0x00000000#32 h hφ hacc (ix2 i j) = ∑ k : Fin c, src (ix3 i j k) :=
  multiReduction_add_axis2_of3_apply src h hφ hacc i j

theorem sum_axis1_of3 {a b c : ℕ} (src : FVec Ideal ⟨3, ![a, b, c]⟩ .f32)
    (h : (⟨3, ![a, b, c]⟩ : Shape).Reduces [1] ⟨2, ![a, c]⟩) (hφ : FKind.Formats .f32)
    (hacc : (0x00000000#32 : BitVec 32) = 0x00000000#32) (i : Fin a) (k : Fin c) :
    multiReduction .add [1] ⟨2, ![a, c]⟩ src 0x00000000#32 h hφ hacc (ix2 i k) = ∑ j : Fin b, src (ix3 i j k) :=
  multiReduction_add_axis1_of3_apply src h hφ hacc i k

theorem max_axis2_of3 {a b c : ℕ} (src : FVec Ideal ⟨3, ![a, b, c]⟩ .f32)
    (h : (⟨3, ![a, b, c]⟩ : Shape).Reduces [2] ⟨2, ![a, b]⟩) (hφ : FKind.Formats .f32)
    (hacc : (0xFF800000#32 : BitVec 32) = 0xFF800000#32) (i : Fin a) (j : Fin b) :
    multiReduction .maximumf [2] ⟨2, ![a, b]⟩ src 0xFF800000#32 h hφ hacc (ix2 i j)
      = (Finset.univ : Finset (Fin c)).fold max (Ideal.ofBits .f32 0xFF800000#32) (fun k => src (ix3 i j k)) :=
  multiReduction_maximumf_axis2_of3_apply src 0xFF800000#32 h hφ hacc i j

/-- The sum of an `[a, b]` array along its last axis: at `i` the sum of row `i`. -/
theorem sum_axis1_of2 {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = 0x00000000#32) (i : Fin a) :
    multiReduction .add [1] ⟨1, ![a]⟩ src 0x00000000#32 h hφ hacc (ix1 i) = ∑ k : Fin b, src (ix2 i k) := by
  refine (Ideal.multiReduction_add_single src 0x00000000#32 h hφ hacc (ix1 i)).trans ?_
  refine Finset.sum_congr rfl fun k _ => congrArg src ?_
  funext d
  match d with
  | ⟨0, _⟩ => exact Fin.ext rfl
  | ⟨1, _⟩ => exact Fin.ext rfl

/-- The maximum of an `[a, b]` array along its last axis: at `i` the fold of `max` over row `i`. -/
theorem max_axis1_of2 {a b : ℕ} (src : FVec Ideal ⟨2, ![a, b]⟩ .f32)
    (h : (⟨2, ![a, b]⟩ : Shape).Reduces [1] ⟨1, ![a]⟩) (hφ : FKind.Formats .f32)
    (hacc : (0xFF800000#32 : BitVec 32) = 0xFF800000#32) (i : Fin a) :
    multiReduction .maximumf [1] ⟨1, ![a]⟩ src 0xFF800000#32 h hφ hacc (ix1 i)
      = (Finset.univ : Finset (Fin b)).fold max (Ideal.ofBits .f32 0xFF800000#32) (fun k => src (ix2 i k)) := by
  refine (Ideal.multiReduction_maximumf_single src 0xFF800000#32 h hφ hacc (ix1 i)).trans ?_
  refine congrArg (fun f => Finset.fold max (Ideal.ofBits .f32 0xFF800000#32) f (Finset.univ : Finset (Fin b))) (funext fun k => congrArg src ?_)
  funext d
  match d with
  | ⟨0, _⟩ => exact Fin.ext rfl
  | ⟨1, _⟩ => exact Fin.ext rfl

/-- An `[a]` array cast to the column `[a, 1]` reads, at `(i, u)`, the operand at `i`. -/
theorem col_of_vec {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `p`. -/
theorem bcast_col {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx

namespace Idealize.ShloMosaic.BatchRhsTDot

open Idealize.ShloMosaic Idealize.ShloMosaic.ValueIdx

variable {B M K N : Nat}

private theorem val_congr {n : Nat} {sz : Fin n → Nat} (j : (i : Fin n) → Fin (sz i)) (p q : Nat) (hp : p < n) (hq : q < n) (h : p = q) :
    (j ⟨p, hp⟩).val = (j ⟨q, hq⟩).val := by subst h; rfl

/-- The left operand is read on its batch axis at the entry's first coordinate. -/
theorem lhs_batch (D : DotDims ⟨3, ![B, M, K]⟩ ⟨3, ![B, N, K]⟩ ⟨3, ![B, M, N]⟩) (hlb : D.lhsBatch = [0])
    (j : (⟨3, ![B, M, N]⟩ : Shape).Idx) (s : D.contr.Idx) : (D.lhsIdx j s (0 : Fin 3)).val = (j (0 : Fin 3)).val := by
  unfold DotDims.lhsIdx
  rw [dif_pos (show (0 : Fin 3) ∈ D.lhsBatch by rw [hlb]; exact List.mem_singleton.mpr rfl)]
  simp only [Fin.val_cast]
  exact val_congr j _ _ _ _ (by simp [hlb])

/-- The left operand is read on its row axis at the entry's second coordinate. -/
theorem lhs_row (D : DotDims ⟨3, ![B, M, K]⟩ ⟨3, ![B, N, K]⟩ ⟨3, ![B, M, N]⟩) (hlb : D.lhsBatch = [0]) (hln : D.lhsNonContracting = [1])
    (j : (⟨3, ![B, M, N]⟩ : Shape).Idx) (s : D.contr.Idx) : (D.lhsIdx j s (1 : Fin 3)).val = (j (1 : Fin 3)).val := by
  unfold DotDims.lhsIdx
  rw [dif_neg (show ¬(1 : Fin 3) ∈ D.lhsBatch by rw [hlb]; simp),
    dif_pos (show (1 : Fin 3) ∈ D.lhsNonContracting by rw [hln]; exact List.mem_singleton.mpr rfl)]
  simp only [Fin.val_cast]
  exact val_congr j _ _ _ _ (by simp [hlb, hln])

/-- The right operand is read on its batch axis at the entry's first coordinate. -/
theorem rhs_batch (D : DotDims ⟨3, ![B, M, K]⟩ ⟨3, ![B, N, K]⟩ ⟨3, ![B, M, N]⟩) (hrb : D.rhsBatch = [0])
    (j : (⟨3, ![B, M, N]⟩ : Shape).Idx) (s : D.contr.Idx) : (D.rhsIdx j s (0 : Fin 3)).val = (j (0 : Fin 3)).val := by
  unfold DotDims.rhsIdx
  rw [dif_pos (show (0 : Fin 3) ∈ D.rhsBatch by rw [hrb]; exact List.mem_singleton.mpr rfl)]
  simp only [Fin.val_cast]
  exact val_congr j _ _ _ _ (by simp [hrb])

/-- The right operand is read on its row axis at the entry's third coordinate. -/
theorem rhs_row (D : DotDims ⟨3, ![B, M, K]⟩ ⟨3, ![B, N, K]⟩ ⟨3, ![B, M, N]⟩) (hlb : D.lhsBatch = [0]) (hln : D.lhsNonContracting = [1])
    (hrb : D.rhsBatch = [0]) (hrn : D.rhsNonContracting = [1])
    (j : (⟨3, ![B, M, N]⟩ : Shape).Idx) (s : D.contr.Idx) : (D.rhsIdx j s (1 : Fin 3)).val = (j (2 : Fin 3)).val := by
  unfold DotDims.rhsIdx
  rw [dif_neg (show ¬(1 : Fin 3) ∈ D.rhsBatch by rw [hrb]; simp),
    dif_pos (show (1 : Fin 3) ∈ D.rhsNonContracting by rw [hrn]; exact List.mem_singleton.mpr rfl)]
  simp only [Fin.val_cast]
  exact val_congr j _ _ _ _ (by simp [hlb, hln, hrn])

/-- The contraction of a batched product whose operands are both contracted on their last axis, re-indexed by the one
    contracted coordinate: stated for any dimension record with these axis lists. -/
theorem sum_eq (D : DotDims ⟨3, ![B, M, K]⟩ ⟨3, ![B, N, K]⟩ ⟨3, ![B, M, N]⟩)
    (hlc : D.lhsContracting = [2]) (hrc : D.rhsContracting = [2]) (hln : D.lhsNonContracting = [1])
    (hrn : D.rhsNonContracting = [1]) (hlb : D.lhsBatch = [0]) (hrb : D.rhsBatch = [0])
    (l : (⟨3, ![B, M, K]⟩ : Shape).Idx → EReal) (r : (⟨3, ![B, N, K]⟩ : Shape).Idx → EReal) (g : Fin B) (p : Fin M) (q : Fin N) :
    ∑ s : D.contr.Idx, l (D.lhsIdx (ix3 g p q) s) * r (D.rhsIdx (ix3 g p q) s) = ∑ k : Fin K, l (ix3 g p k) * r (ix3 g q k) := by
  have hr : D.contr.rank = 1 := by rw [DotDims.rank_contr, hlc]; rfl
  have hs : D.contr.size ⟨0, by omega⟩ = K := by
    have := D.size_contr 0 (by rw [hlc]; exact Nat.one_pos)
    simpa [hlc] using this
  rw [← Equiv.sum_comp (contrEquiv1 D K hr hs).symm]
  refine Finset.sum_congr rfl fun k _ => ?_
  have hk := contrEquiv1_symm_val D K hr hs k
  have el : D.lhsIdx (ix3 g p q) ((contrEquiv1 D K hr hs).symm k) = ix3 g p k :=
    funext fun a => Fin.ext (by
      match a with
      | ⟨0, _⟩ => exact lhs_batch D hlb _ _
      | ⟨1, _⟩ => exact lhs_row D hlb hln _ _
      | ⟨2, _⟩ => exact (D.lhsIdx_val_of_single hlc _ _).trans hk)
  have er : D.rhsIdx (ix3 g p q) ((contrEquiv1 D K hr hs).symm k) = ix3 g q k :=
    funext fun a => Fin.ext (by
      match a with
      | ⟨0, _⟩ => exact rhs_batch D hrb _ _
      | ⟨1, _⟩ => exact rhs_row D hlb hln hrb hrn _ _
      | ⟨2, _⟩ => exact (D.rhsIdx_val_of_single hrc _ _).trans hk)
  exact congrArg₂ (fun x y => l x * r y) el er

/-- A `tpu.matmul` of such a product into the zero accumulator, at an entry given by its coordinates. -/
theorem matmul_zero_ix3 {φ₁ φ₂ : FTy} (D : DotDims ⟨3, ![B, M, K]⟩ ⟨3, ![B, N, K]⟩ ⟨3, ![B, M, N]⟩)
    (hlc : D.lhsContracting = [2]) (hrc : D.rhsContracting = [2]) (hln : D.lhsNonContracting = [1])
    (hrn : D.rhsNonContracting = [1]) (hlb : D.lhsBatch = [0]) (hrb : D.rhsBatch = [0])
    (prec : Option ContractPrecision) (l : FVec Ideal ⟨3, ![B, M, K]⟩ φ₁) (r : FVec Ideal ⟨3, ![B, N, K]⟩ φ₂)
    (g : Fin B) (p : Fin M) (q : Fin N) :
    matmul D prec l r (constant (F := Ideal) ⟨3, ![B, M, N]⟩ .f32 0x00000000#32) (ix3 g p q)
      = ∑ k : Fin K, l (ix3 g p k) * r (ix3 g q k) := by
  simp only [matmul]
  rw [Ideal.matmul_constant_zero_apply]
  exact sum_eq D hlc hrc hln hrn hlb hrb l r g p q

/-- The host's `dot_general` of such a product, at an entry given by its coordinates. -/
theorem dotGeneral_ix3 {φ₁ φ₂ : FTy} (D : DotDims ⟨3, ![B, M, K]⟩ ⟨3, ![B, N, K]⟩ ⟨3, ![B, M, N]⟩)
    (hlc : D.lhsContracting = [2]) (hrc : D.rhsContracting = [2]) (hln : D.lhsNonContracting = [1])
    (hrn : D.rhsNonContracting = [1]) (hlb : D.lhsBatch = [0]) (hrb : D.rhsBatch = [0])
    (prec : Option ContractPrecision) (sched : HostSchedule) (l : FVec Ideal ⟨3, ![B, M, K]⟩ φ₁) (r : FVec Ideal ⟨3, ![B, N, K]⟩ φ₂)
    (g : Fin B) (p : Fin M) (q : Fin N) :
    FloatOps.dotGeneral D prec sched l r (ix3 g p q) = ∑ k : Fin K, l (ix3 g p k) * r (ix3 g q k) := by
  rw [Ideal.dotGeneral_apply]
  exact sum_eq D hlc hrc hln hrn hlb hrb l r g p q

end Idealize.ShloMosaic.BatchRhsTDot

end
-- ==== Proof.LibMergeTrail.lean ====
/-
  Rank-3 arrays whose two trailing axes are merged into one, read by coordinates.

  A row-major [a, b, c] array and the [a, n] matrix with n = b·c and the same elements in the same order: column
  q·c + k of row p of the matrix is entry (p, q, k) of the array. Both directions of the recast are read at an entry
  (`mergeTrail_apply`, `splitTrail_apply`), for any extents; the merged extent is a separate number n with the equation
  n = b·c asked of the caller, and the column a separate index with the equation r = q·c + k, so that literal extents
  (800 for 50·16) match as written.
-/
import Idealize.ShloMosaic.Lib.Pipeline.Value
import Idealize.ShloMosaic.Lib.ValueIdx

noncomputable section

namespace Idealize.ShloMosaic.MergeTrail

open Idealize.ShloMosaic Idealize.ShloMosaic.ValueIdx

variable {α : Type} {a b c n : Nat}

/-- Row-major positions agree: (p·b + q)·c + k = p·(b·c) + (q·c + k). -/
theorem pos_eq (p q k : Nat) : (p * b + q) * c + k = p * (b * c) + (q * c + k) := by
  rw [Nat.add_mul, Nat.mul_assoc, Nat.add_assoc]

/-- The [a, b, c] array recast as an [a, n] matrix, at row p and column r = q·c + k, is the array at (p, q, k). -/
theorem mergeTrail_apply (v : (⟨3, ![a, b, c]⟩ : Shape).Idx → α) (h : (⟨3, ![a, b, c]⟩ : Shape).ShapeCasts ⟨2, ![a, n]⟩)
    (hn : n = b * c) (p : Fin a) (q : Fin b) (k : Fin c) (r : Fin n) (hr : r.val = q.val * c + k.val) :
    shapeCast ⟨2, ![a, n]⟩ v h (ix2 p r) = v (ix3 p q k) :=
  shapeCast_apply v h (ix2 p r) (ix3 p q k) (by
    rw [Shape.rowMajor_val_three, Shape.rowMajor_val_two]
    show (p.val * b + q.val) * c + k.val = p.val * n + r.val
    rw [hr, hn, pos_eq])

/-- The [a, n] matrix recast as an [a, b, c] array, at (p, q, k), is the matrix at row p and column r = q·c + k. -/
theorem splitTrail_apply (v : (⟨2, ![a, n]⟩ : Shape).Idx → α) (h : (⟨2, ![a, n]⟩ : Shape).ShapeCasts ⟨3, ![a, b, c]⟩)
    (hn : n = b * c) (p : Fin a) (q : Fin b) (k : Fin c) (r : Fin n) (hr : r.val = q.val * c + k.val) :
    shapeCast ⟨3, ![a, b, c]⟩ v h (ix3 p q k) = v (ix2 p r) :=
  shapeCast_apply v h (ix3 p q k) (ix2 p r) (by
    rw [Shape.rowMajor_val_three, Shape.rowMajor_val_two]
    show p.val * n + r.val = (p.val * b + q.val) * c + k.val
    rw [hr, hn, pos_eq])

end Idealize.ShloMosaic.MergeTrail

end
-- ==== Proof.PackBody.lean ====
/-
  The two kernel bodies read at an entry, on the extended reals.

  A block of the packed arrays has 5000 rows of 128 lanes; lane q·16 + k of a row holds feature k of the q-th of the
  eight nodes packed in that row, and the per-node scale block has 5000 rows of 8 lanes, lane q for that node.

  First body: the block of packed features times the 128×128 weight matrix, every entry then multiplied by its node's
  scale: entry (p, q·16 + k) is (Σ_l x(p, l) · w(l, q·16 + k)) · s(p, q).

  Second body: entry (p, q·16 + k) is s(p, q) · (a(p, q·16 + k) + h(p, q·16 + k)) + b(0, q·16 + k).
-/
import proofs.«167297_j79860621902688_2_alg».proof.Proof.Gen.KernelIdeal.Skeleton
import proofs.«167297_j79860621902688_2_alg».proof.Proof.LibPlainDot
import proofs.«167297_j79860621902688_2_alg».proof.Proof.LibRank3
import proofs.«167297_j79860621902688_2_alg».proof.Proof.LibMergeTrail
import Idealize.ShloMosaic.Lib.Pipeline.Value
import Idealize.ShloMosaic.Lib.ValueIdx
import Idealize.ShloMosaic.Lib.ValueLayout

noncomputable section

namespace Cert.KernelIdeal.PackBody

open Cert.KernelIdeal Cert.KernelIdeal.Gen Idealize.ShloMosaic Idealize.ShloMosaic.ValueIdx

/-- The per-node scale block spread over the sixteen lanes of each node: cast [5000,8] → [5000,8,1], repeated to
    [5000,8,16], merged to [5000,128]; at (p, q·16 + k) it is the block's entry (p, q). -/
theorem spread_apply {α : Type} (s : S5000x8.Idx → α) (p : Fin 5000) (q : Fin 8) (k : Fin 16) (r : Fin 128)
    (hr : r.val = q.val * 16 + k.val) :
    shapeCast S5000x128 (broadcastTo S5000x8x16 (shapeCast S5000x8x1 (shapeCast S5000x8 s shapeCasts_S5000x8_S5000x8)
      shapeCasts_S5000x8_S5000x8x1) broadcasts_S5000x8x1_S5000x8x16) shapeCasts_S5000x8x16_S5000x128 (ix2 p r)
      = s (ix2 p q) := by
  rw [MergeTrail.mergeTrail_apply _ shapeCasts_S5000x8x16_S5000x128 (by norm_num) p q k r hr,
    broadcastTo_ab1_abc_apply, shapeCast_ab_ab1_apply, shapeCast_self]

/-- The first body's stored value at (p, q·16 + k). -/
theorem scaled_product_apply (x : Vec Ideal S5000x128 .f32) (w : Vec Ideal S128x128 .f32) (s : Vec Ideal S5000x8 .f32)
    (p : Fin 5000) (q : Fin 8) (k : Fin 16) (r : Fin 128) (hr : r.val = q.val * 16 + k.val) :
    k0_pay1 (F := Ideal) x w s (ix2 p r) = (∑ l : Fin 128, x (ix2 p l) * w (ix2 l r)) * s (ix2 p q) := by
  unfold k0_pay1
  rw [mulf_apply, spread_apply s p q k r hr, shapeCast_self, shapeCast_self,
    PlainDot.matmul_zero_apply dot_S5000x128_S128x128_S5000x128_1_0_0_1_n_n rfl]

/-- The second body's stored value at (p, q·16 + k). -/
theorem combined_apply (s : Vec Ideal S5000x8 .f32) (a : Vec Ideal S5000x128 .f32) (h : Vec Ideal S5000x128 .f32)
    (b : Vec Ideal S1x128 .f32) (p : Fin 5000) (q : Fin 8) (k : Fin 16) (r : Fin 128) (hr : r.val = q.val * 16 + k.val) :
    k1_pay1 (F := Ideal) s a h b (ix2 p r) = s (ix2 p q) * (a (ix2 p r) + h (ix2 p r)) + b (ix2 0 r) := by
  unfold k1_pay1
  rw [addf_apply, mulf_apply, addf_apply, spread_apply s p q k r hr, shapeCast_self, shapeCast_self, shapeCast_self]
  congr 1
  exact broadcastTo_apply b broadcasts_S1x128_S5000x128 (ix2 p r) (ix2 0 r) (fun ax => match ax with
    | ⟨0, _⟩ => rfl
    | ⟨1, _⟩ => rfl)

end Cert.KernelIdeal.PackBody

end
-- ==== Proof.FirstLaunch.lean ====
/-
  What the first launch leaves in its result array, as one function of the three arrays it reads.

  The launch walks 25 blocks of 5000 packed rows. Block t of the result is the body's value on block t of the packed
  features and of the per-node scales and on the whole 128×128 weight matrix, and the 25 blocks tile the result. So the
  result array is, at packed row R and lane C, (Σ_l x(R, l) · w(l, C)) · s(R, C / 16), whatever the three arrays hold when
  the launch is entered. The arrays the launch only reads end as they were.
-/
import proofs.«167297_j79860621902688_2_alg».proof.Proof.Gen.KernelIdeal.Frame
import proofs.«167297_j79860621902688_2_alg».proof.Proof.PackBody

set_option maxRecDepth 16384

noncomputable section

namespace Cert.KernelIdeal.RegionValue

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem zero_offsets : (![0, 0] : Fin 2 → Nat) = fun _ => 0 := funext fun a => by fin_cases a <;> rfl

/-- The packed, scaled product: at packed row R and lane C, (Σ_l x(R, l) · w(l, C)) · s(R, C / 16). -/
def scaledProduct (x : S125000x128.Idx → Elt Ideal .f32) (w : S128x128.Idx → Elt Ideal .f32) (s : S125000x8.Idx → Elt Ideal .f32) :
    S125000x128.Idx → Elt Ideal .f32 :=
  fun i => (∑ l : Fin 128, x (ix2 (i 0) l) * w (ix2 l (i 1))) * s (ix2 (i 0) ⟨(i 1).val / 16, by have := idx2_lt1 i; omega⟩)

/-- One entry of a block of the first body's value, from the blocks it loads, against the whole arrays: the block's
    row p is packed row R of the arrays. -/
theorem scaledProduct_point (x0 : Vec Ideal S5000x128 .f32) (x1 : Vec Ideal S128x128 .f32) (x2 : Vec Ideal S5000x8 .f32)
    (x : S125000x128.Idx → Elt Ideal .f32) (w : S128x128.Idx → Elt Ideal .f32) (s : S125000x8.Idx → Elt Ideal .f32)
    (y : S5000x128.Idx) (R : Fin 125000)
    (h0 : ∀ l : Fin 128, x0 (ix2 (y 0) l) = x (ix2 R l)) (h1 : x1 = w) (h2 : ∀ q : Fin 8, x2 (ix2 (y 0) q) = s (ix2 R q)) :
    k0_pay1 (F := Ideal) x0 x1 x2 y = scaledProduct x w s (ix2 R (y 1)) := by
  obtain ⟨p, r, rfl⟩ : ∃ (p : Fin 5000) (r : Fin 128), y = ix2 p r := ⟨y 0, y 1, eq_ix2 y⟩
  have hr : r.val < 128 := r.isLt
  rw [PackBody.scaled_product_apply x0 x1 x2 p ⟨r.val / 16, by omega⟩ ⟨r.val % 16, by omega⟩ r
    (by show r.val = r.val / 16 * 16 + r.val % 16; omega)]
  subst h1
  unfold scaledProduct
  simp only [h0, h2]

/-- The printed index maps over the grid: windows 0, 2 and 3 walk the row blocks in step, point t at block t; the
    weight window stays at block (0, 0); no window moves along the lanes. -/
theorem index_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- What point t writes back is block t of the packed, scaled product of the arrays as the launch finds them. -/
theorem flushed0 (c : Dev nD) (t : Fin cfg0.N) :
    (dat0 V c).flushed 3 t = ((cfg0.win 3).blk t).view.read (Elt Ideal)
      (scaledProduct (V c main_v11) (V c main_v19) (V c main_v12)) := by
  show (cfg0.win 3).cut (grid0.coords t) ((dat0 V c).after 3 t) = _
  rw [after0_3]
  unfold out0_3
  rw [View.canon_unit_zero zero_offsets]
  simp only [View.ld_unit_zero (S := S5000x128) zero_offsets, View.ld_unit_zero (S := S128x128) zero_offsets,
    View.ld_unit_zero (S := S5000x8) zero_offsets]
  obtain ⟨e00, e01, e10, e11, e20, e21, e30, e31⟩ := index_facts0 t
  have ht : t.val < 25 := t.isLt
  funext j
  have hj0 : (j 0).val < 5000 := (j 0).isLt
  have hj1 : (j 1).val < 128 := (j 1).isLt
  have hemb : ((cfg0.win 3).blk t).view.emb j = ix2 (⟨t.val * 5000 + (j 0).val, by omega⟩ : Fin 125000) (⟨(j 1).val, hj1⟩ : Fin 128) := by
    funext a; apply Fin.ext
    match a with
    | ⟨0, _⟩ => show win0_3.index t (0 : Fin 2) * 5000 + 1 * (j 0).val = t.val * 5000 + (j 0).val; omega
    | ⟨1, _⟩ => show win0_3.index t (1 : Fin 2) * 128 + 1 * (j 1).val = (j 1).val; omega
  show k0_pay1 (iblk0 V c 0 t) (iblk0 V c 1 t) (iblk0 V c 2 t) j
    = scaledProduct (V c main_v11) (V c main_v19) (V c main_v12) (((cfg0.win 3).blk t).view.emb j)
  rw [hemb]
  refine scaledProduct_point (iblk0 V c 0 t) (iblk0 V c 1 t) (iblk0 V c 2 t) (V c main_v11) (V c main_v19) (V c main_v12) j
    ⟨t.val * 5000 + (j 0).val, by omega⟩ (fun l => ?_) ?_ (fun q => ?_)
  · show V c main_v11 (((cfg0.win 0).blk t).view.emb (ix2 (j 0) l)) = _
    refine congrArg (V c main_v11) (funext fun a => Fin.ext ?_)
    match a with
    | ⟨0, _⟩ => show win0_0.index t (0 : Fin 2) * 5000 + 1 * (j 0).val = t.val * 5000 + (j 0).val; omega
    | ⟨1, _⟩ => show win0_0.index t (1 : Fin 2) * 128 + 1 * l.val = l.val; omega
  · funext y
    show V c main_v19 (((cfg0.win 1).blk t).view.emb y) = V c main_v19 y
    refine congrArg (V c main_v19) (funext fun a => Fin.ext ?_)
    match a with
    | ⟨0, _⟩ => show win0_1.index t (0 : Fin 2) * 128 + 1 * (y 0).val = (y 0).val; omega
    | ⟨1, _⟩ => show win0_1.index t (1 : Fin 2) * 128 + 1 * (y 1).val = (y 1).val; omega
  · show V c main_v12 (((cfg0.win 2).blk t).view.emb (ix2 (j 0) q)) = _
    refine congrArg (V c main_v12) (funext fun a => Fin.ext ?_)
    match a with
    | ⟨0, _⟩ => show win0_2.index t (0 : Fin 2) * 5000 + 1 * (j 0).val = t.val * 5000 + (j 0).val; omega
    | ⟨1, _⟩ => show win0_2.index t (1 : Fin 2) * 8 + 1 * q.val = q.val; omega

/-- An index of the result array is in point t's block iff each coordinate is in the block's range on its axis. -/
theorem mem_block0 (t : Fin cfg0.N) (i : S125000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v24).slice (win0_3.rect t)).set ↔ _
  rw [View.set_slice_whole, Rect.mem_set_unit]
  exact Iff.rfl

/-- Row R of the result lies in the block of point R / 5000. -/
theorem cover0 (i : S125000x128.Idx) :
    ∃ t : Fin cfg0.N, (cfg0.win 3).flush t = true ∧ i ∈ ((cfg0.win 3).blk t).view.set := by
  have hi0 : (i 0).val < 125000 := idx2_lt0 i
  have hi1 : (i 1).val < 128 := idx2_lt1 i
  refine ⟨⟨(i 0).val / 5000, by show (i 0).val / 5000 < 25; omega⟩, flush0_3 _, ?_⟩
  rw [mem_block0]
  obtain ⟨e00, e01, e10, e11, e20, e21, e30, e31⟩ := index_facts0 ⟨(i 0).val / 5000, by show (i 0).val / 5000 < 25; omega⟩
  intro a
  match a with
  | ⟨0, _⟩ =>
    show win0_3.index _ (0 : Fin 2) * 5000 ≤ (i 0).val ∧ (i 0).val < win0_3.index _ (0 : Fin 2) * 5000 + 5000
    rw [e30]; show (i 0).val / 5000 * 5000 ≤ (i 0).val ∧ (i 0).val < (i 0).val / 5000 * 5000 + 5000; omega
  | ⟨1, _⟩ =>
    show win0_3.index _ (1 : Fin 2) * 128 ≤ (i 1).val ∧ (i 1).val < win0_3.index _ (1 : Fin 2) * 128 + 128
    rw [e31]; omega

/-- THE FIRST LAUNCH'S RESULT: the packed, scaled product of the arrays as the launch finds them. -/
theorem result0 (c : Dev nD) :
    (dat0 V c).arrAt 3 cfg0.N = scaledProduct (V c main_v11) (V c main_v19) (V c main_v12) :=
  (dat0 V c).arrAt_eq_of_cover 3 _ (fun t _ => flushed0 V c t) cover0

/-- The scales array is only read by the first launch: it ends as entered. -/
theorem scales_kept0 (c : Dev nD) : (dat0 V c).arrAt 2 cfg0.N = V c main_v12 := by
  funext i
  rw [(dat0 V c).arrAt_apply_of_forall_not_mem 2 cfg0.N i (fun t _ hf => absurd hf (by
    have : ∀ t : Fin cfg0.N, (cfg0.win 2).flush t = false := (by decide +kernel : ∀ t : Fin grid0.N, win0_2.flush t = false)
    rw [this t]; decide)), A_eq0]

end Cert.KernelIdeal.RegionValue

end
-- ==== Proof.SecondLaunch.lean ====
/-
  What the second launch leaves in its result array, as one function of the four arrays it reads.

  The launch walks 25 blocks of 5000 packed rows of the aggregated messages, of the scaled features and of the per-node
  scales in step, with the one bias row held throughout; the 25 result blocks tile the result. At packed row R and lane
  C the result is s(R, C / 16) · (a(R, C) + h(R, C)) + b(0, C), whatever the four arrays hold when the launch is entered.
-/
import proofs.«167297_j79860621902688_2_alg».proof.Proof.Gen.KernelIdeal.Frame
import proofs.«167297_j79860621902688_2_alg».proof.Proof.PackBody

set_option maxRecDepth 16384

noncomputable section

namespace Cert.KernelIdeal.RegionValue

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem zero_offsets' : (![0, 0] : Fin 2 → Nat) = fun _ => 0 := funext fun a => by fin_cases a <;> rfl

/-- The packed combination: at packed row R and lane C, s(R, C / 16) · (a(R, C) + h(R, C)) + b(0, C). -/
def combined (a h : S125000x128.Idx → Elt Ideal .f32) (s : S125000x8.Idx → Elt Ideal .f32) (b : S1x128.Idx → Elt Ideal .f32) :
    S125000x128.Idx → Elt Ideal .f32 :=
  fun i => s (ix2 (i 0) ⟨(i 1).val / 16, by have := idx2_lt1 i; omega⟩) * (a i + h i) + b (ix2 0 (i 1))

/-- One entry of a block of the second body's value, from the blocks it loads, against the whole arrays. -/
theorem combined_point (x0 x1 : Vec Ideal S5000x128 .f32) (x2 : Vec Ideal S5000x8 .f32) (x3 : Vec Ideal S1x128 .f32)
    (a h : S125000x128.Idx → Elt Ideal .f32) (s : S125000x8.Idx → Elt Ideal .f32) (b : S1x128.Idx → Elt Ideal .f32)
    (y : S5000x128.Idx) (R : Fin 125000)
    (h0 : x0 y = a (ix2 R (y 1))) (h1 : x1 y = h (ix2 R (y 1))) (h2 : ∀ q : Fin 8, x2 (ix2 (y 0) q) = s (ix2 R q)) (h3 : x3 = b) :
    k1_pay1 (F := Ideal) x2 x0 x1 x3 y = combined a h s b (ix2 R (y 1)) := by
  obtain ⟨p, r, rfl⟩ : ∃ (p : Fin 5000) (r : Fin 128), y = ix2 p r := ⟨y 0, y 1, eq_ix2 y⟩
  have hr : r.val < 128 := r.isLt
  rw [PackBody.combined_apply x2 x0 x1 x3 p ⟨r.val / 16, by omega⟩ ⟨r.val % 16, by omega⟩ r
    (by show r.val = r.val / 16 * 16 + r.val % 16; omega)]
  subst h3
  unfold combined
  rw [h0, h1, h2]

/-- The printed index maps over the grid: windows 0, 1, 2 and 4 walk the row blocks in step, point t at block t; the bias
    window stays at block (0, 0); no window moves along the lanes. -/
theorem index_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- What point t writes back is block t of the packed combination of the arrays as the launch finds them. -/
theorem flushed1 (c : Dev nD) (t : Fin cfg1.N) :
    (dat1 V c).flushed 4 t = ((cfg1.win 4).blk t).view.read (Elt Ideal)
      (combined (V c main_v36) (V c main_v24) (V c main_v12) (V c main_v23)) := by
  show (cfg1.win 4).cut (grid1.coords t) ((dat1 V c).after 4 t) = _
  rw [after1_4]
  unfold out1_4
  rw [View.canon_unit_zero zero_offsets']
  simp only [View.ld_unit_zero (S := S5000x128) zero_offsets', View.ld_unit_zero (S := S1x128) zero_offsets',
    View.ld_unit_zero (S := S5000x8) zero_offsets']
  obtain ⟨e00, e01, e10, e11, e20, e21, e30, e31, e40, e41⟩ := index_facts1 t
  have ht : t.val < 25 := t.isLt
  funext j
  have hj0 : (j 0).val < 5000 := (j 0).isLt
  have hj1 : (j 1).val < 128 := (j 1).isLt
  have hemb : ((cfg1.win 4).blk t).view.emb j = ix2 (⟨t.val * 5000 + (j 0).val, by omega⟩ : Fin 125000) (⟨(j 1).val, hj1⟩ : Fin 128) := by
    funext a; apply Fin.ext
    match a with
    | ⟨0, _⟩ => show win1_4.index t (0 : Fin 2) * 5000 + 1 * (j 0).val = t.val * 5000 + (j 0).val; omega
    | ⟨1, _⟩ => show win1_4.index t (1 : Fin 2) * 128 + 1 * (j 1).val = (j 1).val; omega
  show k1_pay1 (iblk1 V c 2 t) (iblk1 V c 0 t) (iblk1 V c 1 t) (iblk1 V c 3 t) j
    = combined (V c main_v36) (V c main_v24) (V c main_v12) (V c main_v23) (((cfg1.win 4).blk t).view.emb j)
  rw [hemb]
  refine combined_point (iblk1 V c 0 t) (iblk1 V c 1 t) (iblk1 V c 2 t) (iblk1 V c 3 t)
    (V c main_v36) (V c main_v24) (V c main_v12) (V c main_v23) j
    ⟨t.val * 5000 + (j 0).val, by omega⟩ ?_ ?_ (fun q => ?_) ?_
  · show V c main_v36 (((cfg1.win 0).blk t).view.emb j) = _
    refine congrArg (V c main_v36) (funext fun a => Fin.ext ?_)
    match a with
    | ⟨0, _⟩ => show win1_0.index t (0 : Fin 2) * 5000 + 1 * (j 0).val = t.val * 5000 + (j 0).val; omega
    | ⟨1, _⟩ => show win1_0.index t (1 : Fin 2) * 128 + 1 * (j 1).val = (j 1).val; omega
  · show V c main_v24 (((cfg1.win 1).blk t).view.emb j) = _
    refine congrArg (V c main_v24) (funext fun a => Fin.ext ?_)
    match a with
    | ⟨0, _⟩ => show win1_1.index t (0 : Fin 2) * 5000 + 1 * (j 0).val = t.val * 5000 + (j 0).val; omega
    | ⟨1, _⟩ => show win1_1.index t (1 : Fin 2) * 128 + 1 * (j 1).val = (j 1).val; omega
  · show V c main_v12 (((cfg1.win 2).blk t).view.emb (ix2 (j 0) q)) = _
    refine congrArg (V c main_v12) (funext fun a => Fin.ext ?_)
    match a with
    | ⟨0, _⟩ => show win1_2.index t (0 : Fin 2) * 5000 + 1 * (j 0).val = t.val * 5000 + (j 0).val; omega
    | ⟨1, _⟩ => show win1_2.index t (1 : Fin 2) * 8 + 1 * q.val = q.val; omega
  · funext y
    show V c main_v23 (((cfg1.win 3).blk t).view.emb y) = V c main_v23 y
    refine congrArg (V c main_v23) (funext fun a => Fin.ext ?_)
    match a with
    | ⟨0, _⟩ => show win1_3.index t (0 : Fin 2) * 1 + 1 * (y 0).val = (y 0).val; omega
    | ⟨1, _⟩ => show win1_3.index t (1 : Fin 2) * 128 + 1 * (y 1).val = (y 1).val; omega

/-- An index of the result array is in point t's block iff each coordinate is in the block's range on its axis. -/
theorem mem_block1 (t : Fin cfg1.N) (i : S125000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v37).slice (win1_4.rect t)).set ↔ _
  rw [View.set_slice_whole, Rect.mem_set_unit]
  exact Iff.rfl

/-- Row R of the result lies in the block of point R / 5000. -/
theorem cover1 (i : S125000x128.Idx) :
    ∃ t : Fin cfg1.N, (cfg1.win 4).flush t = true ∧ i ∈ ((cfg1.win 4).blk t).view.set := by
  have hi0 : (i 0).val < 125000 := idx2_lt0 i
  have hi1 : (i 1).val < 128 := idx2_lt1 i
  refine ⟨⟨(i 0).val / 5000, by show (i 0).val / 5000 < 25; omega⟩, flush1_4 _, ?_⟩
  rw [mem_block1]
  obtain ⟨e00, e01, e10, e11, e20, e21, e30, e31, e40, e41⟩ := index_facts1 ⟨(i 0).val / 5000, by show (i 0).val / 5000 < 25; omega⟩
  intro a
  match a with
  | ⟨0, _⟩ =>
    show win1_4.index _ (0 : Fin 2) * 5000 ≤ (i 0).val ∧ (i 0).val < win1_4.index _ (0 : Fin 2) * 5000 + 5000
    rw [e40]; show (i 0).val / 5000 * 5000 ≤ (i 0).val ∧ (i 0).val < (i 0).val / 5000 * 5000 + 5000; omega
  | ⟨1, _⟩ =>
    show win1_4.index _ (1 : Fin 2) * 128 ≤ (i 1).val ∧ (i 1).val < win1_4.index _ (1 : Fin 2) * 128 + 128
    rw [e41]; omega

/-- THE SECOND LAUNCH'S RESULT: the packed combination of the arrays as the launch finds them. -/
theorem result1 (c : Dev nD) :
    (dat1 V c).arrAt 4 cfg1.N = combined (V c main_v36) (V c main_v24) (V c main_v12) (V c main_v23) :=
  (dat1 V c).arrAt_eq_of_cover 4 _ (fun t _ => flushed1 V c t) cover1

end Cert.KernelIdeal.RegionValue

end
-- ==== Proof.KernelTerms.lean ====
/-
  The host side of the kernel program, as terms of the four arguments: the edge ends, the per-node scale, the packed
  operands of the two launches, the aggregation between them, and the result.
-/
import proofs.«167297_j79860621902688_2_alg».proof.Proof.FirstLaunch
import proofs.«167297_j79860621902688_2_alg».proof.Proof.SecondLaunch

noncomputable section

namespace Cert.KernelIdeal.Terms

open Cert.KernelIdeal Idealize.ShloMosaic Idealize.ShloMosaic.ValueIdx Cert.KernelIdeal.RegionValue
open Cert.KernelIdeal.Facts₀ Cert.KernelIdeal.Facts

variable (a0 : FVec Ideal S1000000x16 .f32) (a1 : IVec S2x4000000 32) (a2 : FVec Ideal S16x16 .f32) (a3 : FVec Ideal S16 .f32)

/-- The edges' source nodes: row 0 of the edge array. -/
def src : IVec S4000000 32 :=
  shapeCast S4000000 (extractStridedSlice S1x4000000 ![0, 0] a1 slices_S2x4000000_S1x4000000_0_0) shapeCasts_S1x4000000_S4000000
/-- The edges' target nodes: row 1 of the edge array. -/
def dst : IVec S4000000 32 :=
  shapeCast S4000000 (extractStridedSlice S1x4000000 ![1, 0] a1 slices_S2x4000000_S1x4000000_1_0) shapeCasts_S1x4000000_S4000000
/-- The target nodes as a column of scatter indices. -/
def dstCol : IVec S4000000x1 32 := broadcastInDim S4000000x1 ![0] bcast_S4000000_S4000000x1_0 (dst a1)
/-- One plus the number of edges pointing at each node. -/
def deg : FVec Ideal S1000000 .f32 :=
  addf (Host.scatterAdd scatter_S1000000_S4000000x1_S4000000_n_0_0_1
      (broadcastInDim S1000000 ![] bcast_S_S1000000 (constant (F := Ideal) S_ .f32 0x00000000#32)) (dstCol a1)
      (broadcastInDim S4000000 ![] bcast_S_S4000000 (constant (F := Ideal) S_ .f32 0x3F800000#32)))
    (broadcastInDim S1000000 ![] bcast_S_S1000000 (constant (F := Ideal) S_ .f32 0x3F800000#32))
/-- The per-node scale: the inverse square root of that count. -/
def dinv : FVec Ideal S1000000 .f32 := Host.rsqrt (deg a1)
/-- The source nodes with negative numbers counted from the end, as a column of start indices. -/
def srcCol : IVec S4000000x1 32 :=
  broadcastInDim S4000000x1 ![0] bcast_S4000000_S4000000x1_0
    (select (cmpi .slt (src a1) (broadcastInDim S4000000 ![] bcast_S_S4000000 (constantI S_ 32 0#32)))
      (addi (src a1) (broadcastInDim S4000000 ![] bcast_S_S4000000 (constantI S_ 32 1000000#32))) (src a1))

/-- The features packed eight nodes to a row. -/
def xPacked : FVec Ideal S125000x128 .f32 := shapeCast S125000x128 a0 shapeCasts_S1000000x16_S125000x128
/-- The scales packed eight nodes to a row. -/
def sPacked : FVec Ideal S125000x8 .f32 := shapeCast S125000x8 (dinv a1) shapeCasts_S1000000_S125000x8
/-- The 8×8 identity as floats. -/
def eye : FVec Ideal S8x8 .f32 :=
  uitofp .f32 (cmpi .eq (addi (iotaInDim S8x8 32 0) (broadcastInDim S8x8 ![] bcast_S_S8x8 (constantI S_ 32 0#32))) (iotaInDim S8x8 32 1))
/-- The weight matrix repeated eight times down the diagonal of a 128×128 matrix. -/
def wPacked : FVec Ideal S128x128 .f32 :=
  shapeCast S128x128 (mulf
    (broadcastInDim S8x16x8x16 ![0, 1, 2, 3] bcast_S8x1x8x1_S8x16x8x16_0_1_2_3 (broadcastInDim S8x1x8x1 ![0, 2] bcast_S8x8_S8x1x8x1_0_2 eye))
    (broadcastInDim S8x16x8x16 ![0, 1, 2, 3] bcast_S1x16x1x16_S8x16x8x16_0_1_2_3 (broadcastInDim S1x16x1x16 ![1, 3] bcast_S16x16_S1x16x1x16_1_3 a2)))
    shapeCasts_S8x16x8x16_S128x128
/-- The bias repeated eight times along one row of 128 lanes. -/
def bPacked : FVec Ideal S1x128 .f32 :=
  shapeCast S1x128 (shapeCast S128 (broadcastInDim S8x16 ![0, 1] bcast_S1x16_S8x16_0_1 (shapeCast S1x16 a3 shapeCasts_S16_S1x16))
    shapeCasts_S8x16_S128) shapeCasts_S128_S1x128

/-- The first launch's result: the packed, scaled product. -/
def hsPacked : FVec Ideal S125000x128 .f32 := scaledProduct (xPacked a0) (wPacked a2) (sPacked a1)
/-- The scaled features of the edges' source nodes summed at their target nodes. -/
def agg : FVec Ideal S1000000x16 .f32 :=
  Host.scatterAdd scatter_S1000000x16_S4000000x1_S4000000x16_1_0_0_1
    (broadcastInDim S1000000x16 ![] bcast_S_S1000000x16 (constant (F := Ideal) S_ .f32 0x00000000#32)) (dstCol a1)
    (Host.gather gather_S1000000x16_S4000000x1_S4000000x16_1_0_n_n_0_1_116
      (shapeCast S1000000x16 (hsPacked a0 a1 a2) shapeCasts_S125000x128_S1000000x16) (srcCol a1))
/-- The second launch's result, and the program's, unpacked. -/
def out : FVec Ideal S1000000x16 .f32 :=
  shapeCast S1000000x16
    (combined (shapeCast S125000x128 (agg a0 a1 a2) shapeCasts_S1000000x16_S125000x128) (hsPacked a0 a1 a2) (sPacked a1) (bPacked a3))
    shapeCasts_S125000x128_S1000000x16

end Cert.KernelIdeal.Terms

end
-- ==== Proof.Boundaries.lean ====
/-
  The buffers' contents at the boundaries between the segments of the kernel program, as terms of the four arguments.

  Before the first launch the host lines leave the edge ends, the packed features, the packed scales, the block-diagonal
  weights and the packed bias row, each the corresponding term of the arguments. The first launch leaves the packed,
  scaled product in its result array and changes nothing else. The host lines between the launches gather, scatter and
  repack; the second launch leaves the packed combination; the last line unpacks it into the returned buffer.
-/
import proofs.«167297_j79860621902688_2_alg».proof.Proof.KernelRun
import proofs.«167297_j79860621902688_2_alg».proof.Proof.KernelTerms

set_option maxRecDepth 16384

noncomputable section

namespace Cert.KernelIdeal.Boundary

open Cert.KernelIdeal Cert.KernelIdeal.Gen Idealize.ShloMosaic Idealize.ShloMosaic.TcCoe Idealize.ShloMosaic.ValueIdx
open Idealize.SL.Sem Idealize.ShloMosaic.StableHlo
open Cert.KernelIdeal.RegionValue

variable (m : (ℓ : Loc nD τ sig) → Buf (Elt Ideal) ℓ) (ρ : Dev nD → PrngReg) (c : Dev nD)

/-! ## Entering the first launch -/

theorem enter0_src : W3 m ρ c (Proc.devRef .tc main_v1) = Terms.src (m ((c : Thread nD τ).loc main_arg1)) := by
  show StableHlo.after hostOps0_2 (StableHlo.after hostOps0_1 (StableHlo.after hostOps0 (W0 m ρ c))) (Proc.devRef .tc main_v1) = _
  dsimp only [hostOps0, hostOps0_1, hostOps0_2]
  after_results
  rfl

theorem enter0_dst : W3 m ρ c (Proc.devRef .tc main_v3) = Terms.dst (m ((c : Thread nD τ).loc main_arg1)) := by
  show StableHlo.after hostOps0_2 (StableHlo.after hostOps0_1 (StableHlo.after hostOps0 (W0 m ρ c))) (Proc.devRef .tc main_v3) = _
  dsimp only [hostOps0, hostOps0_1, hostOps0_2]
  after_results
  rfl

theorem enter0_x : W3 m ρ c (Proc.devRef .tc main_v11) = Terms.xPacked (m ((c : Thread nD τ).loc main_arg0)) := by
  show StableHlo.after hostOps0_2 (StableHlo.after hostOps0_1 (StableHlo.after hostOps0 (W0 m ρ c))) (Proc.devRef .tc main_v11) = _
  dsimp only [hostOps0, hostOps0_1, hostOps0_2]
  after_results
  rfl

theorem enter0_s : W3 m ρ c (Proc.devRef .tc main_v12) = Terms.sPacked (m ((c : Thread nD τ).loc main_arg1)) := by
  show StableHlo.after hostOps0_2 (StableHlo.after hostOps0_1 (StableHlo.after hostOps0 (W0 m ρ c))) (Proc.devRef .tc main_v12) = _
  dsimp only [hostOps0, hostOps0_1, hostOps0_2]
  after_results
  rfl

theorem enter0_w : W3 m ρ c (Proc.devRef .tc main_v19) = Terms.wPacked (m ((c : Thread nD τ).loc main_arg2)) := by
  show StableHlo.after hostOps0_2 (StableHlo.after hostOps0_1 (StableHlo.after hostOps0 (W0 m ρ c))) (Proc.devRef .tc main_v19) = _
  dsimp only [hostOps0, hostOps0_1, hostOps0_2]
  after_results
  rfl

theorem enter0_b : W3 m ρ c (Proc.devRef .tc main_v23) = Terms.bPacked (m ((c : Thread nD τ).loc main_arg3)) := by
  show StableHlo.after hostOps0_2 (StableHlo.after hostOps0_1 (StableHlo.after hostOps0 (W0 m ρ c))) (Proc.devRef .tc main_v23) = _
  dsimp only [hostOps0, hostOps0_1, hostOps0_2]
  after_results
  rfl

/-! ## Leaving the first launch -/

theorem leave0_hs : W4 m ρ c (Proc.devRef .tc main_v24)
    = Terms.hsPacked (m ((c : Thread nD τ).loc main_arg0)) (m ((c : Thread nD τ).loc main_arg1)) (m ((c : Thread nD τ).loc main_arg2)) := by
  refine (W4_arr m ρ c 3).trans ?_
  rw [result0]
  unfold Terms.hsPacked
  rw [← enter0_x m ρ c, ← enter0_w m ρ c, ← enter0_s m ρ c]

theorem leave0_s : W4 m ρ c (Proc.devRef .tc main_v12) = Terms.sPacked (m ((c : Thread nD τ).loc main_arg1)) := by
  refine (W4_arr m ρ c 2).trans ?_
  rw [scales_kept0]
  exact enter0_s m ρ c

theorem leave0_b : W4 m ρ c (Proc.devRef .tc main_v23) = Terms.bPacked (m ((c : Thread nD τ).loc main_arg3)) :=
  (W4_of_ne m ρ c main_v23 (by decide)).trans (enter0_b m ρ c)

theorem leave0_src : W4 m ρ c (Proc.devRef .tc main_v1) = Terms.src (m ((c : Thread nD τ).loc main_arg1)) :=
  (W4_of_ne m ρ c main_v1 (by decide)).trans (enter0_src m ρ c)

theorem leave0_dst : W4 m ρ c (Proc.devRef .tc main_v3) = Terms.dst (m ((c : Thread nD τ).loc main_arg1)) :=
  (W4_of_ne m ρ c main_v3 (by decide)).trans (enter0_dst m ρ c)

/-! ## Entering the second launch -/

theorem enter1_agg : W5 m ρ c (Proc.devRef .tc main_v36)
    = shapeCast S125000x128 (Terms.agg (m ((c : Thread nD τ).loc main_arg0)) (m ((c : Thread nD τ).loc main_arg1)) (m ((c : Thread nD τ).loc main_arg2)))
        shapeCasts_S1000000x16_S125000x128 := by
  show StableHlo.after hostOps1 (W4 m ρ c) (Proc.devRef .tc main_v36) = _
  dsimp only [hostOps1]
  after_results
  rw [leave0_hs, leave0_src, leave0_dst]
  rfl

theorem enter1_hs : W5 m ρ c (Proc.devRef .tc main_v24)
    = Terms.hsPacked (m ((c : Thread nD τ).loc main_arg0)) (m ((c : Thread nD τ).loc main_arg1)) (m ((c : Thread nD τ).loc main_arg2)) := by
  show StableHlo.after hostOps1 (W4 m ρ c) (Proc.devRef .tc main_v24) = _
  dsimp only [hostOps1]
  after_results
  exact leave0_hs m ρ c

theorem enter1_s : W5 m ρ c (Proc.devRef .tc main_v12) = Terms.sPacked (m ((c : Thread nD τ).loc main_arg1)) := by
  show StableHlo.after hostOps1 (W4 m ρ c) (Proc.devRef .tc main_v12) = _
  dsimp only [hostOps1]
  after_results
  exact leave0_s m ρ c

theorem enter1_b : W5 m ρ c (Proc.devRef .tc main_v23) = Terms.bPacked (m ((c : Thread nD τ).loc main_arg3)) := by
  show StableHlo.after hostOps1 (W4 m ρ c) (Proc.devRef .tc main_v23) = _
  dsimp only [hostOps1]
  after_results
  exact leave0_b m ρ c

/-! ## The returned buffer -/

/-- The returned buffer holds the result term of the arguments as launched. -/
theorem returned : W7 m ρ c (Proc.devRef .tc main_v38)
    = Terms.out (m ((c : Thread nD τ).loc main_arg0)) (m ((c : Thread nD τ).loc main_arg1)) (m ((c : Thread nD τ).loc main_arg2))
        (m ((c : Thread nD τ).loc main_arg3)) := by
  show StableHlo.after hostOps2 (W6 m ρ c) (Proc.devRef .tc main_v38) = _
  dsimp only [hostOps2]
  after_results
  rw [W6_arr m ρ c 4, result1]
  unfold Terms.out
  rw [← enter1_agg m ρ c, ← enter1_hs m ρ c, ← enter1_s m ρ c, ← enter1_b m ρ c]
  rfl

end Cert.KernelIdeal.Boundary

end
-- ==== Proof.LibFiniteEntry.lean ====
/-
  GENERAL LEMMAS: the finiteness test of one entry, read back on the extended reals.
  A precondition "every input is finite" tests each entry x by comparing its absolute value max(x, −x) strictly below the
  single-precision word of +∞.
  • `inf_word`: that word denotes the top element ⊤;
  • `real_of_abs_lt`: an extended real that passes the test is the image of a real number (at ⊤ and at ⊥ the absolute
    value is ⊤ itself, which is not below ⊤).
-/
import Idealize.ShloMosaic.PureOps.Ideal

noncomputable section

namespace Cert.Lib.FiniteEntry

open Idealize.ShloMosaic

/-- The single-precision word of +∞ denotes the top of the extended reals. -/
theorem inf_word : Ideal.ofBits .f32 0x7F800000#32 = (⊤ : EReal) := by
  simp [Ideal.ofBits, Ideal.ieee]

/-- An extended real whose absolute value compares strictly below the word of +∞ is a real number. -/
theorem real_of_abs_lt (x : EReal) (h : Ideal.cmp .olt (max x (-x)) (Ideal.ofBits .f32 0x7F800000#32) = 1#1) :
    ∃ r : ℝ, x = (r : EReal) := by
  rw [inf_word] at h
  induction x using EReal.rec with
  | bot => simp [Ideal.cmp] at h
  | coe r => exact ⟨r, rfl⟩
  | top => simp [Ideal.cmp] at h

end Cert.Lib.FiniteEntry

end
-- ==== Proof.FiniteArgs.lean ====
/-
  What the precondition says of the float arguments: every entry of the features, of the weights and of the bias is a
  real number.

  The precondition is the conjunction of three tests, one per float argument, each asking that every entry's absolute
  value compare strictly below the word of +∞. A conjunction of one-bit words that is 1 has each word 1; an "all" over
  an array that is 1 has a 1 at every index; and an extended real whose absolute value is below +∞ is a real.
-/
import proofs.«167297_j79860621902688_2_alg».proof.Pre_finite_inputs
import proofs.«167297_j79860621902688_2_alg».proof.Proof.Gen.Pre_finite_inputs
import proofs.«167297_j79860621902688_2_alg».proof.Proof.LibFiniteEntry
import Idealize.ShloMosaic.Lib.ReduceAll
import Idealize.ShloMosaic.Lib.Affine
import Idealize.ShloMosaic.Lib.ValueIdx

noncomputable section

namespace Cert.Pre_finite_inputs.Decode

open Cert.Pre_finite_inputs Idealize.ShloMosaic Idealize.ShloMosaic.ValueIdx

instance : Subsingleton S_.Idx := ⟨fun a b => funext fun d => d.elim0⟩

/-- Under the precondition the three float arguments have real entries. -/
theorem reals_of_pre (a0 : FVec Ideal S1000000x16 .f32) (a1 : IVec S2x4000000 32) (a2 : FVec Ideal S16x16 .f32)
    (a3 : FVec Ideal S16 .f32) (h : fn (F := Ideal) a0 a1 a2 a3 = fun _ => 1#1) :
    (∀ i, ∃ y : ℝ, a0 i = (y : EReal)) ∧ (∀ i, ∃ y : ℝ, a2 i = (y : EReal)) ∧ (∀ i, ∃ y : ℝ, a3 i = (y : EReal)) := by
  have h0 := congrFun h ix0
  dsimp only [fn] at h0
  obtain ⟨h01, h2⟩ := IntOp.andi_eq_one.mp h0
  obtain ⟨h0', h1⟩ := IntOp.andi_eq_one.mp h01
  refine ⟨fun i => ?_, fun i => ?_, fun i => ?_⟩
  · exact Cert.Lib.FiniteEntry.real_of_abs_lt (a0 i) (Host.reduce_andi_all _ _ _ _ ix0 h0' i)
  · exact Cert.Lib.FiniteEntry.real_of_abs_lt (a2 i) (Host.reduce_andi_all _ _ _ _ ix0 h1 i)
  · exact Cert.Lib.FiniteEntry.real_of_abs_lt (a3 i) (Host.reduce_andi_all _ _ _ _ ix0 h2 i)

end Cert.Pre_finite_inputs.Decode

end
-- ==== Proof.LibReshapeRank2.lean ====
/-
  A reshape between two arrays of rank 2 read at an entry, by coordinates.

  A reshape keeps the row-major position of every entry. For an [a, b] array viewed as [a', b'], entry (r', c') of
  the view is entry (r, c) of the array whenever r · b + c = r' · b' + c'.
-/
import Idealize.ShloMosaic.Lib.Pipeline.Value
import Idealize.ShloMosaic.Lib.ValueIdx

noncomputable section

namespace Idealize.ShloMosaic.ReshapeRank2

open Idealize.ShloMosaic Idealize.ShloMosaic.ValueIdx

variable {α : Type}

/-- An [a, b] array viewed as [a', b']: equal row-major positions name the same entry. -/
theorem mat_apply {a b a' b' : Nat} (x : (⟨2, ![a, b]⟩ : Shape).Idx → α)
    (h : (⟨2, ![a, b]⟩ : Shape).ShapeCasts ⟨2, ![a', b']⟩) (r' : Fin a') (c' : Fin b') (r : Fin a) (c : Fin b)
    (hk : r.val * b + c.val = r'.val * b' + c'.val) :
    shapeCast ⟨2, ![a', b']⟩ x h (ix2 r' c') = x (ix2 r c) :=
  shapeCast_apply x h (ix2 r' c') (ix2 r c) (by
    rw [Shape.rowMajor_val_two, Shape.rowMajor_val_two]; exact hk)

end Idealize.ShloMosaic.ReshapeRank2

end
-- ==== Proof.LibBlockDiagSum.lean ====
/-
  Sums over a long axis cut into equal blocks, and products against a block-diagonal matrix.

  An axis of `P * K` positions is `P` blocks of `K`: position `l` is place `l % K` of block `l / K`, and a sum over the
  axis is the double sum over blocks and places (`sum_div_mod`). A factor that is `d q * w i` with `d q` equal to one on a
  single block `κ` and to zero on the others — a column of a matrix that repeats a small matrix down its diagonal —
  kills every block but `κ` (`sum_diag`), so the long sum against it is the small sum over block `κ` (`sum_blockdiag`).
  Only `0 * a = 0`, `a * 0 = 0` and `1 * a = a` are used, no distributivity, so the statements hold on the extended reals
  with no hypothesis that anything is finite.
-/
import Mathlib.Algebra.BigOperators.Fin
import Mathlib.Data.EReal.Operations
import Mathlib.Logic.Equiv.Fin.Basic

namespace BlockDiagSum

open scoped BigOperators

/-- A sum over an axis of `P * K` positions, each position `l` read as the pair (`l / K`, `l % K`), is the double sum
    over the pairs. -/
theorem sum_div_mod {M : Type*} [AddCommMonoid M] (P K n : Nat) (hn : n = P * K) (F : Fin P → Fin K → M)
    (hq : ∀ l : Fin n, l.val / K < P) (hi : ∀ l : Fin n, l.val % K < K) :
    ∑ l : Fin n, F ⟨l.val / K, hq l⟩ ⟨l.val % K, hi l⟩ = ∑ q : Fin P, ∑ i : Fin K, F q i := by
  subst hn
  rw [← Fintype.sum_prod_type (f := fun qi : Fin P × Fin K => F qi.1 qi.2)]
  exact Fintype.sum_equiv finProdFinEquiv.symm _ _ (fun l => rfl)

/-- Against a block-diagonal factor only the diagonal block survives: with `d q = 1` for `q = κ` and `0` otherwise,
    the double sum of `a q i * (d q * w i)` is the single sum over block `κ`. -/
theorem sum_diag {P K : Nat} (a : Fin P → Fin K → EReal) (w : Fin K → EReal) (κ : Fin P) :
    ∑ q : Fin P, ∑ i : Fin K, a q i * ((if q.val = κ.val then (1 : EReal) else 0) * w i) = ∑ i : Fin K, a κ i * w i := by
  rw [Finset.sum_eq_single κ]
  · refine Finset.sum_congr rfl fun i _ => ?_
    rw [if_pos rfl, one_mul]
  · intro q _ hq
    have hne : q.val ≠ κ.val := fun h => hq (Fin.ext h)
    refine Finset.sum_eq_zero fun i _ => ?_
    rw [if_neg hne, zero_mul, mul_zero]
  · intro h; exact absurd (Finset.mem_univ κ) h

/-- The two together: a sum over the long axis against a block-diagonal factor is the sum over the one surviving
    block. -/
theorem sum_blockdiag (P K n : Nat) (hn : n = P * K) (a : Fin P → Fin K → EReal) (w : Fin K → EReal) (κ : Fin P)
    (hq : ∀ l : Fin n, l.val / K < P) (hi : ∀ l : Fin n, l.val % K < K) :
    ∑ l : Fin n, a ⟨l.val / K, hq l⟩ ⟨l.val % K, hi l⟩ * ((if l.val / K = κ.val then (1 : EReal) else 0) * w ⟨l.val % K, hi l⟩)
      = ∑ i : Fin K, a κ i * w i :=
  (sum_div_mod P K n hn (fun q i => a q i * ((if q.val = κ.val then (1 : EReal) else 0) * w i)) hq hi).trans (sum_diag a w κ)

end BlockDiagSum
-- ==== Proof.PackedReads.lean ====
/-
  The packed operands of the two launches read at an entry, and what one packed row of the first product is.

  Eight consecutive nodes share a packed row: node r sits in packed row r / 8 at lanes (r % 8)·16 … (r % 8)·16 + 15, and
  its scale at lane r % 8 of the packed scales. The packed weight matrix carries the 16×16 weights eight times down its
  diagonal, so lane (r % 8)·16 + j of the product of packed row r / 8 with it sums only over node r's own sixteen
  features: it is Σ_k x(r, k) · w(k, j). Nothing here asks any entry to be finite: the off-diagonal blocks contribute
  a · (0 · w) = 0 whatever a and w are.
-/
import proofs.«167297_j79860621902688_2_alg».proof.Proof.KernelTerms
import proofs.«167297_j79860621902688_2_alg».proof.Proof.LibReshapeRank2
import proofs.«167297_j79860621902688_2_alg».proof.Proof.LibBlockDiagSum
import Idealize.ShloMosaic.Lib.IdealHost

noncomputable section

namespace Cert.KernelIdeal.Entries

open Cert.KernelIdeal Idealize.ShloMosaic Idealize.ShloMosaic.ValueIdx Cert.KernelIdeal.RegionValue
open Cert.KernelIdeal.Facts₀ Cert.KernelIdeal.Facts
open scoped BigOperators

/-- One node's features against one column of the weights. -/
def lin (a0 : (⟨2, ![1000000, 16]⟩ : Shape).Idx → EReal) (a2 : (⟨2, ![16, 16]⟩ : Shape).Idx → EReal) (r : Fin 1000000) (j : Fin 16) : EReal :=
  ∑ k : Fin 16, a0 (ix2 r k) * a2 (ix2 k j)

variable (a0 : FVec Ideal S1000000x16 .f32) (a1 : IVec S2x4000000 32) (a2 : FVec Ideal S16x16 .f32) (a3 : FVec Ideal S16 .f32)

/-- Comparing two coordinates below eight as 32-bit words tells whether they are equal. -/
theorem coord_eq_word : ∀ p q : Fin 8,
    (IntOp.cmpi .eq (IntOp.addi (BitVec.ofNat 32 p.val) 0#32) (BitVec.ofNat 32 q.val)).toNat = if p.val = q.val then 1 else 0 := by
  decide +kernel

/-- The 8×8 identity at (p, q). -/
theorem eye_apply (p q : Fin 8) : Terms.eye (ix2 p q) = if p.val = q.val then (1 : EReal) else 0 := by
  show (((IntOp.cmpi .eq (IntOp.addi (BitVec.ofNat 32 p.val) 0#32) (BitVec.ofNat 32 q.val)).toNat : ℝ) : EReal) = _
  rw [coord_eq_word p q]
  split_ifs
  · norm_num
  · norm_num

/-- The packed weights at (l, q·16 + j): the identity's entry (l / 16, q) times the weights' entry (l % 16, j). -/
theorem wPacked_apply (l C : Fin 128) (q : Fin 8) (j : Fin 16) (hC : C.val = q.val * 16 + j.val) :
    Terms.wPacked a2 (ix2 l C)
      = (if l.val / 16 = q.val then (1 : EReal) else 0) * a2 (ix2 ⟨l.val % 16, Nat.mod_lt _ (by norm_num)⟩ j) := by
  have hl : l.val < 128 := l.isLt
  have hq : q.val < 8 := q.isLt
  have hj : j.val < 16 := j.isLt
  unfold Terms.wPacked
  rw [shapeCast_apply _ shapeCasts_S8x16x8x16_S128x128 (ix2 l C)
    (ix4 (⟨l.val / 16, by omega⟩ : Fin 8) (⟨l.val % 16, by omega⟩ : Fin 16) q j)
    (by rw [Shape.rowMajor_val_four, Shape.rowMajor_val_two]
        show ((l.val / 16 * 16 + l.val % 16) * 8 + q.val) * 16 + j.val = l.val * 128 + C.val
        omega)]
  rw [mulf_apply]
  rw [broadcastInDim_apply _ bcast_S8x1x8x1_S8x16x8x16_0_1_2_3 _ _
    (ix4 (⟨l.val / 16, by omega⟩ : Fin 8) (0 : Fin 1) q (0 : Fin 1)) (fun a => match a with
      | ⟨0, _⟩ => rfl
      | ⟨1, _⟩ => rfl
      | ⟨2, _⟩ => rfl
      | ⟨3, _⟩ => rfl)]
  rw [broadcastInDim_apply _ bcast_S8x8_S8x1x8x1_0_2 _ _ (ix2 (⟨l.val / 16, by omega⟩ : Fin 8) q) (fun a => match a with
      | ⟨0, _⟩ => rfl
      | ⟨1, _⟩ => rfl)]
  rw [broadcastInDim_apply _ bcast_S1x16x1x16_S8x16x8x16_0_1_2_3 _ _
    (ix4 (0 : Fin 1) (⟨l.val % 16, by omega⟩ : Fin 16) (0 : Fin 1) j) (fun a => match a with
      | ⟨0, _⟩ => rfl
      | ⟨1, _⟩ => rfl
      | ⟨2, _⟩ => rfl
      | ⟨3, _⟩ => rfl)]
  rw [broadcastInDim_apply _ bcast_S16x16_S1x16x1x16_1_3 _ _ (ix2 (⟨l.val % 16, by omega⟩ : Fin 16) j) (fun a => match a with
      | ⟨0, _⟩ => rfl
      | ⟨1, _⟩ => rfl)]
  rw [eye_apply]

/-- The packed features at (R, l): node R·8 + l / 16, feature l % 16. -/
theorem xPacked_apply (R : Fin 125000) (l : Fin 128) :
    Terms.xPacked a0 (ix2 R l)
      = a0 (ix2 (⟨R.val * 8 + l.val / 16, by have := R.isLt; have := l.isLt; omega⟩ : Fin 1000000)
          (⟨l.val % 16, Nat.mod_lt _ (by norm_num)⟩ : Fin 16)) := by
  unfold Terms.xPacked
  exact ReshapeRank2.mat_apply a0 shapeCasts_S1000000x16_S125000x128 R l _ _
    (by show (R.val * 8 + l.val / 16) * 16 + l.val % 16 = R.val * 128 + l.val; omega)

/-- The packed scales at (R, q): node R·8 + q. -/
theorem sPacked_apply (R : Fin 125000) (q : Fin 8) :
    Terms.sPacked a1 (ix2 R q) = Terms.dinv a1 (ix1 (⟨R.val * 8 + q.val, by have := R.isLt; have := q.isLt; omega⟩ : Fin 1000000)) := by
  unfold Terms.sPacked
  exact shapeCast_apply _ shapeCasts_S1000000_S125000x8 (ix2 R q) _
    (by rw [Shape.rowMajor_val_one, Shape.rowMajor_val_two]; rfl)

/-- The packed bias row at lane q·16 + j: the bias of feature j. -/
theorem bPacked_apply (C : Fin 128) (q : Fin 8) (j : Fin 16) (hC : C.val = q.val * 16 + j.val) :
    Terms.bPacked a3 (ix2 (0 : Fin 1) C) = a3 (ix1 j) := by
  have hq : q.val < 8 := q.isLt
  have hj : j.val < 16 := j.isLt
  unfold Terms.bPacked
  rw [shapeCast_apply _ shapeCasts_S128_S1x128 (ix2 (0 : Fin 1) C) (ix1 C)
    (by rw [Shape.rowMajor_val_one, Shape.rowMajor_val_two]; show C.val = 0 * 128 + C.val; omega)]
  rw [shapeCast_apply _ shapeCasts_S8x16_S128 (ix1 C) (ix2 q j)
    (by rw [Shape.rowMajor_val_two, Shape.rowMajor_val_one]; show q.val * 16 + j.val = C.val; omega)]
  rw [broadcastInDim_apply _ bcast_S1x16_S8x16_0_1 _ _ (ix2 (0 : Fin 1) j) (fun a => match a with
      | ⟨0, _⟩ => rfl
      | ⟨1, _⟩ => rfl)]
  exact shapeCast_apply a3 shapeCasts_S16_S1x16 (ix2 (0 : Fin 1) j) (ix1 j)
    (by rw [Shape.rowMajor_val_one, Shape.rowMajor_val_two]; show j.val = 0 * 16 + j.val; omega)

/-- ONE PACKED ROW OF THE PRODUCT: at node r's lanes it is node r's features against the weights. -/
theorem lin_packed (r : Fin 1000000) (j : Fin 16) (R : Fin 125000) (C : Fin 128) (hR : R.val = r.val / 8)
    (hC : C.val = r.val % 8 * 16 + j.val) :
    ∑ l : Fin 128, Terms.xPacked a0 (ix2 R l) * Terms.wPacked a2 (ix2 l C) = lin a0 a2 r j := by
  have hr : r.val < 1000000 := r.isLt
  have hRlt : R.val < 125000 := R.isLt
  have hq : ∀ l : Fin 128, l.val / 16 < 8 := fun l => by have := l.isLt; omega
  have hi : ∀ l : Fin 128, l.val % 16 < 16 := fun l => Nat.mod_lt _ (by norm_num)
  refine (Finset.sum_congr rfl (fun l _ => ?_)).trans
    ((BlockDiagSum.sum_blockdiag 8 16 128 rfl
      (fun (q : Fin 8) (k : Fin 16) => a0 (ix2 (⟨R.val * 8 + q.val, by have := q.isLt; omega⟩ : Fin 1000000) k))
      (fun k : Fin 16 => a2 (ix2 k j)) (⟨r.val % 8, by omega⟩ : Fin 8) hq hi).trans ?_)
  · rw [xPacked_apply, wPacked_apply a2 l C (⟨r.val % 8, by omega⟩ : Fin 8) j hC]
  · unfold lin
    refine Finset.sum_congr rfl fun k _ => ?_
    have he : (⟨R.val * 8 + r.val % 8, by omega⟩ : Fin 1000000) = r := Fin.ext (by show R.val * 8 + r.val % 8 = r.val; omega)
    show a0 (ix2 (⟨R.val * 8 + r.val % 8, _⟩ : Fin 1000000) k) * a2 (ix2 k j) = _
    rw [he]

/-- THE FIRST LAUNCH'S RESULT AT NODE r, FEATURE j: the node's features against the weights, times the node's scale. -/
theorem hs_entry (r : Fin 1000000) (j : Fin 16) (R : Fin 125000) (C : Fin 128) (hR : R.val = r.val / 8)
    (hC : C.val = r.val % 8 * 16 + j.val) :
    Terms.hsPacked a0 a1 a2 (ix2 R C) = lin a0 a2 r j * Terms.dinv a1 (ix1 r) := by
  have hr : r.val < 1000000 := r.isLt
  have hj : j.val < 16 := j.isLt
  unfold Terms.hsPacked scaledProduct
  show (∑ l : Fin 128, Terms.xPacked a0 (ix2 R l) * Terms.wPacked a2 (ix2 l C))
    * Terms.sPacked a1 (ix2 R (⟨C.val / 16, _⟩ : Fin 8)) = _
  rw [lin_packed a0 a2 r j R C hR hC, sPacked_apply]
  have he : (⟨R.val * 8 + C.val / 16, by have := R.isLt; have := C.isLt; omega⟩ : Fin 1000000) = r :=
    Fin.ext (by show R.val * 8 + C.val / 16 = r.val; omega)
  rw [he]

end Cert.KernelIdeal.Entries

end
-- ==== Proof.LibConcatPair.lean ====
/-
  A concatenation of two arrays read at an entry, by coordinates.

  Two arrays of rank 2 stacked along the rows (axis 0) or side by side along the columns (axis 1), and two arrays of
  rank 1 joined end to end: an entry of the result whose coordinate on the joined axis lies below the first piece's
  extent is the first piece's entry at the same coordinates; past it, the second piece's entry with the first
  extent subtracted on that axis. The statements name the entry by its coordinates, so that a value proof meets no
  case analysis on the axis; the result's extent on the joined axis is any `c` for which the shapes concatenate.
-/
import Idealize.ShloMosaic.Lib.Pipeline.Value
import Idealize.ShloMosaic.Lib.ValueIdx

noncomputable section

namespace Idealize.ShloMosaic.ConcatPair

open Idealize.ShloMosaic Idealize.ShloMosaic.ValueIdx

variable {α : Type} {a b c n : Nat}

/-- Stacked rows, an entry in the upper piece. -/
theorem rows_fst (x₁ : (⟨2, ![a, n]⟩ : Shape).Idx → α) (x₂ : (⟨2, ![b, n]⟩ : Shape).Idx → α)
    (h : Shape.Concatenates [(⟨2, ![a, n]⟩ : Shape), ⟨2, ![b, n]⟩] ⟨2, ![c, n]⟩ (0 : Fin 2))
    (r : Fin a) (q : Fin n) (hr : r.val < c) :
    concatenate ⟨2, ![c, n]⟩ (0 : Fin 2) [⟨⟨2, ![a, n]⟩, x₁⟩, ⟨⟨2, ![b, n]⟩, x₂⟩] h (ix2 ⟨r.val, hr⟩ q) = x₁ (ix2 r q) :=
  concatenate_pair_apply_left (t := ⟨2, ![c, n]⟩) (s₁ := ⟨2, ![a, n]⟩) (s₂ := ⟨2, ![b, n]⟩) (0 : Fin 2) x₁ x₂ h
    (ix2 ⟨r.val, hr⟩ q) rfl (ix2 r q) (fun d => match d with | ⟨0, _⟩ => rfl | ⟨1, _⟩ => rfl)

/-- Stacked rows, an entry in the lower piece. -/
theorem rows_snd (x₁ : (⟨2, ![a, n]⟩ : Shape).Idx → α) (x₂ : (⟨2, ![b, n]⟩ : Shape).Idx → α)
    (h : Shape.Concatenates [(⟨2, ![a, n]⟩ : Shape), ⟨2, ![b, n]⟩] ⟨2, ![c, n]⟩ (0 : Fin 2))
    (r : Fin b) (q : Fin n) (hr : a + r.val < c) :
    concatenate ⟨2, ![c, n]⟩ (0 : Fin 2) [⟨⟨2, ![a, n]⟩, x₁⟩, ⟨⟨2, ![b, n]⟩, x₂⟩] h (ix2 ⟨a + r.val, hr⟩ q) = x₂ (ix2 r q) :=
  concatenate_pair_apply_right (t := ⟨2, ![c, n]⟩) (s₁ := ⟨2, ![a, n]⟩) (s₂ := ⟨2, ![b, n]⟩) (0 : Fin 2) x₁ x₂ h
    (ix2 ⟨a + r.val, hr⟩ q) rfl rfl (ix2 r q)
    (fun d hd => match d, hd with | ⟨0, _⟩, hd => absurd rfl hd | ⟨1, _⟩, _ => rfl)
    (Nat.add_comm r.val a)

/-- Side by side, an entry in the left piece. -/
theorem cols_fst (x₁ : (⟨2, ![n, a]⟩ : Shape).Idx → α) (x₂ : (⟨2, ![n, b]⟩ : Shape).Idx → α)
    (h : Shape.Concatenates [(⟨2, ![n, a]⟩ : Shape), ⟨2, ![n, b]⟩] ⟨2, ![n, c]⟩ (1 : Fin 2))
    (r : Fin n) (q : Fin a) (hq : q.val < c) :
    concatenate ⟨2, ![n, c]⟩ (1 : Fin 2) [⟨⟨2, ![n, a]⟩, x₁⟩, ⟨⟨2, ![n, b]⟩, x₂⟩] h (ix2 r ⟨q.val, hq⟩) = x₁ (ix2 r q) :=
  concatenate_pair_apply_left (t := ⟨2, ![n, c]⟩) (s₁ := ⟨2, ![n, a]⟩) (s₂ := ⟨2, ![n, b]⟩) (1 : Fin 2) x₁ x₂ h
    (ix2 r ⟨q.val, hq⟩) rfl (ix2 r q) (fun d => match d with | ⟨0, _⟩ => rfl | ⟨1, _⟩ => rfl)

/-- Side by side, an entry in the right piece. -/
theorem cols_snd (x₁ : (⟨2, ![n, a]⟩ : Shape).Idx → α) (x₂ : (⟨2, ![n, b]⟩ : Shape).Idx → α)
    (h : Shape.Concatenates [(⟨2, ![n, a]⟩ : Shape), ⟨2, ![n, b]⟩] ⟨2, ![n, c]⟩ (1 : Fin 2))
    (r : Fin n) (q : Fin b) (hq : a + q.val < c) :
    concatenate ⟨2, ![n, c]⟩ (1 : Fin 2) [⟨⟨2, ![n, a]⟩, x₁⟩, ⟨⟨2, ![n, b]⟩, x₂⟩] h (ix2 r ⟨a + q.val, hq⟩) = x₂ (ix2 r q) :=
  concatenate_pair_apply_right (t := ⟨2, ![n, c]⟩) (s₁ := ⟨2, ![n, a]⟩) (s₂ := ⟨2, ![n, b]⟩) (1 : Fin 2) x₁ x₂ h
    (ix2 r ⟨a + q.val, hq⟩) rfl rfl (ix2 r q)
    (fun d hd => match d, hd with | ⟨0, _⟩, _ => rfl | ⟨1, _⟩, hd => absurd rfl hd)
    (Nat.add_comm q.val a)

/-- End to end, an entry in the first piece. -/
theorem vec_fst (x₁ : (⟨1, ![a]⟩ : Shape).Idx → α) (x₂ : (⟨1, ![b]⟩ : Shape).Idx → α)
    (h : Shape.Concatenates [(⟨1, ![a]⟩ : Shape), ⟨1, ![b]⟩] ⟨1, ![c]⟩ (0 : Fin 1))
    (q : Fin a) (hq : q.val < c) :
    concatenate ⟨1, ![c]⟩ (0 : Fin 1) [⟨⟨1, ![a]⟩, x₁⟩, ⟨⟨1, ![b]⟩, x₂⟩] h (ix1 ⟨q.val, hq⟩) = x₁ (ix1 q) :=
  concatenate_pair_apply_left (t := ⟨1, ![c]⟩) (s₁ := ⟨1, ![a]⟩) (s₂ := ⟨1, ![b]⟩) (0 : Fin 1) x₁ x₂ h
    (ix1 ⟨q.val, hq⟩) rfl (ix1 q) (fun d => match d with | ⟨0, _⟩ => rfl)

/-- End to end, an entry in the second piece. -/
theorem vec_snd (x₁ : (⟨1, ![a]⟩ : Shape).Idx → α) (x₂ : (⟨1, ![b]⟩ : Shape).Idx → α)
    (h : Shape.Concatenates [(⟨1, ![a]⟩ : Shape), ⟨1, ![b]⟩] ⟨1, ![c]⟩ (0 : Fin 1))
    (q : Fin b) (hq : a + q.val < c) :
    concatenate ⟨1, ![c]⟩ (0 : Fin 1) [⟨⟨1, ![a]⟩, x₁⟩, ⟨⟨1, ![b]⟩, x₂⟩] h (ix1 ⟨a + q.val, hq⟩) = x₂ (ix1 q) :=
  concatenate_pair_apply_right (t := ⟨1, ![c]⟩) (s₁ := ⟨1, ![a]⟩) (s₂ := ⟨1, ![b]⟩) (0 : Fin 1) x₁ x₂ h
    (ix1 ⟨a + q.val, hq⟩) rfl rfl (ix1 q)
    (fun d hd => match d, hd with | ⟨0, _⟩, hd => absurd rfl hd)
    (Nat.add_comm q.val a)

end Idealize.ShloMosaic.ConcatPair

end
-- ==== Proof.LibScatterRows.lean ====
/-
  The accumulating row scatter, read entry by entry, and its additivity over stacked updates.

  The scatter here has an operand of `N` rows and `C` columns, one scatter index per update row (indices of shape
  `[U, 1]`, the index vector on axis 1) and updates of shape `[U, C]` whose axis 1 is the window axis; operand axis 0
  is the inserted window axis and the one the index names. Update entry `(u, j)` therefore lands on operand entry
  `(idx[u, 0], j)`, the index read as a signed integer, and is dropped when that row lies outside `[0, N)`. On the
  extended reals the result at `(r, j)` is the operand's entry plus the sum over the update rows `u` with
  `idx[u, 0] = r` of `upd[u, j]`.

  When the update rows and their indices are two (or three) arrays stacked along axis 0, that sum splits into the
  pieces' sums: one scatter of the stacked arrays into a zero operand equals the entrywise sum of the pieces' scatters
  into zero operands. Only the commutative monoid structure of `+` on the extended reals is used.
-/
import Idealize.ShloMosaic.PureOps.Ideal
import Idealize.ShloMosaic.PureOps.Contract
import Idealize.ShloMosaic.Lib.Pipeline.Value
import Idealize.ShloMosaic.Lib.ValueIdx
import Idealize.ShloMosaic.PureOps.Ideal.Laws
import proofs.«167297_j79860621902688_2_alg».proof.Proof.LibConcatPair

noncomputable section

namespace Idealize.ShloMosaic.ScatterRows

open Idealize.ShloMosaic Idealize.ShloMosaic.ValueIdx

variable {N U C w : Nat}

/-- The row scatter's dimension numbers for an operand `[N, C]`, indices `[U, 1]` and updates `[U, C]`; their
    conditions `wf` are decided on a program's literal shapes. -/
abbrev rowDims (N U C : Nat) (wf : ScatterDims.WF ⟨2, ![N, C]⟩ ⟨2, ![U, 1]⟩ ⟨2, ![U, C]⟩ [1] [0] [0] 1) :
    ScatterDims ⟨2, ![N, C]⟩ ⟨2, ![U, 1]⟩ ⟨2, ![U, C]⟩ where
  updateWindowDims := [1]
  insertedWindowDims := [0]
  scatterDimsToOperandDims := [0]
  indexVectorDim := 1
  wf := wf

section Landing
variable (wf : ScatterDims.WF ⟨2, ![N, C]⟩ ⟨2, ![U, 1]⟩ ⟨2, ![U, C]⟩ [1] [0] [0] 1)
  (idx : IVec ⟨2, ![U, 1]⟩ w) (u : Fin U) (j : Fin C)

/-- The window of update `(u, j)` starts, on operand axis 0, at the signed index `idx[u, 0]`. -/
theorem start_zero : (rowDims N U C wf).start (ix2 u j) idx 0 = (idx (ix2 u 0)).toInt := by
  unfold ScatterDims.start
  rw [dif_pos (show (0 : Fin 2) ∈ [(0 : Fin 2)] from List.mem_singleton.mpr rfl)]
  congr 2
  funext b
  match b with
  | ⟨0, _⟩ => rfl
  | ⟨1, _⟩ => rfl

/-- On operand axis 1 the window starts at `0`: the index map does not name that axis. -/
theorem start_one : (rowDims N U C wf).start (ix2 u j) idx 1 = 0 := by
  unfold ScatterDims.start
  rw [dif_neg (show ¬ (1 : Fin 2) ∈ [(0 : Fin 2)] by decide)]

/-- Operand axis 0 is an inserted window axis: the window coordinate there is `0`. -/
theorem window_zero : (rowDims N U C wf).window (ix2 u j) 0 = 0 := by
  unfold ScatterDims.window
  have h : ¬ (0 : Fin 2) ∈ (rowDims N U C wf).sKept := (by decide : ¬ (0 : Fin 2) ∈ [(1 : Fin 2)])
  rw [dif_neg h]

/-- On operand axis 1 the window coordinate is the update's column. -/
theorem window_one : (rowDims N U C wf).window (ix2 u j) 1 = j.val := by
  unfold ScatterDims.window
  have h : (1 : Fin 2) ∈ (rowDims N U C wf).sKept := (List.mem_singleton.mpr rfl : (1 : Fin 2) ∈ [(1 : Fin 2)])
  rw [dif_pos h]
  rfl

/-- The landing row of update `(u, j)`, before the bounds check. -/
theorem pos_zero :
    (rowDims N U C wf).start (ix2 u j) idx 0 + ((rowDims N U C wf).window (ix2 u j) 0 : Int) = (idx (ix2 u 0)).toInt := by
  rw [start_zero, window_zero]; simp

/-- The landing column of update `(u, j)`. -/
theorem pos_one :
    (rowDims N U C wf).start (ix2 u j) idx 1 + ((rowDims N U C wf).window (ix2 u j) 1 : Int) = (j.val : Int) := by
  rw [start_one, window_one]; simp

/-- WHERE AN UPDATE LANDS: update `(u, j)` lands on operand entry `(r, j')` exactly when its signed index is `r` and
    the columns agree. -/
theorem resultIdx?_eq_some_iff (r : Fin N) (j' : Fin C) :
    (rowDims N U C wf).resultIdx? (ix2 u j) idx = some (ix2 r j') ↔ (idx (ix2 u 0)).toInt = (r.val : Int) ∧ j = j' := by
  unfold ScatterDims.resultIdx?
  split
  next h =>
    have h0 := h 0
    rw [pos_zero] at h0
    rw [Option.some.injEq]
    constructor
    · intro heq
      have e0 : ((rowDims N U C wf).start (ix2 u j) idx 0 + ((rowDims N U C wf).window (ix2 u j) 0 : Int)).toNat = r.val :=
        congrArg Fin.val (congrFun heq 0)
      have e1 : ((rowDims N U C wf).start (ix2 u j) idx 1 + ((rowDims N U C wf).window (ix2 u j) 1 : Int)).toNat = j'.val :=
        congrArg Fin.val (congrFun heq 1)
      rw [pos_zero] at e0
      rw [pos_one] at e1
      refine ⟨by omega, Fin.ext (by omega)⟩
    · rintro ⟨h1, rfl⟩
      funext a
      match a with
      | ⟨0, _⟩ =>
        refine Fin.ext ?_
        show ((rowDims N U C wf).start (ix2 u j) idx 0 + ((rowDims N U C wf).window (ix2 u j) 0 : Int)).toNat = r.val
        rw [pos_zero, h1]; omega
      | ⟨1, _⟩ =>
        refine Fin.ext ?_
        show ((rowDims N U C wf).start (ix2 u j) idx 1 + ((rowDims N U C wf).window (ix2 u j) 1 : Int)).toNat = j.val
        rw [pos_one]; omega
  next h =>
    constructor
    · intro heq; cases heq
    · rintro ⟨h1, rfl⟩
      exfalso
      apply h
      intro a
      match a with
      | ⟨0, _⟩ =>
        show 0 ≤ (rowDims N U C wf).start (ix2 u j) idx 0 + ((rowDims N U C wf).window (ix2 u j) 0 : Int) ∧
          (rowDims N U C wf).start (ix2 u j) idx 0 + ((rowDims N U C wf).window (ix2 u j) 0 : Int) < (N : Int)
        rw [pos_zero, h1]
        have := r.isLt
        omega
      | ⟨1, _⟩ =>
        show 0 ≤ (rowDims N U C wf).start (ix2 u j) idx 1 + ((rowDims N U C wf).window (ix2 u j) 1 : Int) ∧
          (rowDims N U C wf).start (ix2 u j) idx 1 + ((rowDims N U C wf).window (ix2 u j) 1 : Int) < (C : Int)
        rw [pos_one]
        have := j.isLt
        omega

end Landing

/-! ## The scatter read at an entry -/

/-- The sum a row scatter adds to operand entry `(r, j)`: over the update rows `u` whose signed index is `r`, the
    update's entry `(u, j)`. -/
def rowSum (idx : IVec ⟨2, ![U, 1]⟩ w) (upd : (⟨2, ![U, C]⟩ : Shape).Idx → EReal) (r : Nat) (j : Fin C) : EReal :=
  ∑ u : Fin U, if (idx (ix2 u 0)).toInt = (r : Int) then upd (ix2 u j) else 0

/-- THE ROW SCATTER AT `(r, j)`: the operand's entry plus the sum of the updates' column `j` over the update rows
    whose index is `r`. -/
theorem hostScatterAdd_rows (wf : ScatterDims.WF ⟨2, ![N, C]⟩ ⟨2, ![U, 1]⟩ ⟨2, ![U, C]⟩ [1] [0] [0] 1)
    (x : (⟨2, ![N, C]⟩ : Shape).Idx → EReal) (idx : IVec ⟨2, ![U, 1]⟩ w) (upd : (⟨2, ![U, C]⟩ : Shape).Idx → EReal)
    (r : Fin N) (j : Fin C) :
    Ideal.hostScatterAdd (rowDims N U C wf) x idx upd (ix2 r j) = x (ix2 r j) + rowSum idx upd r.val j := by
  unfold Ideal.hostScatterAdd rowSum
  congr 1
  rw [Finset.sum_filter, sum_idx2]
  refine Finset.sum_congr rfl fun u _ => ?_
  simp only [resultIdx?_eq_some_iff]
  by_cases hrow : (idx (ix2 u 0)).toInt = (r.val : Int)
  · simp only [hrow, true_and, if_true]
    rw [Finset.sum_ite_eq' Finset.univ j fun b => upd (ix2 u b), if_pos (Finset.mem_univ j)]
  · simp only [hrow, false_and, if_false]
    exact Finset.sum_const_zero

/-! ## Stacked update rows -/

section Split
variable {M : Type*} [AddCommMonoid M]

/-- A sum over `c = a + b` positions is the sum over the first `a` plus the sum over the last `b`. -/
theorem sum_fin_pair {a b c : Nat} (hc : a + b = c) (f : Fin c → M) :
    ∑ u : Fin c, f u = (∑ u : Fin a, f ⟨u.val, by omega⟩) + ∑ u : Fin b, f ⟨a + u.val, by omega⟩ := by
  subst hc
  rw [Fin.sum_univ_add]
  rfl

/-- A sum over `d = a + b + c` positions is the sum of the three consecutive stretches' sums. -/
theorem sum_fin_triple {a b c d : Nat} (hd : a + b + c = d) (f : Fin d → M) :
    ∑ u : Fin d, f u = (∑ u : Fin a, f ⟨u.val, by omega⟩) + (∑ u : Fin b, f ⟨a + u.val, by omega⟩)
      + ∑ u : Fin c, f ⟨a + b + u.val, by omega⟩ := by
  subst hd
  rw [Fin.sum_univ_add, Fin.sum_univ_add]
  rfl

end Split

/-- The scatter's sum over two stacked pieces is the sum of the pieces' sums: the stacked indices and updates read, on
    the first `a` rows, as the first piece's and, on the last `b`, as the second's. -/
theorem rowSum_pair {a b c : Nat} (hc : a + b = c)
    (idx : IVec ⟨2, ![c, 1]⟩ w) (idx₁ : IVec ⟨2, ![a, 1]⟩ w) (idx₂ : IVec ⟨2, ![b, 1]⟩ w)
    (upd : (⟨2, ![c, C]⟩ : Shape).Idx → EReal) (upd₁ : (⟨2, ![a, C]⟩ : Shape).Idx → EReal)
    (upd₂ : (⟨2, ![b, C]⟩ : Shape).Idx → EReal)
    (hi₁ : ∀ (u : Fin a) (hu : u.val < c), idx (ix2 ⟨u.val, hu⟩ 0) = idx₁ (ix2 u 0))
    (hi₂ : ∀ (u : Fin b) (hu : a + u.val < c), idx (ix2 ⟨a + u.val, hu⟩ 0) = idx₂ (ix2 u 0))
    (hu₁ : ∀ (u : Fin a) (j : Fin C) (hu : u.val < c), upd (ix2 ⟨u.val, hu⟩ j) = upd₁ (ix2 u j))
    (hu₂ : ∀ (u : Fin b) (j : Fin C) (hu : a + u.val < c), upd (ix2 ⟨a + u.val, hu⟩ j) = upd₂ (ix2 u j))
    (r : Nat) (j : Fin C) :
    rowSum idx upd r j = rowSum idx₁ upd₁ r j + rowSum idx₂ upd₂ r j := by
  unfold rowSum
  rw [sum_fin_pair hc]
  congr 1
  · refine Finset.sum_congr rfl fun u _ => ?_
    rw [hi₁, hu₁]
  · refine Finset.sum_congr rfl fun u _ => ?_
    rw [hi₂, hu₂]

/-- The scatter's sum over three stacked pieces is the sum of the three pieces' sums. -/
theorem rowSum_triple {a b c d : Nat} (hd : a + b + c = d)
    (idx : IVec ⟨2, ![d, 1]⟩ w) (idx₁ : IVec ⟨2, ![a, 1]⟩ w) (idx₂ : IVec ⟨2, ![b, 1]⟩ w) (idx₃ : IVec ⟨2, ![c, 1]⟩ w)
    (upd : (⟨2, ![d, C]⟩ : Shape).Idx → EReal) (upd₁ : (⟨2, ![a, C]⟩ : Shape).Idx → EReal)
    (upd₂ : (⟨2, ![b, C]⟩ : Shape).Idx → EReal) (upd₃ : (⟨2, ![c, C]⟩ : Shape).Idx → EReal)
    (hi₁ : ∀ (u : Fin a) (hu : u.val < d), idx (ix2 ⟨u.val, hu⟩ 0) = idx₁ (ix2 u 0))
    (hi₂ : ∀ (u : Fin b) (hu : a + u.val < d), idx (ix2 ⟨a + u.val, hu⟩ 0) = idx₂ (ix2 u 0))
    (hi₃ : ∀ (u : Fin c) (hu : a + b + u.val < d), idx (ix2 ⟨a + b + u.val, hu⟩ 0) = idx₃ (ix2 u 0))
    (hu₁ : ∀ (u : Fin a) (j : Fin C) (hu : u.val < d), upd (ix2 ⟨u.val, hu⟩ j) = upd₁ (ix2 u j))
    (hu₂ : ∀ (u : Fin b) (j : Fin C) (hu : a + u.val < d), upd (ix2 ⟨a + u.val, hu⟩ j) = upd₂ (ix2 u j))
    (hu₃ : ∀ (u : Fin c) (j : Fin C) (hu : a + b + u.val < d), upd (ix2 ⟨a + b + u.val, hu⟩ j) = upd₃ (ix2 u j))
    (r : Nat) (j : Fin C) :
    rowSum idx upd r j = rowSum idx₁ upd₁ r j + rowSum idx₂ upd₂ r j + rowSum idx₃ upd₃ r j := by
  unfold rowSum
  rw [sum_fin_triple hd]
  congr 1
  · congr 1
    · refine Finset.sum_congr rfl fun u _ => ?_
      rw [hi₁, hu₁]
    · refine Finset.sum_congr rfl fun u _ => ?_
      rw [hi₂, hu₂]
  · refine Finset.sum_congr rfl fun u _ => ?_
    rw [hi₃, hu₃]

/-! ## Three arrays laid end to end, read at an entry

  A concatenation of three arrays along axis 0, read by coordinates: a coordinate below the first extent reads the first
  piece, one in the next stretch the second piece with the first extent subtracted, one in the last stretch the third
  with the first two extents subtracted. Rank 2 (stacked rows) and rank 1. -/

section Concat3
variable {α : Type} {a b c d n : Nat}

/-- Three stacked row blocks, an entry of the first. -/
theorem rows3_fst (x₁ : (⟨2, ![a, n]⟩ : Shape).Idx → α) (x₂ : (⟨2, ![b, n]⟩ : Shape).Idx → α) (x₃ : (⟨2, ![c, n]⟩ : Shape).Idx → α)
    (h : Shape.Concatenates [(⟨2, ![a, n]⟩ : Shape), ⟨2, ![b, n]⟩, ⟨2, ![c, n]⟩] ⟨2, ![d, n]⟩ (0 : Fin 2))
    (r : Fin a) (q : Fin n) (hr : r.val < d) :
    concatenate ⟨2, ![d, n]⟩ (0 : Fin 2) [⟨⟨2, ![a, n]⟩, x₁⟩, ⟨⟨2, ![b, n]⟩, x₂⟩, ⟨⟨2, ![c, n]⟩, x₃⟩] h (ix2 ⟨r.val, hr⟩ q)
      = x₁ (ix2 r q) :=
  concatenate_apply_piece (t := ⟨2, ![d, n]⟩) (0 : Fin 2) [⟨⟨2, ![a, n]⟩, x₁⟩, ⟨⟨2, ![b, n]⟩, x₂⟩, ⟨⟨2, ![c, n]⟩, x₃⟩] h (ix2 ⟨r.val, hr⟩ q) 0 (Nat.succ_pos _) ⟨2, ![a, n]⟩ x₁ rfl rfl
    0 rfl (ix2 r q) (fun bb hb => match bb, hb with | ⟨0, _⟩, hb => absurd rfl hb | ⟨1, _⟩, _ => rfl) (Nat.zero_add _)

/-- Three stacked row blocks, an entry of the second. -/
theorem rows3_snd (x₁ : (⟨2, ![a, n]⟩ : Shape).Idx → α) (x₂ : (⟨2, ![b, n]⟩ : Shape).Idx → α) (x₃ : (⟨2, ![c, n]⟩ : Shape).Idx → α)
    (h : Shape.Concatenates [(⟨2, ![a, n]⟩ : Shape), ⟨2, ![b, n]⟩, ⟨2, ![c, n]⟩] ⟨2, ![d, n]⟩ (0 : Fin 2))
    (r : Fin b) (q : Fin n) (hr : a + r.val < d) :
    concatenate ⟨2, ![d, n]⟩ (0 : Fin 2) [⟨⟨2, ![a, n]⟩, x₁⟩, ⟨⟨2, ![b, n]⟩, x₂⟩, ⟨⟨2, ![c, n]⟩, x₃⟩] h (ix2 ⟨a + r.val, hr⟩ q)
      = x₂ (ix2 r q) :=
  concatenate_apply_piece (t := ⟨2, ![d, n]⟩) (0 : Fin 2) [⟨⟨2, ![a, n]⟩, x₁⟩, ⟨⟨2, ![b, n]⟩, x₂⟩, ⟨⟨2, ![c, n]⟩, x₃⟩] h (ix2 ⟨a + r.val, hr⟩ q) 1 (Nat.succ_lt_succ (Nat.succ_pos _))
    ⟨2, ![b, n]⟩ x₂ rfl rfl a rfl (ix2 r q)
    (fun bb hb => match bb, hb with | ⟨0, _⟩, hb => absurd rfl hb | ⟨1, _⟩, _ => rfl) rfl

/-- Three stacked row blocks, an entry of the third. -/
theorem rows3_thd (x₁ : (⟨2, ![a, n]⟩ : Shape).Idx → α) (x₂ : (⟨2, ![b, n]⟩ : Shape).Idx → α) (x₃ : (⟨2, ![c, n]⟩ : Shape).Idx → α)
    (h : Shape.Concatenates [(⟨2, ![a, n]⟩ : Shape), ⟨2, ![b, n]⟩, ⟨2, ![c, n]⟩] ⟨2, ![d, n]⟩ (0 : Fin 2))
    (r : Fin c) (q : Fin n) (hr : a + b + r.val < d) :
    concatenate ⟨2, ![d, n]⟩ (0 : Fin 2) [⟨⟨2, ![a, n]⟩, x₁⟩, ⟨⟨2, ![b, n]⟩, x₂⟩, ⟨⟨2, ![c, n]⟩, x₃⟩] h (ix2 ⟨a + b + r.val, hr⟩ q)
      = x₃ (ix2 r q) :=
  concatenate_apply_piece (t := ⟨2, ![d, n]⟩) (0 : Fin 2) [⟨⟨2, ![a, n]⟩, x₁⟩, ⟨⟨2, ![b, n]⟩, x₂⟩, ⟨⟨2, ![c, n]⟩, x₃⟩] h (ix2 ⟨a + b + r.val, hr⟩ q) 2
    (Nat.succ_lt_succ (Nat.succ_lt_succ (Nat.succ_pos _))) ⟨2, ![c, n]⟩ x₃ rfl rfl (a + b) rfl (ix2 r q)
    (fun bb hb => match bb, hb with | ⟨0, _⟩, hb => absurd rfl hb | ⟨1, _⟩, _ => rfl) rfl

/-- Three vectors end to end, an entry of the first. -/
theorem vec3_fst (x₁ : (⟨1, ![a]⟩ : Shape).Idx → α) (x₂ : (⟨1, ![b]⟩ : Shape).Idx → α) (x₃ : (⟨1, ![c]⟩ : Shape).Idx → α)
    (h : Shape.Concatenates [(⟨1, ![a]⟩ : Shape), ⟨1, ![b]⟩, ⟨1, ![c]⟩] ⟨1, ![d]⟩ (0 : Fin 1))
    (q : Fin a) (hq : q.val < d) :
    concatenate ⟨1, ![d]⟩ (0 : Fin 1) [⟨⟨1, ![a]⟩, x₁⟩, ⟨⟨1, ![b]⟩, x₂⟩, ⟨⟨1, ![c]⟩, x₃⟩] h (ix1 ⟨q.val, hq⟩) = x₁ (ix1 q) :=
  concatenate_apply_piece (t := ⟨1, ![d]⟩) (0 : Fin 1) [⟨⟨1, ![a]⟩, x₁⟩, ⟨⟨1, ![b]⟩, x₂⟩, ⟨⟨1, ![c]⟩, x₃⟩] h (ix1 ⟨q.val, hq⟩) 0 (Nat.succ_pos _) ⟨1, ![a]⟩ x₁ rfl rfl
    0 rfl (ix1 q) (fun bb hb => match bb, hb with | ⟨0, _⟩, hb => absurd rfl hb) (Nat.zero_add _)

/-- Three vectors end to end, an entry of the second. -/
theorem vec3_snd (x₁ : (⟨1, ![a]⟩ : Shape).Idx → α) (x₂ : (⟨1, ![b]⟩ : Shape).Idx → α) (x₃ : (⟨1, ![c]⟩ : Shape).Idx → α)
    (h : Shape.Concatenates [(⟨1, ![a]⟩ : Shape), ⟨1, ![b]⟩, ⟨1, ![c]⟩] ⟨1, ![d]⟩ (0 : Fin 1))
    (q : Fin b) (hq : a + q.val < d) :
    concatenate ⟨1, ![d]⟩ (0 : Fin 1) [⟨⟨1, ![a]⟩, x₁⟩, ⟨⟨1, ![b]⟩, x₂⟩, ⟨⟨1, ![c]⟩, x₃⟩] h (ix1 ⟨a + q.val, hq⟩) = x₂ (ix1 q) :=
  concatenate_apply_piece (t := ⟨1, ![d]⟩) (0 : Fin 1) [⟨⟨1, ![a]⟩, x₁⟩, ⟨⟨1, ![b]⟩, x₂⟩, ⟨⟨1, ![c]⟩, x₃⟩] h (ix1 ⟨a + q.val, hq⟩) 1 (Nat.succ_lt_succ (Nat.succ_pos _))
    ⟨1, ![b]⟩ x₂ rfl rfl a rfl (ix1 q) (fun bb hb => match bb, hb with | ⟨0, _⟩, hb => absurd rfl hb) rfl

/-- Three vectors end to end, an entry of the third. -/
theorem vec3_thd (x₁ : (⟨1, ![a]⟩ : Shape).Idx → α) (x₂ : (⟨1, ![b]⟩ : Shape).Idx → α) (x₃ : (⟨1, ![c]⟩ : Shape).Idx → α)
    (h : Shape.Concatenates [(⟨1, ![a]⟩ : Shape), ⟨1, ![b]⟩, ⟨1, ![c]⟩] ⟨1, ![d]⟩ (0 : Fin 1))
    (q : Fin c) (hq : a + b + q.val < d) :
    concatenate ⟨1, ![d]⟩ (0 : Fin 1) [⟨⟨1, ![a]⟩, x₁⟩, ⟨⟨1, ![b]⟩, x₂⟩, ⟨⟨1, ![c]⟩, x₃⟩] h (ix1 ⟨a + b + q.val, hq⟩) = x₃ (ix1 q) :=
  concatenate_apply_piece (t := ⟨1, ![d]⟩) (0 : Fin 1) [⟨⟨1, ![a]⟩, x₁⟩, ⟨⟨1, ![b]⟩, x₂⟩, ⟨⟨1, ![c]⟩, x₃⟩] h (ix1 ⟨a + b + q.val, hq⟩) 2
    (Nat.succ_lt_succ (Nat.succ_lt_succ (Nat.succ_pos _))) ⟨1, ![c]⟩ x₃ rfl rfl (a + b) rfl (ix1 q)
    (fun bb hb => match bb, hb with | ⟨0, _⟩, hb => absurd rfl hb) rfl

end Concat3

/-- A vector broadcast to a one-column array reads, at `(u, 0)`, as the vector's entry `u`. -/
theorem bcast_col_apply {α : Type} {U : Nat}
    (h : (⟨1, ![U]⟩ : Shape).BroadcastsInDim ⟨2, ![U, 1]⟩ (![0] : Fin 1 → Fin 2))
    (x : (⟨1, ![U]⟩ : Shape).Idx → α) (u : Fin U) :
    broadcastInDim ⟨2, ![U, 1]⟩ ![0] h x (ix2 u 0) = x (ix1 u) :=
  broadcastInDim_apply _ h x (ix2 u 0) (ix1 u) (fun a => match a with
    | ⟨0, _⟩ => by
        show u.val = if U = 1 then 0 else u.val
        by_cases hU : U = 1
        · rw [if_pos hU]; omega
        · rw [if_neg hU])

/-! ## One scatter of stacked pieces is the sum of the pieces' scatters -/

/-- On the extended reals the accumulating scatter is the exact sum. -/
theorem scatterAdd_ideal {s si u : Shape} {φ : FTy} (d : ScatterDims s si u) (x : FVec Ideal s φ) (idx : IVec si w)
    (upd : FVec Ideal u φ) : Host.scatterAdd (F := Ideal) d x idx upd = Ideal.hostScatterAdd d x idx upd := rfl

/-- TWO STACKED PIECES. Scattering the rows of two update arrays laid one above the other, at their row indices laid
    end to end, into an operand that is entrywise the sum of two operands, gives the entrywise sum of the two
    pieces' scatters into those operands. -/
theorem scatterAdd_stacked_pair {φ : FTy} {a b c : Nat} (hc : a + b = c)
    (wf : ScatterDims.WF ⟨2, ![N, C]⟩ ⟨2, ![c, 1]⟩ ⟨2, ![c, C]⟩ [1] [0] [0] 1)
    (wf₁ : ScatterDims.WF ⟨2, ![N, C]⟩ ⟨2, ![a, 1]⟩ ⟨2, ![a, C]⟩ [1] [0] [0] 1)
    (wf₂ : ScatterDims.WF ⟨2, ![N, C]⟩ ⟨2, ![b, 1]⟩ ⟨2, ![b, C]⟩ [1] [0] [0] 1)
    (hb : (⟨1, ![c]⟩ : Shape).BroadcastsInDim ⟨2, ![c, 1]⟩ (![0] : Fin 1 → Fin 2))
    (hb₁ : (⟨1, ![a]⟩ : Shape).BroadcastsInDim ⟨2, ![a, 1]⟩ (![0] : Fin 1 → Fin 2))
    (hb₂ : (⟨1, ![b]⟩ : Shape).BroadcastsInDim ⟨2, ![b, 1]⟩ (![0] : Fin 1 → Fin 2))
    (hcat : Shape.Concatenates [(⟨1, ![a]⟩ : Shape), ⟨1, ![b]⟩] ⟨1, ![c]⟩ (0 : Fin 1))
    (hcat2 : Shape.Concatenates [(⟨2, ![a, C]⟩ : Shape), ⟨2, ![b, C]⟩] ⟨2, ![c, C]⟩ (0 : Fin 2))
    (z z₁ z₂ : FVec Ideal ⟨2, ![N, C]⟩ φ) (hz : ∀ i, z i = z₁ i + z₂ i)
    (rows₁ : IVec ⟨1, ![a]⟩ w) (rows₂ : IVec ⟨1, ![b]⟩ w)
    (upd₁ : FVec Ideal ⟨2, ![a, C]⟩ φ) (upd₂ : FVec Ideal ⟨2, ![b, C]⟩ φ) :
    Host.scatterAdd (F := Ideal) (rowDims N c C wf) z
        (broadcastInDim ⟨2, ![c, 1]⟩ ![0] hb
          (concatenate ⟨1, ![c]⟩ (0 : Fin 1) [⟨⟨1, ![a]⟩, rows₁⟩, ⟨⟨1, ![b]⟩, rows₂⟩] hcat))
        (concatenate ⟨2, ![c, C]⟩ (0 : Fin 2) [⟨⟨2, ![a, C]⟩, upd₁⟩, ⟨⟨2, ![b, C]⟩, upd₂⟩] hcat2)
      = addf (Host.scatterAdd (F := Ideal) (rowDims N a C wf₁) z₁ (broadcastInDim ⟨2, ![a, 1]⟩ ![0] hb₁ rows₁) upd₁)
          (Host.scatterAdd (F := Ideal) (rowDims N b C wf₂) z₂ (broadcastInDim ⟨2, ![b, 1]⟩ ![0] hb₂ rows₂) upd₂) := by
  funext i
  obtain ⟨r, j, rfl⟩ : ∃ (r : Fin N) (j : Fin C), i = ix2 r j := ⟨i 0, i 1, eq_ix2 i⟩
  rw [addf_apply, scatterAdd_ideal, scatterAdd_ideal, scatterAdd_ideal, hostScatterAdd_rows, hostScatterAdd_rows,
    hostScatterAdd_rows, hz]
  rw [rowSum_pair hc _ (broadcastInDim ⟨2, ![a, 1]⟩ ![0] hb₁ rows₁) (broadcastInDim ⟨2, ![b, 1]⟩ ![0] hb₂ rows₂) _ upd₁ upd₂
    (fun u hu => by
      rw [bcast_col_apply, bcast_col_apply]
      exact ConcatPair.vec_fst rows₁ rows₂ hcat u hu)
    (fun u hu => by
      rw [bcast_col_apply, bcast_col_apply]
      exact ConcatPair.vec_snd rows₁ rows₂ hcat u hu)
    (fun u j hu => ConcatPair.rows_fst upd₁ upd₂ hcat2 u j hu)
    (fun u j hu => ConcatPair.rows_snd upd₁ upd₂ hcat2 u j hu)]
  exact add_add_add_comm _ _ _ _

/-- THREE STACKED PIECES. The same for three update arrays and their row indices: one scatter of the stacked arrays is
    the entrywise sum, associated to the left, of the three pieces' scatters. -/
theorem scatterAdd_stacked_triple {φ : FTy} {a b c d : Nat} (hd : a + b + c = d)
    (wf : ScatterDims.WF ⟨2, ![N, C]⟩ ⟨2, ![d, 1]⟩ ⟨2, ![d, C]⟩ [1] [0] [0] 1)
    (wf₁ : ScatterDims.WF ⟨2, ![N, C]⟩ ⟨2, ![a, 1]⟩ ⟨2, ![a, C]⟩ [1] [0] [0] 1)
    (wf₂ : ScatterDims.WF ⟨2, ![N, C]⟩ ⟨2, ![b, 1]⟩ ⟨2, ![b, C]⟩ [1] [0] [0] 1)
    (wf₃ : ScatterDims.WF ⟨2, ![N, C]⟩ ⟨2, ![c, 1]⟩ ⟨2, ![c, C]⟩ [1] [0] [0] 1)
    (hb : (⟨1, ![d]⟩ : Shape).BroadcastsInDim ⟨2, ![d, 1]⟩ (![0] : Fin 1 → Fin 2))
    (hb₁ : (⟨1, ![a]⟩ : Shape).BroadcastsInDim ⟨2, ![a, 1]⟩ (![0] : Fin 1 → Fin 2))
    (hb₂ : (⟨1, ![b]⟩ : Shape).BroadcastsInDim ⟨2, ![b, 1]⟩ (![0] : Fin 1 → Fin 2))
    (hb₃ : (⟨1, ![c]⟩ : Shape).BroadcastsInDim ⟨2, ![c, 1]⟩ (![0] : Fin 1 → Fin 2))
    (hcat : Shape.Concatenates [(⟨1, ![a]⟩ : Shape), ⟨1, ![b]⟩, ⟨1, ![c]⟩] ⟨1, ![d]⟩ (0 : Fin 1))
    (hcat2 : Shape.Concatenates [(⟨2, ![a, C]⟩ : Shape), ⟨2, ![b, C]⟩, ⟨2, ![c, C]⟩] ⟨2, ![d, C]⟩ (0 : Fin 2))
    (z z₁ z₂ z₃ : FVec Ideal ⟨2, ![N, C]⟩ φ) (hz : ∀ i, z i = z₁ i + z₂ i + z₃ i)
    (rows₁ : IVec ⟨1, ![a]⟩ w) (rows₂ : IVec ⟨1, ![b]⟩ w) (rows₃ : IVec ⟨1, ![c]⟩ w)
    (upd₁ : FVec Ideal ⟨2, ![a, C]⟩ φ) (upd₂ : FVec Ideal ⟨2, ![b, C]⟩ φ) (upd₃ : FVec Ideal ⟨2, ![c, C]⟩ φ) :
    Host.scatterAdd (F := Ideal) (rowDims N d C wf) z
        (broadcastInDim ⟨2, ![d, 1]⟩ ![0] hb
          (concatenate ⟨1, ![d]⟩ (0 : Fin 1) [⟨⟨1, ![a]⟩, rows₁⟩, ⟨⟨1, ![b]⟩, rows₂⟩, ⟨⟨1, ![c]⟩, rows₃⟩] hcat))
        (concatenate ⟨2, ![d, C]⟩ (0 : Fin 2) [⟨⟨2, ![a, C]⟩, upd₁⟩, ⟨⟨2, ![b, C]⟩, upd₂⟩, ⟨⟨2, ![c, C]⟩, upd₃⟩] hcat2)
      = addf (addf (Host.scatterAdd (F := Ideal) (rowDims N a C wf₁) z₁ (broadcastInDim ⟨2, ![a, 1]⟩ ![0] hb₁ rows₁) upd₁)
            (Host.scatterAdd (F := Ideal) (rowDims N b C wf₂) z₂ (broadcastInDim ⟨2, ![b, 1]⟩ ![0] hb₂ rows₂) upd₂))
          (Host.scatterAdd (F := Ideal) (rowDims N c C wf₃) z₃ (broadcastInDim ⟨2, ![c, 1]⟩ ![0] hb₃ rows₃) upd₃) := by
  funext i
  obtain ⟨r, j, rfl⟩ : ∃ (r : Fin N) (j : Fin C), i = ix2 r j := ⟨i 0, i 1, eq_ix2 i⟩
  rw [addf_apply, addf_apply, scatterAdd_ideal, scatterAdd_ideal, scatterAdd_ideal, scatterAdd_ideal, hostScatterAdd_rows,
    hostScatterAdd_rows, hostScatterAdd_rows, hostScatterAdd_rows, hz]
  rw [rowSum_triple hd _ (broadcastInDim ⟨2, ![a, 1]⟩ ![0] hb₁ rows₁) (broadcastInDim ⟨2, ![b, 1]⟩ ![0] hb₂ rows₂)
    (broadcastInDim ⟨2, ![c, 1]⟩ ![0] hb₃ rows₃) _ upd₁ upd₂ upd₃
    (fun u hu => by
      rw [bcast_col_apply, bcast_col_apply]
      exact vec3_fst rows₁ rows₂ rows₃ hcat u hu)
    (fun u hu => by
      rw [bcast_col_apply, bcast_col_apply]
      exact vec3_snd rows₁ rows₂ rows₃ hcat u hu)
    (fun u hu => by
      rw [bcast_col_apply, bcast_col_apply]
      exact vec3_thd rows₁ rows₂ rows₃ hcat u hu)
    (fun u j hu => rows3_fst upd₁ upd₂ upd₃ hcat2 u j hu)
    (fun u j hu => rows3_snd upd₁ upd₂ upd₃ hcat2 u j hu)
    (fun u j hu => rows3_thd upd₁ upd₂ upd₃ hcat2 u j hu)]
  generalize z₁ (ix2 r j) = p₁
  generalize z₂ (ix2 r j) = p₂
  generalize z₃ (ix2 r j) = p₃
  generalize rowSum (broadcastInDim ⟨2, ![a, 1]⟩ ![0] hb₁ rows₁) upd₁ r.val j = q₁
  generalize rowSum (broadcastInDim ⟨2, ![b, 1]⟩ ![0] hb₂ rows₂) upd₂ r.val j = q₂
  generalize rowSum (broadcastInDim ⟨2, ![c, 1]⟩ ![0] hb₃ rows₃) upd₃ r.val j = q₃
  abel

/-! ## The zero operand -/

/-- The single-precision constant `+0` spread over an array is the extended real `0` at every entry. -/
theorem zeros_apply {t : Shape} (h : (⟨0, ![]⟩ : Shape).BroadcastsInDim t (![] : Fin 0 → Fin t.rank)) (i : t.Idx) :
    broadcastInDim t ![] h (constant (F := Ideal) ⟨0, ![]⟩ .f32 0x00000000#32) i = 0 := by
  rw [broadcastInDim_apply _ h _ i (fun a => a.elim0) (fun a => a.elim0), constant_apply]
  exact Ideal.ofBits_zero_f32

end Idealize.ShloMosaic.ScatterRows

end
-- ==== Proof.LibGatherRows.lean ====
/-
  Row gathers read at an entry.

  The gather that takes whole rows of an [N, C] array at a column of start indices [U, 1] (offset axis 1, collapsed
  axis 0, start index map [0], index vector on axis 1, slice sizes [1, C]) reads, at result entry (u, j), the operand's
  entry (R u, j), where R u is the start index idx[u, 0] read as a signed integer, negative values taken to 0, and then
  clamped into [0, N − 1] — as every start index of a gather is clamped. The gather that takes single entries of an [N]
  vector at the same column of start indices reads entry R u of the vector, with the same R.
-/
import Idealize.ShloMosaic.PureOps.Ideal
import Idealize.ShloMosaic.Lib.Pipeline.Value
import Idealize.ShloMosaic.Lib.ValueIdx

noncomputable section

namespace Idealize.ShloMosaic.GatherRows

open Idealize.ShloMosaic Idealize.ShloMosaic.ValueIdx

variable {α : Type} {N U C w : Nat}

/-- The row a start index names: read signed, negative taken to 0, clamped to the last row. -/
def rowOf (hN : 0 < N) (idx : IVec ⟨2, ![U, 1]⟩ w) (u : Fin U) : Fin N :=
  ⟨min (idx (ix2 u 0)).toInt.toNat (N - 1), by omega⟩

/-- A start index that, read signed, is a row number names that row. -/
theorem rowOf_eq (hN : 0 < N) (idx : IVec ⟨2, ![U, 1]⟩ w) (u : Fin U) (r : Fin N)
    (h : (idx (ix2 u 0)).toInt = (r.val : Int)) : rowOf hN idx u = r := by
  apply Fin.ext
  show min (idx (ix2 u 0)).toInt.toNat (N - 1) = r.val
  rw [h]
  have := r.isLt
  omega

/-- The dimension numbers of the row gather of an [N, C] array at [U, 1] start indices. -/
abbrev rowsDims (N U C : Nat) (wf : GatherDims.WF ⟨2, ![N, C]⟩ ⟨2, ![U, 1]⟩ ⟨2, ![U, C]⟩ [1] [0] [] [0] [] 1 ![1, C]) :
    GatherDims ⟨2, ![N, C]⟩ ⟨2, ![U, 1]⟩ ⟨2, ![U, C]⟩ where
  offsetDims := [1]
  collapsedSliceDims := [0]
  operandBatchingDims := []
  startIndicesBatchingDims := []
  startIndexMap := [0]
  indexVectorDim := 1
  sliceSizes := ![1, C]
  wf := wf

/-- The dimension numbers of the entry gather of an [N] vector at [U, 1] start indices. -/
abbrev vecDims (N U : Nat) (wf : GatherDims.WF ⟨1, ![N]⟩ ⟨2, ![U, 1]⟩ ⟨1, ![U]⟩ [] [0] [] [0] [] 1 ![1]) :
    GatherDims ⟨1, ![N]⟩ ⟨2, ![U, 1]⟩ ⟨1, ![U]⟩ where
  offsetDims := []
  collapsedSliceDims := [0]
  operandBatchingDims := []
  startIndicesBatchingDims := []
  startIndexMap := [0]
  indexVectorDim := 1
  sliceSizes := ![1]
  wf := wf

/-- THE ROW GATHER AT (u, j): the operand at row `rowOf idx u`, column j. -/
theorem gather_rows_apply (hN : 0 < N)
    (wf : GatherDims.WF ⟨2, ![N, C]⟩ ⟨2, ![U, 1]⟩ ⟨2, ![U, C]⟩ [1] [0] [] [0] [] 1 ![1, C])
    (x : (⟨2, ![N, C]⟩ : Shape).Idx → α) (idx : IVec ⟨2, ![U, 1]⟩ w) (u : Fin U) (j : Fin C) :
    Host.gather (rowsDims N U C wf) x idx (ix2 u j) = x (ix2 (rowOf hN idx u) j) := by
  unfold Host.gather
  congr 1
  funext a
  refine Fin.ext ?_
  match a with
  | ⟨0, _⟩ =>
    show (rowsDims N U C wf).start (ix2 u j) idx 0 + (rowsDims N U C wf).batchCoord (ix2 u j) 0
      + (rowsDims N U C wf).offCoord (ix2 u j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N U C wf).startIndexMap from List.mem_singleton.mpr rfl)]
    have hsi : (rowsDims N U C wf).siIdx (ix2 u j) ⟨List.idxOf (0 : Fin 2) (rowsDims N U C wf).startIndexMap,
        List.idxOf_lt_length_iff.2 (List.mem_singleton.mpr rfl)⟩ = ix2 u 0 := by
      funext b; refine Fin.ext ?_
      match b with
      | ⟨0, _⟩ => rfl
      | ⟨1, _⟩ => rfl
    rw [hsi]
    rfl
  | ⟨1, _⟩ =>
    show (rowsDims N U C wf).start (ix2 u j) idx 1 + (rowsDims N U C wf).batchCoord (ix2 u j) 1
      + (rowsDims N U C wf).offCoord (ix2 u j) 1 = j.val
    rw [GatherDims.batchCoord_eq_zero _ _ _ List.not_mem_nil]
    have hs : (rowsDims N U C wf).start (ix2 u j) idx 1 = 0 := by
      unfold GatherDims.start
      rw [dif_neg (show ¬ (1 : Fin 2) ∈ (rowsDims N U C wf).startIndexMap from (by decide : ¬ (1 : Fin 2) ∈ [(0 : Fin 2)]))]
    have ho : (rowsDims N U C wf).offCoord (ix2 u j) 1 = j.val := by
      unfold GatherDims.offCoord
      rw [dif_pos ((GatherDims.mem_sKept _ _).mpr ⟨(by decide : ¬ (1 : Fin 2) ∈ [(0 : Fin 2)]), List.not_mem_nil⟩)]
      rfl
    rw [hs, ho]; omega

/-- THE ENTRY GATHER AT u: the vector at `rowOf idx u`. -/
theorem gather_vec_apply (hN : 0 < N)
    (wf : GatherDims.WF ⟨1, ![N]⟩ ⟨2, ![U, 1]⟩ ⟨1, ![U]⟩ [] [0] [] [0] [] 1 ![1])
    (x : (⟨1, ![N]⟩ : Shape).Idx → α) (idx : IVec ⟨2, ![U, 1]⟩ w) (u : Fin U) :
    Host.gather (vecDims N U wf) x idx (ix1 u) = x (ix1 (rowOf hN idx u)) := by
  unfold Host.gather
  congr 1
  funext a
  obtain rfl : a = 0 := Subsingleton.elim _ _
  refine Fin.ext ?_
  show (vecDims N U wf).start (ix1 u) idx 0 + (vecDims N U wf).batchCoord (ix1 u) 0 + (vecDims N U wf).offCoord (ix1 u) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecDims N U wf).startIndexMap from List.mem_singleton.mpr rfl)]
  have hsi : (vecDims N U wf).siIdx (ix1 u) ⟨List.idxOf (0 : Fin 1) (vecDims N U wf).startIndexMap,
      List.idxOf_lt_length_iff.2 (List.mem_singleton.mpr rfl)⟩ = ix2 u 0 := by
    funext b; refine Fin.ext ?_
    match b with
    | ⟨0, _⟩ => rfl
    | ⟨1, _⟩ => rfl
  rw [hsi]
  rfl

end Idealize.ShloMosaic.GatherRows

end
-- ==== Proof.KernelEntry.lean ====
/-
  The kernel program's result at node i, feature j.

  Between the launches the scaled features are gathered at the edges' source nodes and summed at their target nodes;
  the second launch adds the node's own scaled features, multiplies by the node's scale and adds the bias. With
  lin r j = Σ_k x(r, k) · w(k, j) and d r the scale of node r, the result is
    d i · ((0 + Σ_{u : target u = i} lin (source u) j · d (source u)) + lin i j · d i) + b j.
-/
import proofs.«167297_j79860621902688_2_alg».proof.Proof.PackedReads
import proofs.«167297_j79860621902688_2_alg».proof.Proof.LibScatterRows
import proofs.«167297_j79860621902688_2_alg».proof.Proof.LibGatherRows

noncomputable section

namespace Cert.KernelIdeal.Entries

open Cert.KernelIdeal Idealize.ShloMosaic Idealize.ShloMosaic.ValueIdx Cert.KernelIdeal.RegionValue
open Cert.KernelIdeal.Facts₀ Cert.KernelIdeal.Facts
open scoped BigOperators

variable (a0 : FVec Ideal S1000000x16 .f32) (a1 : IVec S2x4000000 32) (a2 : FVec Ideal S16x16 .f32) (a3 : FVec Ideal S16 .f32)

/-- The node whose features edge u carries: its source number, counted from the end when negative, clamped to the nodes. -/
def srcRow (u : Fin 4000000) : Fin 1000000 := GatherRows.rowOf (N := 1000000) (by norm_num) (Terms.srcCol a1) u

/-- The first launch's result unpacked, at node r, feature j. -/
theorem hs_unpacked (r : Fin 1000000) (j : Fin 16) :
    shapeCast S1000000x16 (Terms.hsPacked a0 a1 a2) shapeCasts_S125000x128_S1000000x16 (ix2 r j)
      = lin a0 a2 r j * Terms.dinv a1 (ix1 r) := by
  have hr : r.val < 1000000 := r.isLt
  have hj : j.val < 16 := j.isLt
  exact (ReshapeRank2.mat_apply (Terms.hsPacked a0 a1 a2) shapeCasts_S125000x128_S1000000x16 r j
      (⟨r.val / 8, by omega⟩ : Fin 125000) (⟨r.val % 8 * 16 + j.val, by omega⟩ : Fin 128)
      (by show r.val / 8 * 128 + (r.val % 8 * 16 + j.val) = r.val * 16 + j.val; omega)).trans
    (hs_entry a0 a1 a2 r j _ _ rfl rfl)

/-- The aggregation at node i, feature j: the scaled features of the source nodes of the edges pointing at i. -/
theorem agg_entry (i : Fin 1000000) (j : Fin 16) :
    Terms.agg a0 a1 a2 (ix2 i j)
      = 0 + ∑ u : Fin 4000000, if ((Terms.dstCol a1) (ix2 u 0)).toInt = (i.val : Int)
          then lin a0 a2 (srcRow a1 u) j * Terms.dinv a1 (ix1 (srcRow a1 u)) else 0 := by
  unfold Terms.agg
  rw [ScatterRows.scatterAdd_ideal]
  refine (ScatterRows.hostScatterAdd_rows scatter_S1000000x16_S4000000x1_S4000000x16_1_0_0_1_wf _ (Terms.dstCol a1) _ i j).trans ?_
  rw [ScatterRows.zeros_apply]
  refine congrArg (fun z => (0 : EReal) + z) ?_
  unfold ScatterRows.rowSum
  refine Finset.sum_congr rfl fun u _ => ?_
  split_ifs with hc
  · refine (GatherRows.gather_rows_apply (N := 1000000) (by norm_num)
      gather_S1000000x16_S4000000x1_S4000000x16_1_0_n_n_0_1_116_wf _ (Terms.srcCol a1) u j).trans ?_
    exact hs_unpacked a0 a1 a2 (srcRow a1 u) j
  · rfl

/-- THE KERNEL PROGRAM'S RESULT AT NODE i, FEATURE j. -/
theorem out_entry (i : Fin 1000000) (j : Fin 16) :
    Terms.out a0 a1 a2 a3 (ix2 i j)
      = Terms.dinv a1 (ix1 i) * ((0 + ∑ u : Fin 4000000, if ((Terms.dstCol a1) (ix2 u 0)).toInt = (i.val : Int)
          then lin a0 a2 (srcRow a1 u) j * Terms.dinv a1 (ix1 (srcRow a1 u)) else 0) + lin a0 a2 i j * Terms.dinv a1 (ix1 i))
        + a3 (ix1 j) := by
  have hi : i.val < 1000000 := i.isLt
  have hj : j.val < 16 := j.isLt
  unfold Terms.out
  rw [ReshapeRank2.mat_apply _ shapeCasts_S125000x128_S1000000x16 i j
      (⟨i.val / 8, by omega⟩ : Fin 125000) (⟨i.val % 8 * 16 + j.val, by omega⟩ : Fin 128)
      (by show i.val / 8 * 128 + (i.val % 8 * 16 + j.val) = i.val * 16 + j.val; omega)]
  unfold combined
  show Terms.sPacked a1 (ix2 (⟨i.val / 8, _⟩ : Fin 125000) (⟨(i.val % 8 * 16 + j.val) / 16, _⟩ : Fin 8))
      * (shapeCast S125000x128 (Terms.agg a0 a1 a2) shapeCasts_S1000000x16_S125000x128
            (ix2 (⟨i.val / 8, _⟩ : Fin 125000) (⟨i.val % 8 * 16 + j.val, _⟩ : Fin 128))
          + Terms.hsPacked a0 a1 a2 (ix2 (⟨i.val / 8, _⟩ : Fin 125000) (⟨i.val % 8 * 16 + j.val, _⟩ : Fin 128)))
      + Terms.bPacked a3 (ix2 (0 : Fin 1) (⟨i.val % 8 * 16 + j.val, _⟩ : Fin 128)) = _
  rw [sPacked_apply,
    ReshapeRank2.mat_apply (Terms.agg a0 a1 a2) shapeCasts_S1000000x16_S125000x128 _ _ i j
      (by show i.val * 16 + j.val = i.val / 8 * 128 + (i.val % 8 * 16 + j.val); omega),
    agg_entry, hs_entry a0 a1 a2 i j _ _ rfl rfl,
    bPacked_apply a3 _ (⟨i.val % 8, by omega⟩ : Fin 8) j rfl]
  have he : (⟨i.val / 8 * 8 + (i.val % 8 * 16 + j.val) / 16, by omega⟩ : Fin 1000000) = i :=
    Fin.ext (by show i.val / 8 * 8 + (i.val % 8 * 16 + j.val) / 16 = i.val; omega)
  rw [he]

end Cert.KernelIdeal.Entries

end
-- ==== Proof.LibColumnSpread.lean ====
/-
  A one-column array spread across the columns, read at an entry.

  A `broadcast_in_dim` with dimension map (0, 1) from an [a,1] array to an [a,b] array keeps the row axis and repeats
  the single column b times: entry (p, q) of the result is entry (p, 0) of the operand. Generic in the extents.
-/
import Idealize.ShloMosaic.Lib.Pipeline.Value
import Idealize.ShloMosaic.Lib.ValueIdx

noncomputable section

namespace Idealize.ShloMosaic.ColumnSpread

open Idealize.ShloMosaic Idealize.ShloMosaic.ValueIdx

variable {α : Type}

/-- A column [a,1] repeated along the second axis by `broadcast_in_dim` (0, 1): entry (p, q) is the column's entry p. -/
theorem broadcastInDim_col {a b : Nat} (h : (⟨2, ![a, 1]⟩ : Shape).BroadcastsInDim ⟨2, ![a, b]⟩ ![0, 1])
    (x : (⟨2, ![a, 1]⟩ : Shape).Idx → α) (p : Fin a) (q : Fin b) :
    broadcastInDim ⟨2, ![a, b]⟩ ![0, 1] h x (ix2 p q) = x (ix2 p (0 : Fin 1)) :=
  broadcastInDim_apply ![0, 1] h x (ix2 p q) (ix2 p (0 : Fin 1)) fun d => by
    match d with
    | ⟨0, _⟩ =>
      show p.val = if a = 1 then 0 else p.val
      by_cases ha : a = 1
      · rw [if_pos ha]; have := p.isLt; omega
      · rw [if_neg ha]
    | ⟨1, _⟩ => show 0 = if (1 : Nat) = 1 then 0 else q.val; rw [if_pos rfl]

end Idealize.ShloMosaic.ColumnSpread

end
-- ==== Proof.RefEntry.lean ====
/-
  The reference program's result at node i, feature j.

  The reference scales every edge's message by the product of the two end nodes' scales before summing the messages at
  their target nodes, and adds the node's own features times the square of its scale, then the bias. With
  lin r j = Σ_k x(r, k) · w(k, j) and d r the scale of node r, the result is
    ((0 + Σ_{u : target u = i} lin (source u) j · (d (source u) · d (target' u))) + lin i j · (d i · d i)) + b j,
  where target' u is the target number as the gather reads it; on an edge whose target number is the node i itself
  (a number in range), that is i.
-/
import proofs.«167297_j79860621902688_2_alg».proof.Proof.Gen.ReferenceIdeal.Read
import proofs.«167297_j79860621902688_2_alg».proof.Proof.KernelEntry
import proofs.«167297_j79860621902688_2_alg».proof.Proof.LibColumnSpread

noncomputable section

namespace Cert.ReferenceIdeal.RefEntry

open Cert.ReferenceIdeal Cert.ReferenceIdeal.Gen Cert.ReferenceIdeal.Read Idealize.ShloMosaic Idealize.ShloMosaic.ValueIdx
open Cert.KernelIdeal.Entries (lin srcRow)
open scoped BigOperators

variable (a0 : FVec Ideal S1000000x16 .f32) (a1 : IVec S2x4000000 32) (a2 : FVec Ideal S16x16 .f32) (a3 : FVec Ideal S16 .f32)

/-! ## The terms the two programs share -/

theorem scale_eq : val_main_v11 (F := Ideal) a1 = Cert.KernelIdeal.Terms.dinv a1 := rfl
theorem srcCol_eq : val_main_v32 (F := Ideal) a1 = Cert.KernelIdeal.Terms.srcCol a1 := rfl
theorem srcCol_eq' : val_main_v17 (F := Ideal) a1 = Cert.KernelIdeal.Terms.srcCol a1 := rfl
theorem dstCol_eq : val_main_v38 (F := Ideal) a1 = Cert.KernelIdeal.Terms.dstCol a1 := rfl

/-- The node the gather reads for edge u's target number: counted from the end when negative, clamped to the nodes. -/
def dstRow (u : Fin 4000000) : Fin 1000000 := GatherRows.rowOf (N := 1000000) (by norm_num) (val_main_v24 (F := Ideal) a1) u

/-- A 32-bit word that reads, signed, as a natural number is not below zero. -/
theorem not_slt_zero (x : BitVec 32) (n : Nat) (h : x.toInt = (n : Int)) : IntOp.cmpi .slt x 0#32 = 0#1 := by
  have hs : x.slt 0#32 = false := by
    rw [BitVec.slt, h]
    simp
  show BitVec.ofBool (x.slt 0#32) = 0#1
  rw [hs]
  rfl

/-- On an edge whose target number is node i, the gather reads node i. -/
theorem dstRow_eq (u : Fin 4000000) (i : Fin 1000000)
    (hc : ((Cert.KernelIdeal.Terms.dstCol a1) (ix2 u 0)).toInt = (i.val : Int)) : dstRow a1 u = i := by
  refine GatherRows.rowOf_eq _ _ u i ?_
  have hd : Cert.KernelIdeal.Terms.dstCol a1 (ix2 u 0) = val_main_v3 (F := Ideal) a1 (ix1 u) :=
    ScatterRows.bcast_col_apply _ _ u
  have h24 : val_main_v24 (F := Ideal) a1 (ix2 u 0)
      = Scalar.select (IntOp.cmpi .slt (val_main_v3 (F := Ideal) a1 (ix1 u)) 0#32)
          (IntOp.addi (val_main_v3 (F := Ideal) a1 (ix1 u)) 1000000#32) (val_main_v3 (F := Ideal) a1 (ix1 u)) :=
    (ScatterRows.bcast_col_apply _ _ u).trans rfl
  rw [h24]
  rw [hd] at hc
  generalize val_main_v3 (F := Ideal) a1 (ix1 u) = x at hc ⊢
  rw [not_slt_zero x i.val hc]
  show (if (0#1 : BitVec 1) = 1 then _ else x).toInt = _
  rw [if_neg (by decide)]
  exact hc

/-! ## The stages read at an entry -/

/-- The features against the weights. -/
theorem lin_apply (r : Fin 1000000) (j : Fin 16) : val_main_v4 (F := Ideal) a0 a2 (ix2 r j) = lin a0 a2 r j := by
  unfold val_main_v4
  exact PlainDot.hostDot_apply dot_S1000000x16_S16x16_S1000000x16_1_0_0_1_n_n rfl none a0 a2 (ix2 r j)

/-- An edge's normalization: the product of its two end nodes' scales. -/
theorem norm_apply (u : Fin 4000000) :
    val_main_v26 (F := Ideal) a1 (ix1 u)
      = Cert.KernelIdeal.Terms.dinv a1 (ix1 (srcRow a1 u)) * Cert.KernelIdeal.Terms.dinv a1 (ix1 (dstRow a1 u)) := by
  unfold val_main_v26
  rw [mulf_apply]
  unfold val_main_v18 val_main_v25
  rw [scale_eq, srcCol_eq']
  refine congrArg₂ (· * ·) ?_ ?_
  · exact GatherRows.gather_vec_apply (N := 1000000) (by norm_num) gather_S1000000_S4000000x1_S4000000_n_0_n_n_0_1_1_wf _ _ u
  · exact GatherRows.gather_vec_apply (N := 1000000) (by norm_num) gather_S1000000_S4000000x1_S4000000_n_0_n_n_0_1_1_wf _ _ u

/-- An edge's message at feature j. -/
theorem msg_apply (u : Fin 4000000) (j : Fin 16) :
    val_main_v36 (F := Ideal) a0 a1 a2 (ix2 u j)
      = lin a0 a2 (srcRow a1 u) j
        * (Cert.KernelIdeal.Terms.dinv a1 (ix1 (srcRow a1 u)) * Cert.KernelIdeal.Terms.dinv a1 (ix1 (dstRow a1 u))) := by
  unfold val_main_v36
  rw [mulf_apply]
  refine congrArg₂ (· * ·) ?_ ?_
  · unfold val_main_v33
    rw [srcCol_eq]
    refine (GatherRows.gather_rows_apply (N := 1000000) (by norm_num)
      gather_S1000000x16_S4000000x1_S4000000x16_1_0_n_n_0_1_116_wf _ _ u j).trans ?_
    exact lin_apply a0 a2 _ j
  · unfold val_main_v35 val_main_v34
    rw [ColumnSpread.broadcastInDim_col, ScatterRows.bcast_col_apply]
    exact norm_apply a1 u

/-- The messages summed at node i, feature j. -/
theorem agg_apply (i : Fin 1000000) (j : Fin 16) :
    val_main_v39 (F := Ideal) a0 a1 a2 (ix2 i j)
      = 0 + ∑ u : Fin 4000000, if ((Cert.KernelIdeal.Terms.dstCol a1) (ix2 u 0)).toInt = (i.val : Int)
          then lin a0 a2 (srcRow a1 u) j
            * (Cert.KernelIdeal.Terms.dinv a1 (ix1 (srcRow a1 u)) * Cert.KernelIdeal.Terms.dinv a1 (ix1 (dstRow a1 u)))
          else 0 := by
  unfold val_main_v39
  rw [dstCol_eq, ScatterRows.scatterAdd_ideal]
  refine (ScatterRows.hostScatterAdd_rows scatter_S1000000x16_S4000000x1_S4000000x16_1_0_0_1_wf _
    (Cert.KernelIdeal.Terms.dstCol a1) _ i j).trans ?_
  unfold val_main_v37 val_main_cst_7
  rw [ScatterRows.zeros_apply]
  refine congrArg (fun z => (0 : EReal) + z) ?_
  unfold ScatterRows.rowSum
  refine Finset.sum_congr rfl fun u _ => ?_
  split_ifs with hc
  · exact msg_apply a0 a1 a2 u j
  · rfl

/-- The node's own contribution at feature j. -/
theorem self_apply (i : Fin 1000000) (j : Fin 16) :
    val_main_v43 (F := Ideal) a0 a1 a2 (ix2 i j)
      = lin a0 a2 i j * (Cert.KernelIdeal.Terms.dinv a1 (ix1 i) * Cert.KernelIdeal.Terms.dinv a1 (ix1 i)) := by
  unfold val_main_v43
  rw [mulf_apply, lin_apply]
  unfold val_main_v42 val_main_v41 val_main_v40
  rw [ColumnSpread.broadcastInDim_col, ScatterRows.bcast_col_apply, mulf_apply, scale_eq]

/-- The bias at feature j. -/
theorem bias_apply (i : Fin 1000000) (j : Fin 16) : val_main_v46 (F := Ideal) a3 (ix2 i j) = a3 (ix1 j) := by
  unfold val_main_v46 val_main_v45
  rw [broadcastInDim_apply _ bcast_S1x16_S1000000x16_0_1 _ (ix2 i j) (ix2 (0 : Fin 1) j) (fun a => match a with
      | ⟨0, _⟩ => rfl
      | ⟨1, _⟩ => rfl)]
  exact broadcastInDim_apply _ bcast_S16_S1x16_1 a3 (ix2 (0 : Fin 1) j) (ix1 j) (fun a => match a with
      | ⟨0, _⟩ => rfl)

/-- THE REFERENCE PROGRAM'S RESULT AT NODE i, FEATURE j. -/
theorem out_apply (i : Fin 1000000) (j : Fin 16) :
    val_main_v47 (F := Ideal) a0 a1 a2 a3 (ix2 i j)
      = ((0 + ∑ u : Fin 4000000, if ((Cert.KernelIdeal.Terms.dstCol a1) (ix2 u 0)).toInt = (i.val : Int)
            then lin a0 a2 (srcRow a1 u) j
              * (Cert.KernelIdeal.Terms.dinv a1 (ix1 (srcRow a1 u)) * Cert.KernelIdeal.Terms.dinv a1 (ix1 (dstRow a1 u)))
            else 0)
          + lin a0 a2 i j * (Cert.KernelIdeal.Terms.dinv a1 (ix1 i) * Cert.KernelIdeal.Terms.dinv a1 (ix1 i)))
        + a3 (ix1 j) := by
  unfold val_main_v47 val_main_v44
  rw [addf_apply, addf_apply, agg_apply, self_apply, bias_apply]

end Cert.ReferenceIdeal.RefEntry

end
-- ==== Proof.LibRealImage.lean ====
/-
  GENERAL LEMMAS: real numbers inside the extended reals, under finite sums and maxima.
  • `coe_sum`: the image of a finite sum of reals is the sum of the images;
  • `coe_max`: the image of a maximum of two reals is the maximum of the images;
  • `sum_mul_real`: a finite sum of reals times a real is the sum of the products, computed on the extended reals
    (the distributive law, which fails there at infinities, holds when every term and the factor are real).
-/
import Mathlib.Data.EReal.Basic
import Mathlib.Data.EReal.Operations
import Mathlib.Algebra.BigOperators.Fin

open scoped BigOperators

namespace Cert.Lib.RealImage

/-- The image of a finite sum of reals is the sum of the images. -/
theorem coe_sum {ι : Type*} (s : Finset ι) (f : ι → ℝ) : ((∑ i ∈ s, f i : ℝ) : EReal) = ∑ i ∈ s, (f i : EReal) :=
  map_sum (⟨⟨Real.toEReal, EReal.coe_zero⟩, EReal.coe_add⟩ : ℝ →+ EReal) f s

/-- The image of a maximum of reals is the maximum of the images. -/
theorem coe_max (a b : ℝ) : ((max a b : ℝ) : EReal) = max (a : EReal) (b : EReal) :=
  EReal.coe_strictMono.monotone.map_max

/-- A sum of reals times a real is the sum of the products, on the extended reals. -/
theorem sum_mul_real {ι : Type*} (s : Finset ι) (h : ι → ℝ) (e : ℝ) :
    (∑ i ∈ s, (h i : EReal)) * (e : EReal) = ∑ i ∈ s, (h i : EReal) * (e : EReal) := by
  rw [← coe_sum, ← EReal.coe_mul, Finset.sum_mul, coe_sum]
  exact Finset.sum_congr rfl fun i _ => EReal.coe_mul _ _

end Cert.Lib.RealImage
-- ==== Proof.LibRealClosure.lean ====
/-
  GENERAL LEMMAS: arrays of extended reals all of whose entries are (images of) reals stay so under the host
  operations that only move, multiply and add entries.
  • `sum_real`, `add_real`, `mul_real`: finite sums, sums and products of reals are real;
  • `scatterAdd_real`: an accumulating scatter of real updates into a real array is real, whatever the indices
    (each entry is the operand's entry plus a finite sum of update entries);
  • `mulf_real`, `gather_real`, `broadcastInDim_real`, `constant_zero_real`: an entrywise product, a gather, a
    broadcast of real arrays, and the zero scalar.
-/
import Idealize.ShloMosaic.PureOps.Ideal
import Idealize.ShloMosaic.PureOps.Ideal.Laws
import proofs.«167297_j79860621902688_2_alg».proof.Proof.LibRealImage

noncomputable section

open Idealize.ShloMosaic
open scoped BigOperators

namespace Cert.Lib.RealClosure

theorem sum_real {ι : Type*} (s : Finset ι) (f : ι → EReal) (hf : ∀ j, ∃ y : ℝ, f j = (y : EReal)) :
    ∃ y : ℝ, ∑ j ∈ s, f j = (y : EReal) := by
  choose f' hf' using hf
  exact ⟨∑ j ∈ s, f' j, by rw [Cert.Lib.RealImage.coe_sum]; exact Finset.sum_congr rfl fun j _ => hf' j⟩

theorem add_real (a b : EReal) (ha : ∃ y : ℝ, a = (y : EReal)) (hb : ∃ y : ℝ, b = (y : EReal)) : ∃ y : ℝ, a + b = (y : EReal) := by
  obtain ⟨a', rfl⟩ := ha; obtain ⟨b', rfl⟩ := hb; exact ⟨a' + b', (EReal.coe_add _ _).symm⟩

theorem mul_real (a b : EReal) (ha : ∃ y : ℝ, a = (y : EReal)) (hb : ∃ y : ℝ, b = (y : EReal)) : ∃ y : ℝ, a * b = (y : EReal) := by
  obtain ⟨a', rfl⟩ := ha; obtain ⟨b', rfl⟩ := hb; exact ⟨a' * b', (EReal.coe_mul _ _).symm⟩

/-- An accumulating scatter of real updates into a real array is real, whatever the indices. -/
theorem scatterAdd_real {s si su : Shape} (d : ScatterDims s si su) {w : ℕ} (x : FVec Ideal s .f32) (idx : IVec si w)
    (upd : FVec Ideal su .f32) (hx : ∀ i, ∃ y : ℝ, x i = (y : EReal)) (hu : ∀ j, ∃ y : ℝ, upd j = (y : EReal)) (i : s.Idx) :
    ∃ y : ℝ, Host.scatterAdd d x idx upd i = (y : EReal) := by
  simp only [Host.scatterAdd, Ideal.hostScatterAdd_def]
  unfold Ideal.hostScatterAdd
  exact add_real _ _ (hx i) (sum_real _ _ hu)

/-- A product of a gathered real array and a broadcast real array is real, entry by entry. -/
theorem mulf_real {s : Shape} (a b : FVec Ideal s .f32) (ha : ∀ j, ∃ y : ℝ, a j = (y : EReal)) (hb : ∀ j, ∃ y : ℝ, b j = (y : EReal))
    (j : s.Idx) : ∃ y : ℝ, mulf a b j = (y : EReal) :=
  mul_real _ _ (ha j) (hb j)

theorem gather_real {s si t : Shape} {w : ℕ} (d : GatherDims s si t) (x : FVec Ideal s .f32) (idx : IVec si w)
    (hx : ∀ i, ∃ y : ℝ, x i = (y : EReal)) (j : t.Idx) : ∃ y : ℝ, Host.gather d x idx j = (y : EReal) :=
  hx _

theorem broadcastInDim_real {s t : Shape} (dims : Fin s.rank → Fin t.rank) (h : s.BroadcastsInDim t dims) (x : FVec Ideal s .f32)
    (hx : ∀ i, ∃ y : ℝ, x i = (y : EReal)) (j : t.Idx) : ∃ y : ℝ, broadcastInDim t dims h x j = (y : EReal) :=
  hx _

theorem constant_zero_real (j : (⟨0, ![]⟩ : Shape).Idx) : ∃ y : ℝ, constant (F := Ideal) ⟨0, ![]⟩ .f32 0x00000000#32 j = (y : EReal) :=
  ⟨0, by show Ideal.ofBits .f32 0x00000000#32 = _; rw [Ideal.ofBits_zero_f32, EReal.coe_zero]⟩

end Cert.Lib.RealClosure

end
-- ==== Proof.RealFacts.lean ====
/-
  The quantities the law is applied to are real numbers.

  A node's features against a column of the weights is a finite sum of products of reals. The count of edges pointing
  at a node is a finite sum of ones onto zero, so a real that is not negative; one more is positive, and the inverse
  square root of a positive real is a real: every node's scale is a real number, whatever the edge array holds.
-/
import proofs.«167297_j79860621902688_2_alg».proof.Proof.KernelEntry
import proofs.«167297_j79860621902688_2_alg».proof.Proof.LibRealClosure

noncomputable section

namespace Cert.KernelIdeal.Entries

open Cert.KernelIdeal Idealize.ShloMosaic Idealize.ShloMosaic.ValueIdx
open scoped BigOperators

/-- A node's features against a column of the weights is real when the features and the weights are. -/
theorem lin_real (a0 : (⟨2, ![1000000, 16]⟩ : Shape).Idx → EReal) (a2 : (⟨2, ![16, 16]⟩ : Shape).Idx → EReal)
    (h0 : ∀ i, ∃ y : ℝ, a0 i = (y : EReal)) (h2 : ∀ i, ∃ y : ℝ, a2 i = (y : EReal)) (r : Fin 1000000) (j : Fin 16) :
    ∃ y : ℝ, lin a0 a2 r j = (y : EReal) :=
  Cert.Lib.RealClosure.sum_real _ _ fun k => Cert.Lib.RealClosure.mul_real _ _ (h0 _) (h2 _)

/-- The single-precision word of 1.0 is the real number one. -/
theorem one_word : Ideal.ofBits .f32 0x3F800000#32 = ((1 : ℝ) : EReal) := by
  simp [Ideal.ofBits, Ideal.ieee, -EReal.coe_mul]; norm_num

/-- The single-precision constant 1.0 spread over an array is the real number one at every entry. -/
theorem ones_apply {t : Shape} (h : (⟨0, ![]⟩ : Shape).BroadcastsInDim t (![] : Fin 0 → Fin t.rank)) (i : t.Idx) :
    broadcastInDim t ![] h (constant (F := Ideal) ⟨0, ![]⟩ .f32 0x3F800000#32) i = ((1 : ℝ) : EReal) := by
  rw [broadcastInDim_apply _ h _ i (fun a => a.elim0) (fun a => a.elim0), constant_apply]
  exact one_word

/-- A finite sum of ones is a real that is not negative. -/
theorem sum_ones_real {ι : Type*} (s : Finset ι) (f : ι → EReal) (hf : ∀ j, f j = ((1 : ℝ) : EReal)) :
    ∃ y : ℝ, 0 ≤ y ∧ ∑ j ∈ s, f j = (y : EReal) :=
  ⟨∑ _j ∈ s, (1 : ℝ), Finset.sum_nonneg fun _ _ => zero_le_one, by
    rw [Cert.Lib.RealImage.coe_sum]; exact Finset.sum_congr rfl fun j _ => hf j⟩

/-- Ones scattered onto zeros and one more: a positive real at every entry, whatever the indices. -/
theorem count_plus_one_pos {s si su : Shape} (d : ScatterDims s si su) {w : Nat} (x : FVec Ideal s .f32) (idx : IVec si w)
    (upd : FVec Ideal su .f32) (one : FVec Ideal s .f32) (hx : ∀ i, x i = 0) (hu : ∀ j, upd j = ((1 : ℝ) : EReal))
    (hone : ∀ i, one i = ((1 : ℝ) : EReal)) (i : s.Idx) :
    ∃ y : ℝ, 0 < y ∧ addf (Host.scatterAdd d x idx upd) one i = (y : EReal) := by
  rw [addf_apply]
  simp only [Host.scatterAdd, Ideal.hostScatterAdd_def]
  unfold Ideal.hostScatterAdd
  obtain ⟨n, hn, hsum⟩ := sum_ones_real (Finset.univ.filter fun j => d.resultIdx? j idx = some i) upd hu
  refine ⟨n + 1, by linarith, ?_⟩
  rw [hx, zero_add, hone, EReal.coe_add]
  exact congrArg (· + ((1 : ℝ) : EReal)) hsum

/-- The inverse square root of a positive real is a real. -/
theorem rsqrt_pos_real (y : ℝ) (hy : 0 < y) : ∃ z : ℝ, Ideal.rsqrt ((y : ℝ) : EReal) = (z : EReal) := by
  rw [Ideal.rsqrt_coe, if_neg (not_lt.mpr hy.le), if_neg (ne_of_gt hy)]
  exact ⟨_, rfl⟩

/-- The host's inverse square root of an array, at an entry. -/
theorem hostRsqrt_apply {s : Shape} (x : FVec Ideal s .f32) (i : s.Idx) : Host.rsqrt x i = Ideal.rsqrt (x i) := rfl

/-- Every node's scale is a real number. -/
theorem dinv_real (a1 : IVec S2x4000000 32) (i : S1000000.Idx) : ∃ y : ℝ, Terms.dinv a1 i = (y : EReal) := by
  obtain ⟨y, hy, he⟩ := count_plus_one_pos scatter_S1000000_S4000000x1_S4000000_n_0_0_1
    (broadcastInDim S1000000 ![] Cert.KernelIdeal.Facts₀.bcast_S_S1000000 (constant (F := Ideal) S_ .f32 0x00000000#32))
    (Terms.dstCol a1)
    (broadcastInDim S4000000 ![] Cert.KernelIdeal.Facts₀.bcast_S_S4000000 (constant (F := Ideal) S_ .f32 0x3F800000#32))
    (broadcastInDim S1000000 ![] Cert.KernelIdeal.Facts₀.bcast_S_S1000000 (constant (F := Ideal) S_ .f32 0x3F800000#32))
    (fun i => ScatterRows.zeros_apply Cert.KernelIdeal.Facts₀.bcast_S_S1000000 i)
    (fun j => ones_apply Cert.KernelIdeal.Facts₀.bcast_S_S4000000 j) (fun i => ones_apply Cert.KernelIdeal.Facts₀.bcast_S_S1000000 i) i
  have hdeg : Terms.deg a1 i = (y : EReal) := by
    unfold Terms.deg
    exact he
  unfold Terms.dinv
  rw [hostRsqrt_apply, hdeg]
  exact rsqrt_pos_real y hy

end Cert.KernelIdeal.Entries

end
-- ==== Proof.GcnLaw.lean ====
/-
  The law that joins the two arrangements of a normalized graph convolution, on the extended reals.

  Node i collects, over the edges u that point at it, the source node's feature H u. One arrangement scales every
  message by the product of the two end nodes' factors, D u · d, adds the node's own feature times d · d, then the bias;
  the other sums the messages scaled by the source factor only, adds the node's own feature scaled by d, and multiplies
  the whole by d once before the bias. Multiplication distributes over the sums because every quantity involved is a
  real number; the bias is added last on both sides and may be any extended real.
-/
import proofs.«167297_j79860621902688_2_alg».proof.Proof.LibRealImage

noncomputable section

open scoped BigOperators

namespace Cert.GcnLaw

/-- A sum of reals selected by a condition, taken in the extended reals, is the image of the real sum. -/
theorem coe_sum_ite {ι : Type*} [Fintype ι] (c : ι → Prop) [DecidablePred c] (f : ι → ℝ) :
    (∑ u : ι, if c u then ((f u : ℝ) : EReal) else 0) = ((∑ u : ι, if c u then f u else 0 : ℝ) : EReal) := by
  rw [Cert.Lib.RealImage.coe_sum]
  refine Finset.sum_congr rfl fun u _ => ?_
  split_ifs
  · rfl
  · exact EReal.coe_zero.symm

/-- The two arrangements agree. -/
theorem factor_out {ι : Type*} [Fintype ι] (c : ι → Prop) [DecidablePred c] (H D : ι → EReal) (d hi b : EReal)
    (hH : ∀ u, ∃ y : ℝ, H u = (y : EReal)) (hD : ∀ u, ∃ y : ℝ, D u = (y : EReal))
    (hd : ∃ y : ℝ, d = (y : EReal)) (hhi : ∃ y : ℝ, hi = (y : EReal)) :
    d * ((0 + ∑ u : ι, if c u then H u * D u else 0) + hi * d) + b
      = ((0 + ∑ u : ι, if c u then H u * (D u * d) else 0) + hi * (d * d)) + b := by
  choose H' hH' using hH
  choose D' hD' using hD
  obtain ⟨d', rfl⟩ := hd
  obtain ⟨hi', rfl⟩ := hhi
  congr 1
  simp only [hH', hD', ← EReal.coe_mul, zero_add]
  rw [coe_sum_ite c (fun u => H' u * D' u), coe_sum_ite c (fun u => H' u * (D' u * d'))]
  simp only [← EReal.coe_mul, ← EReal.coe_add]
  congr 1
  rw [mul_add, Finset.mul_sum]
  congr 1
  · refine Finset.sum_congr rfl fun u _ => ?_
    split_ifs
    · ring
    · ring
  · ring

end Cert.GcnLaw

end
-- ==== Proof.Bridge.lean ====
/-
  The two programs' results are one array.

  At node i and feature j the kernel program computes d i · ((0 + Σ_u m u · d (s u)) + lin i j · d i) + b j and the
  reference ((0 + Σ_u m u · (d (s u) · d i)) + lin i j · (d i · d i)) + b j, the sums over the edges u pointing at i, with
  m u the features of the edge's source node against the weights, s u that node and d the nodes' scales — once the
  reference's second gathered scale is read at i itself, which it is on exactly those edges. Every m u, lin i j and d is
  a real number when the features and the weights are, so the factor d i distributes over the sums.
-/
import proofs.«167297_j79860621902688_2_alg».proof.Proof.RefEntry
import proofs.«167297_j79860621902688_2_alg».proof.Proof.RealFacts
import proofs.«167297_j79860621902688_2_alg».proof.Proof.GcnLaw

noncomputable section

namespace Cert.Bridge

open Idealize.ShloMosaic Idealize.ShloMosaic.ValueIdx
open Cert.KernelIdeal.Entries Cert.ReferenceIdeal.RefEntry
open scoped BigOperators

/-- With real features and weights the reference's result array is the kernel program's. -/
theorem results_agree (a0 : FVec Ideal Cert.KernelIdeal.S1000000x16 .f32) (a1 : IVec Cert.KernelIdeal.S2x4000000 32)
    (a2 : FVec Ideal Cert.KernelIdeal.S16x16 .f32) (a3 : FVec Ideal Cert.KernelIdeal.S16 .f32)
    (h0 : ∀ i, ∃ y : ℝ, a0 i = (y : EReal)) (h2 : ∀ i, ∃ y : ℝ, a2 i = (y : EReal)) :
    Cert.ReferenceIdeal.Read.val_main_v47 (F := Ideal) a0 a1 a2 a3 = Cert.KernelIdeal.Terms.out a0 a1 a2 a3 := by
  funext y
  obtain ⟨i, j, rfl⟩ : ∃ (i : Fin 1000000) (j : Fin 16), y = ix2 i j := ⟨y 0, y 1, eq_ix2 y⟩
  rw [Cert.ReferenceIdeal.RefEntry.out_apply, Cert.KernelIdeal.Entries.out_entry]
  have hsum : (∑ u : Fin 4000000, if ((Cert.KernelIdeal.Terms.dstCol a1) (ix2 u 0)).toInt = (i.val : Int)
        then lin a0 a2 (srcRow a1 u) j
          * (Cert.KernelIdeal.Terms.dinv a1 (ix1 (srcRow a1 u)) * Cert.KernelIdeal.Terms.dinv a1 (ix1 (dstRow a1 u)))
        else 0)
      = ∑ u : Fin 4000000, if ((Cert.KernelIdeal.Terms.dstCol a1) (ix2 u 0)).toInt = (i.val : Int)
        then lin a0 a2 (srcRow a1 u) j
          * (Cert.KernelIdeal.Terms.dinv a1 (ix1 (srcRow a1 u)) * Cert.KernelIdeal.Terms.dinv a1 (ix1 i))
        else 0 :=
    Finset.sum_congr rfl fun u _ => by
      split_ifs with hc
      · rw [dstRow_eq a1 u i hc]
      · rfl
  rw [hsum]
  exact (Cert.GcnLaw.factor_out
    (fun u : Fin 4000000 => ((Cert.KernelIdeal.Terms.dstCol a1) (ix2 u 0)).toInt = (i.val : Int))
    (fun u => lin a0 a2 (srcRow a1 u) j) (fun u => Cert.KernelIdeal.Terms.dinv a1 (ix1 (srcRow a1 u)))
    (Cert.KernelIdeal.Terms.dinv a1 (ix1 i)) (lin a0 a2 i j) (a3 (ix1 j))
    (fun u => lin_real a0 a2 h0 h2 _ j) (fun u => dinv_real a1 _) (dinv_real a1 _) (lin_real a0 a2 h0 h2 i j)).symm

end Cert.Bridge

end
-- ==== Proof.lean ====
/-
  A graph convolution with symmetric normalization, out = D^{-1/2} (A + I) D^{-1/2} (x W) + b over 1,000,000 nodes of 16
  features and 4,000,000 edges, computed two ways.

  The kernel program packs eight nodes to a 128-lane row and runs two launches of 25 blocks each: the first multiplies
  the packed features by the weights repeated down the diagonal of a 128×128 matrix and scales each node's row by the
  node's factor d = (1 + in-degree)^{-1/2}; between the launches the host gathers those scaled rows at the edges' source
  nodes and sums them at the target nodes; the second adds the node's own scaled row, multiplies by d once more and adds
  the bias. The reference multiplies every edge's message by both end nodes' factors before summing and adds the node's
  own row times d². On the extended reals the two agree because, under the precondition, the features and the weights
  are real numbers, hence so are all the rows, and the factors d are real whatever the edges are; the factor d i then
  distributes over the sum of the messages.

  The frames of the two kernel programs are their generated frame certificates; the reference's frame is its generated
  run with the result dropped; no rewrite was made in idealizing the kernel, so there is nothing to preserve.
-/
import proofs.«167297_j79860621902688_2_alg».proof.Defs
import proofs.«167297_j79860621902688_2_alg».proof.Proof.Gen.Kernel
import proofs.«167297_j79860621902688_2_alg».proof.Proof.Gen.Kernel.Skeleton
import proofs.«167297_j79860621902688_2_alg».proof.Proof.Gen.Kernel.Launch
import proofs.«167297_j79860621902688_2_alg».proof.Proof.Gen.Kernel.Points
import proofs.«167297_j79860621902688_2_alg».proof.Proof.Gen.Kernel.Frame
import proofs.«167297_j79860621902688_2_alg».proof.Proof.Gen.KernelIdeal
import proofs.«167297_j79860621902688_2_alg».proof.Proof.Gen.KernelIdeal.Skeleton
import proofs.«167297_j79860621902688_2_alg».proof.Proof.Gen.KernelIdeal.Launch
import proofs.«167297_j79860621902688_2_alg».proof.Proof.Gen.KernelIdeal.Points
import proofs.«167297_j79860621902688_2_alg».proof.Proof.Gen.KernelIdeal.Frame
import proofs.«167297_j79860621902688_2_alg».proof.Proof.Gen.ReferenceIdeal
import proofs.«167297_j79860621902688_2_alg».proof.Proof.Gen.ReferenceIdeal.Run
import proofs.«167297_j79860621902688_2_alg».proof.Proof.Gen.ReferenceIdeal.Read
import proofs.«167297_j79860621902688_2_alg».proof.Proof.Gen.Pre_finite_inputs
import proofs.«167297_j79860621902688_2_alg».proof.Proof.KernelRun
import proofs.«167297_j79860621902688_2_alg».proof.Proof.Boundaries
import proofs.«167297_j79860621902688_2_alg».proof.Proof.FiniteArgs
import proofs.«167297_j79860621902688_2_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

/-- Both idealized programs end with the result term of the kernel program at the arguments as launched. -/
theorem algebraic : Cert.algebraic_KernelIdeal_ReferenceIdeal := by
  intro m ρ m' ρ' hpre hagree
  refine ⟨fun c => Cert.KernelIdeal.Terms.out
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun r h c => ⟨(h c).1.trans (Cert.KernelIdeal.Boundary.returned m ρ c), (h c).2⟩)
      (Cert.KernelIdeal.RunValue.run_result m ρ)
  · refine (θ_run Cert.ReferenceIdeal.defs _ _).mono (fun _ h c => ⟨?_, (h c).2⟩)
      (Cert.ReferenceIdeal.Value.run (F := Ideal) m' ρ')
    obtain ⟨r0, r2, -⟩ := Cert.Pre_finite_inputs.Decode.reals_of_pre _ _ _ _ (hpre c)
    rw [(h c).1, Cert.ReferenceIdeal.Read.val_main_v47_eq, (hagree c).1, (hagree c).2.1, (hagree c).2.2.1, (hagree c).2.2.2]
    exact Cert.Bridge.results_agree _ _ _ _ r0 r2

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, algebraic⟩

end Cert.Proof

end
